-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x200000x4 : Shape := ⟨3, ![16, 200000, 4]⟩
abbrev S5x64 : Shape := ⟨2, ![5, 64]⟩
abbrev S64 : Shape := ⟨1, ![64]⟩
abbrev S64x96 : Shape := ⟨2, ![64, 96]⟩
abbrev S96 : Shape := ⟨1, ![96]⟩
abbrev S_ : Shape := ⟨0, ![]⟩

class Facts : Prop where
  bcast_S_S16x200000x4 : S_.BroadcastsInDim S16x200000x4 (![] : Fin 0 → Fin S16x200000x4.rank)
  reducesTo_S16x200000x4_S_d0_1_2 : S16x200000x4.ReducesTo [0, 1, 2] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_arg5 : FVec F S96 .f32) (main_arg6 : FVec F S96 .f32) (main_v13 : IVec S_ 1) (main_v16 : IVec S64x96 1) : IVec S_ 1 :=
  let main_c_5 : IVec S_ 1 := constantI S_ 1 1#1
  let main_v17 : IVec S_ 1 := (fun x v => Host.reduce IntOp.andi x v reducesTo_S64x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  main_v33

def fn {F : FTy → Type} [FloatOps F] (main_arg0 : FVec F S16x200000x4 .f32) (main_arg1 : FVec F S5x64 .f32) (main_arg2 : FVec F S64 .f32) (main_arg3 : FVec F S64x96 .f32) (main_arg4 : FVec F S96 .f32) (main_arg5 : FVec F S96 .f32) (main_arg6 : FVec F S96 .f32) : IVec S_ 1 :=
  let main_v0 : FVec F S16x200000x4 .f32 := Host.absf main_arg0
  let main_cst : FVec F S_ .f32 := constant S_ .f32 0x7F800000#32
  let main_v1 : FVec F S16x200000x4 .f32 := broadcastInDim S16x200000x4 ![] bcast_S_S16x200000x4 main_cst
  let main_v2 : IVec S16x200000x4 1 := cmpf .olt main_v0 main_v1
  let main_c : IVec S_ 1 := constantI S_ 1 1#1
  let main_v3 : IVec S_ 1 := (fun x v => Host.reduce IntOp.andi x v reducesTo_S16x200000x4_S_d0_1_2 h_S_) main_v2 main_c
  let main_v4 : FVec F S5x64 .f32 := Host.absf main_arg1
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x96 .f32 := Host.absf main_arg3
  let main_cst_4 : FVec F S_ .f32 := constant S_ .f32 0x7F800000#32
  let main_v15 : FVec F S64x96 .f32 := broadcastInDim S64x96 ![] bcast_S_S64x96 main_cst_4
  let main_v16 : IVec S64x96 1 := cmpf .olt main_v14 main_v15
  fn_part1 (F := F) main_arg4 main_arg5 main_arg6 main_v13 main_v16
-- ==== Kernel.lean ====
abbrev S16x200000x4 : Shape := ⟨3, ![16, 200000, 4]⟩
abbrev S5x64 : Shape := ⟨2, ![5, 64]⟩
abbrev S64 : Shape := ⟨1, ![64]⟩
abbrev S64x96 : Shape := ⟨2, ![64, 96]⟩
abbrev S96 : Shape := ⟨1, ![96]⟩
abbrev S16x5x200x200 : Shape := ⟨4, ![16, 5, 200, 200]⟩
abbrev S1x5000x4 : Shape := ⟨3, ![1, 5000, 4]⟩
abbrev S1x5x200x200 : Shape := ⟨4, ![1, 5, 200, 200]⟩
abbrev S5x200x200 : Shape := ⟨3, ![5, 200, 200]⟩
abbrev S5000x4 : Shape := ⟨2, ![5000, 4]⟩
abbrev S5000x1 : Shape := ⟨2, ![5000, 1]⟩
abbrev S5000x200 : Shape := ⟨2, ![5000, 200]⟩
abbrev S200x200 : Shape := ⟨2, ![200, 200]⟩
abbrev S1x200x200 : Shape := ⟨3, ![1, 200, 200]⟩
abbrev S16x200x200x5 : Shape := ⟨4, ![16, 200, 200, 5]⟩
abbrev S16x40000x5 : Shape := ⟨3, ![16, 40000, 5]⟩
abbrev S16x40000x96 : Shape := ⟨3, ![16, 40000, 96]⟩
abbrev S1x5000x5 : Shape := ⟨3, ![1, 5000, 5]⟩
abbrev S1x5000x96 : Shape := ⟨3, ![1, 5000, 96]⟩
abbrev S5000x5 : Shape := ⟨2, ![5000, 5]⟩
abbrev S4x64 : Shape := ⟨2, ![4, 64]⟩
abbrev S1x64 : Shape := ⟨2, ![1, 64]⟩
abbrev S5000x64 : Shape := ⟨2, ![5000, 64]⟩
abbrev S5000x96 : Shape := ⟨2, ![5000, 96]⟩
abbrev S1x96 : Shape := ⟨2, ![1, 96]⟩
abbrev S5000 : Shape := ⟨1, ![5000]⟩

abbrev nBuf : Space → Nat
  | .hbm => 11
  | .vmem => 15
  | .smem => 0
  | _ => 0

abbrev bufTy : (tb : Table) → Fin (tcTables nBuf tb) → BufTy
  | .hbm, ⟨0, _⟩ => ⟨S16x200000x4, .f32⟩
  | .hbm, ⟨1, _⟩ => ⟨S5x64, .f32⟩
  | .hbm, ⟨2, _⟩ => ⟨S64, .f32⟩
  | .hbm, ⟨3, _⟩ => ⟨S64x96, .f32⟩
  | .hbm, ⟨4, _⟩ => ⟨S96, .f32⟩
  | .hbm, ⟨5, _⟩ => ⟨S96, .f32⟩
  | .hbm, ⟨6, _⟩ => ⟨S96, .f32⟩
  | .hbm, ⟨7, _⟩ => ⟨S16x5x200x200, .f32⟩
  | .hbm, ⟨8, _⟩ => ⟨S16x200x200x5, .f32⟩
  | .hbm, ⟨9, _⟩ => ⟨S16x40000x5, .f32⟩
  | .hbm, ⟨10, _⟩ => ⟨S16x40000x96, .f32⟩
  | .local _ .vmem, ⟨0, _⟩ => ⟨S1x5000x4, .f32⟩
  | .local _ .vmem, ⟨1, _⟩ => ⟨S1x5000x4, .f32⟩
  | .local _ .vmem, ⟨2, _⟩ => ⟨S1x5x200x200, .f32⟩
  | .local _ .vmem, ⟨3, _⟩ => ⟨S1x5x200x200, .f32⟩
  | .local _ .vmem, ⟨4, _⟩ => ⟨S5x200x200, .f32⟩
  | .local _ .vmem, ⟨5, _⟩ => ⟨S1x5000x5, .f32⟩
  | .local _ .vmem, ⟨6, _⟩ => ⟨S1x5000x5, .f32⟩
  | .local _ .vmem, ⟨7, _⟩ => ⟨S5x64, .f32⟩
  | .local _ .vmem, ⟨8, _⟩ => ⟨S64, .f32⟩
  | .local _ .vmem, ⟨9, _⟩ => ⟨S64x96, .f32⟩
  | .local _ .vmem, ⟨10, _⟩ => ⟨S96, .f32⟩
  | .local _ .vmem, ⟨11, _⟩ => ⟨S96, .f32⟩
  | .local _ .vmem, ⟨12, _⟩ => ⟨S96, .f32⟩
  | .local _ .vmem, ⟨13, _⟩ => ⟨S1x5000x96, .f32⟩
  | .local _ .vmem, ⟨14, _⟩ => ⟨S1x5000x96, .f32⟩
  | _, _ => ⟨S16x200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13

abbrev nD : Nat := 1
abbrev τ : Topo := Topo.v7x

variable {F : FTy → Type} [FloatOps F]

abbrev grid0 : Pipeline.Grid := ⟨2, ![16, 40], ![false, false]⟩

def k0_cond2 (i : grid0.Coords) : BitVec 1 :=
  let arg1 : BitVec 32 := BitVec.ofNat 32 (i 1).val
  let c39_i32 : BitVec 32 := 39#32
  let v82 : BitVec 1 := Scalar.cmpi .eq arg1 c39_i32
  let v83 : BitVec 32 := Scalar.extui v82
  let c0_i32_37 : BitVec 32 := 0#32
  let v84 : BitVec 1 := Scalar.cmpi .ne v83 c0_i32_37
  v84

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x200x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x5000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S5x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x5000x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S5x200x200_S5x200x200_0_0_0 : ∀ a, (![0, 0, 0] : Fin 3 → Nat) a + S5x200x200.size a ≤ S5x200x200.size a
  h_S5x200x200 : 0 < S5x200x200.numel
  shapeCasts_S5x200x200_S5x200x200 : S5x200x200.ShapeCasts S5x200x200
  inb_S1x5000x4_S1x5000x4_0_0_0 : ∀ a, (![0, 0, 0] : Fin 3 → Nat) a + S1x5000x4.size a ≤ S1x5000x4.size a
  h_S1x5000x4 : 0 < S1x5000x4.numel
  shapeCasts_S1x5000x4_S5000x4 : S1x5000x4.ShapeCasts S5000x4
  slices_S5000x4_o0_0_S5000x1 : S5000x4.Slices ![0, 0] S5000x1
  slices_S5000x4_o0_1_S5000x1 : S5000x4.Slices ![0, 1] S5000x1
  iota_S5000x200_d1_w32 : S5000x200.Iotas .tc 32 [1]
  broadcasts_S5000x1_S5000x200 : S5000x1.Broadcasts S5000x200
  natLt_1_32 : 1 < 32
  bitsLt_bf16_f32 : FTy.bits .bf16 < FTy.bits .f32
  inb_S5x200x200_S1x200x200_0_0_0 : ∀ a, (![0, 0, 0] : Fin 3 → Nat) a + S1x200x200.size a ≤ S5x200x200.size a
  h_S1x200x200 : 0 < S1x200x200.numel
  shapeCasts_S1x200x200_S200x200 : S1x200x200.ShapeCasts S200x200
  shapeCasts_S200x200_S1x200x200 : S200x200.ShapeCasts S1x200x200
  inb_S5x200x200_S1x200x200_1_0_0 : ∀ a, (![1, 0, 0] : Fin 3 → Nat) a + S1x200x200.size a ≤ S5x200x200.size a
  slices_S5000x4_o0_2_S5000x1 : S5000x4.Slices ![0, 2] S5000x1
  inb_S5x200x200_S1x200x200_2_0_0 : ∀ a, (![2, 0, 0] : Fin 3 → Nat) a + S1x200x200.size a ≤ S5x200x200.size a
  slices_S5000x4_o0_3_S5000x1 : S5000x4.Slices ![0, 3] S5000x1
  inb_S5x200x200_S1x200x200_3_0_0 : ∀ a, (![3, 0, 0] : Fin 3 → Nat) a + S1x200x200.size a ≤ S5x200x200.size a
  inb_S5x200x200_S1x200x200_4_0_0 : ∀ a, (![4, 0, 0] : Fin 3 → Nat) a + S1x200x200.size a ≤ S5x200x200.size a
  inb_S1x5x200x200_S1x5x200x200_0_0_0_0 : ∀ a, (![0, 0, 0, 0] : Fin 4 → Nat) a + S1x5x200x200.size a ≤ S1x5x200x200.size a
  h_S1x5x200x200 : 0 < S1x5x200x200.numel
  shapeCasts_S1x5x200x200_S5x200x200 : S1x5x200x200.ShapeCasts S5x200x200
  shapeCasts_S5x200x200_S1x5x200x200 : S5x200x200.ShapeCasts S1x5x200x200
  transposes_S16x5x200x200_S16x200x200x5_0_2_3_1 : S16x5x200x200.Transposes [0, 2, 3, 1] S16x200x200x5
  shapeCasts_S16x200x200x5_S16x40000x5 : S16x200x200x5.ShapeCasts S16x40000x5
  inb_S1x5000x5_S1x5000x5_0_0_0 : ∀ a, (![0, 0, 0] : Fin 3 → Nat) a + S1x5000x5.size a ≤ S1x5000x5.size a
  h_S1x5000x5 : 0 < S1x5000x5.numel
  shapeCasts_S1x5000x5_S1x5000x5 : S1x5000x5.ShapeCasts S1x5000x5
  shapeCasts_S1x5000x5_S5000x5 : S1x5000x5.ShapeCasts S5000x5
  slices_S5000x5_o0_0_S5000x4 : S5000x5.Slices ![0, 0] S5000x4
  slices_S5000x5_o0_4_S5000x1 : S5000x5.Slices ![0, 4] S5000x1
  broadcasts_S5000x1_S5000x4 : S5000x1.Broadcasts S5000x4
  inb_S5x64_S5x64_0_0 : ∀ a, (![0, 0] : Fin 2 → Nat) a + S5x64.size a ≤ S5x64.size a
  h_S5x64 : 0 < S5x64.numel
  slices_S5x64_o0_0_S4x64 : S5x64.Slices ![0, 0] S4x64
  slices_S5x64_o4_0_S1x64 : S5x64.Slices ![4, 0] S1x64
  broadcasts_S5000x1_S5000x64 : S5000x1.Broadcasts S5000x64
  broadcasts_S1x64_S5000x64 : S1x64.Broadcasts S5000x64
  inb_S64_S64_0 : ∀ a, (![0] : Fin 1 → Nat) a + S64.size a ≤ S64.size a
  h_S64 : 0 < S64.numel
  shapeCasts_S64_S1x64 : S64.ShapeCasts S1x64
  inb_S64x96_S64x96_0_0 : ∀ a, (![0, 0] : Fin 2 → Nat) a + S64x96.size a ≤ S64x96.size a
  h_S64x96 : 0 < S64x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  reduces_S5000x96_S5000 : S5000x96.Reduces [1] S5000
  shapeCasts_S5000_S5000x1 : S5000.ShapeCasts S5000x1
  broadcasts_S5000x1_S5000x96 : S5000x1.Broadcasts S5000x96
  shapeCasts_S5000x96_S1x5000x96 : S5000x96.ShapeCasts S1x5000x96
  inb_S1x5000x96_S1x5000x96_0_0_0 : ∀ a, (![0, 0, 0] : Fin 3 → Nat) a + S1x5000x96.size a ≤ S1x5000x96.size a
  h_S1x5000x96 : 0 < S1x5000x96.numel
  dot_S5000x200_S5000x200_S200x200_0_0_1_1_n_n_wf : DotDims.WF S5000x200 S5000x200 S200x200 [0] [0] [1] [1] [] []
  dot_S5000x4_S4x64_S5000x64_1_0_0_1_n_n_wf : DotDims.WF S5000x4 S4x64 S5000x64 [1] [0] [0] [1] [] []
  dot_S5000x64_S64x96_S5000x96_1_0_0_1_n_n_wf : DotDims.WF S5000x64 S64x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x4.size a ≤ S16x200000x4.size a
  hwx0_0 : ∀ i : grid0.Coords, EltTy.bits .f32 = 32 ∨ (Rect.block (s := S16x200000x4) S1x5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x200x200.size a ≤ S16x5x200x200.size a
  hwx0_1 : ∀ i : grid0.Coords, EltTy.bits .f32 = 32 ∨ (Rect.block (s := S16x5x200x200) S1x5x200x200.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x5000x5.size a ≤ S16x40000x5.size a
  hwx1_0 : ∀ i : grid1.Coords, EltTy.bits .f32 = 32 ∨ (Rect.block (s := S16x40000x5) S1x5000x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x64.size a ≤ S5x64.size a
  hwx1_1 : ∀ i : grid1.Coords, EltTy.bits .f32 = 32 ∨ (Rect.block (s := S5x64) S5x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x96.size a ≤ S64x96.size a
  hwx1_3 : ∀ i : grid1.Coords, EltTy.bits .f32 = 32 ∨ (Rect.block (s := S64x96) S64x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96.size a ≤ S96.size a
  hwx1_4 : ∀ i : grid1.Coords, EltTy.bits .f32 = 32 ∨ (Rect.block (s := S96) S96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96.size a ≤ S96.size a
  hwx1_5 : ∀ i : grid1.Coords, EltTy.bits .f32 = 32 ∨ (Rect.block (s := S96) S96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96.size a ≤ S96.size a
  hwx1_6 : ∀ i : grid1.Coords, EltTy.bits .f32 = 32 ∨ (Rect.block (s := S96) S96.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x5000x96.size a ≤ S16x40000x96.size a
  hwx1_7 : ∀ i : grid1.Coords, EltTy.bits .f32 = 32 ∨ (Rect.block (s := S16x40000x96) S1x5000x96.size (cc1_transform_7 i) (hinb1_7 i)).WholeWords (EltTy.packing .f32)

variable [Facts₀]

def dot_S5000x200_S5000x200_S200x200_0_0_1_1_n_n : DotDims S5000x200 S5000x200 S200x200 where
  lhsContracting := [0]
  rhsContracting := [0]
  lhsNonContracting := [1]
  rhsNonContracting := [1]
  lhsBatch := []
  rhsBatch := []
  wf := dot_S5000x200_S5000x200_S200x200_0_0_1_1_n_n_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf

abbrev win0_0 : Pipeline.Window sig grid0 :=
  Pipeline.Window.ofSpec (Memref.whole main_arg0) S1x5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x5x200x200.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v2) S1x5000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x5000x96.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16x200000x4 : Shape := ⟨3, ![16, 200000, 4]⟩
abbrev S5x64 : Shape := ⟨2, ![5, 64]⟩
abbrev S64 : Shape := ⟨1, ![64]⟩
abbrev S64x96 : Shape := ⟨2, ![64, 96]⟩
abbrev S96 : Shape := ⟨1, ![96]⟩
abbrev S16x200000x1 : Shape := ⟨3, ![16, 200000, 1]⟩
abbrev S16x200000 : Shape := ⟨2, ![16, 200000]⟩
abbrev S_ : Shape := ⟨0, ![]⟩
abbrev S16 : Shape := ⟨1, ![16]⟩
abbrev S16x1 : Shape := ⟨2, ![16, 1]⟩
abbrev S3200000 : Shape := ⟨1, ![3200000]⟩
abbrev S3200000x4 : Shape := ⟨2, ![3200000, 4]⟩
abbrev S640000x4 : Shape := ⟨2, ![640000, 4]⟩
abbrev S3200000x1 : Shape := ⟨2, ![3200000, 1]⟩
abbrev S16x40000x4 : Shape := ⟨3, ![16, 40000, 4]⟩
abbrev S640000 : Shape := ⟨1, ![640000]⟩
abbrev S16x40000x1 : Shape := ⟨3, ![16, 40000, 1]⟩
abbrev S16x40000x5 : Shape := ⟨3, ![16, 40000, 5]⟩
abbrev S16x40000x64 : Shape := ⟨3, ![16, 40000, 64]⟩
abbrev S1x1x64 : Shape := ⟨3, ![1, 1, 64]⟩
abbrev S16x40000x96 : Shape := ⟨3, ![16, 40000, 96]⟩
abbrev S1x1x96 : Shape := ⟨3, ![1, 1, 96]⟩
abbrev S16x40000 : Shape := ⟨2, ![16, 40000]⟩

abbrev nBuf : Space → Nat
  | .hbm => 120
  | .vmem => 0
  | .smem => 0
  | _ => 0

abbrev bufTy : (tb : Table) → Fin (tcTables nBuf tb) → BufTy
  | .hbm, ⟨0, _⟩ => ⟨S16x200000x4, .f32⟩
  | .hbm, ⟨1, _⟩ => ⟨S5x64, .f32⟩
  | .hbm, ⟨2, _⟩ => ⟨S64, .f32⟩
  | .hbm, ⟨3, _⟩ => ⟨S64x96, .f32⟩
  | .hbm, ⟨4, _⟩ => ⟨S96, .f32⟩
  | .hbm, ⟨5, _⟩ => ⟨S96, .f32⟩
  | .hbm, ⟨6, _⟩ => ⟨S96, .f32⟩
  | .hbm, ⟨7, _⟩ => ⟨S16x200000x1, .f32⟩
  | .hbm, ⟨8, _⟩ => ⟨S16x200000, .f32⟩
  | .hbm, ⟨9, _⟩ => ⟨S_, .f32⟩
  | .hbm, ⟨10, _⟩ => ⟨S16x200000, .f32⟩
  | .hbm, ⟨11, _⟩ => ⟨S16x200000, .f32⟩
  | .hbm, ⟨12, _⟩ => ⟨S_, .f32⟩
  | .hbm, ⟨13, _⟩ => ⟨S16x200000, .f32⟩
  | .hbm, ⟨14, _⟩ => ⟨S16x200000, .f32⟩
  | .hbm, ⟨15, _⟩ => ⟨S16x200000x1, .f32⟩
  | .hbm, ⟨16, _⟩ => ⟨S16x200000, .f32⟩
  | .hbm, ⟨17, _⟩ => ⟨S_, .f32⟩
  | .hbm, ⟨18, _⟩ => ⟨S16x200000, .f32⟩
  | .hbm, ⟨19, _⟩ => ⟨S16x200000, .f32⟩
  | .hbm, ⟨20, _⟩ => ⟨S_, .f32⟩
  | .hbm, ⟨21, _⟩ => ⟨S16x200000, .f32⟩
  | .hbm, ⟨22, _⟩ => ⟨S16x200000, .f32⟩
  | .hbm, ⟨23, _⟩ => ⟨S16x200000, .f32⟩
  | .hbm, ⟨24, _⟩ => ⟨S16x200000, .i32⟩
  | .hbm, ⟨25, _⟩ => ⟨S16x200000, .f32⟩
  | .hbm, ⟨26, _⟩ => ⟨S16x200000, .i32⟩
  | .hbm, ⟨27, _⟩ => ⟨S_, .i32⟩
  | .hbm, ⟨28, _⟩ => ⟨S16x200000, .i32⟩
  | .hbm, ⟨29, _⟩ => ⟨S16x200000, .i1⟩
  | .hbm, ⟨30, _⟩ => ⟨S_, .i32⟩
  | .hbm, ⟨31, _⟩ => ⟨S16x200000, .i32⟩
  | .hbm, ⟨32, _⟩ => ⟨S16x200000, .i1⟩
  | .hbm, ⟨33, _⟩ => ⟨S16x200000, .i1⟩
  | .hbm, ⟨34, _⟩ => ⟨S_, .i32⟩
  | .hbm, ⟨35, _⟩ => ⟨S16x200000, .i32⟩
  | .hbm, ⟨36, _⟩ => ⟨S16x200000, .i1⟩
  | .hbm, ⟨37, _⟩ => ⟨S16x200000, .i1⟩
  | .hbm, ⟨38, _⟩ => ⟨S_, .i32⟩
  | .hbm, ⟨39, _⟩ => ⟨S16x200000, .i32⟩
  | .hbm, ⟨40, _⟩ => ⟨S16x200000, .i1⟩
  | .hbm, ⟨41, _⟩ => ⟨S16x200000, .i1⟩
  | .hbm, ⟨42, _⟩ => ⟨S16x200000, .f32⟩
  | .hbm, ⟨43, _⟩ => ⟨S_, .i32⟩
  | .hbm, ⟨44, _⟩ => ⟨S16x200000, .i32⟩
  | .hbm, ⟨45, _⟩ => ⟨S16x200000, .i32⟩
  | .hbm, ⟨46, _⟩ => ⟨S16x200000, .i32⟩
  | .hbm, ⟨47, _⟩ => ⟨S_, .i32⟩
  | .hbm, ⟨48, _⟩ => ⟨S_, .i32⟩
  | .hbm, ⟨49, _⟩ => ⟨S16x200000, .i32⟩
  | .hbm, ⟨50, _⟩ => ⟨S16x200000, .i32⟩
  | .hbm, ⟨51, _⟩ => ⟨S16, .i32⟩
  | .hbm, ⟨52, _⟩ => ⟨S16x1, .i32⟩
  | .hbm, ⟨53, _⟩ => ⟨S_, .i32⟩
  | .hbm, ⟨54, _⟩ => ⟨S16x1, .i32⟩
  | .hbm, ⟨55, _⟩ => ⟨S16x1, .i32⟩
  | .hbm, ⟨56, _⟩ => ⟨S16x200000, .i32⟩
  | .hbm, ⟨57, _⟩ => ⟨S16x200000, .i32⟩
  | .hbm, ⟨58, _⟩ => ⟨S3200000, .i32⟩
  | .hbm, ⟨59, _⟩ => ⟨S16x200000x1, .f32⟩
  | .hbm, ⟨60, _⟩ => ⟨S16x200000x4, .f32⟩
  | .hbm, ⟨61, _⟩ => ⟨S16x200000x4, .f32⟩
  | .hbm, ⟨62, _⟩ => ⟨S3200000x4, .f32⟩
  | .hbm, ⟨63, _⟩ => ⟨S_, .f32⟩
  | .hbm, ⟨64, _⟩ => ⟨S640000x4, .f32⟩
  | .hbm, ⟨65, _⟩ => ⟨S3200000x1, .i32⟩
  | .hbm, ⟨66, _⟩ => ⟨S640000x4, .f32⟩
  | .hbm, ⟨67, _⟩ => ⟨S16x40000x4, .f32⟩
  | .hbm, ⟨68, _⟩ => ⟨S3200000, .f32⟩
  | .hbm, ⟨69, _⟩ => ⟨S_, .f32⟩
  | .hbm, ⟨70, _⟩ => ⟨S640000, .f32⟩
  | .hbm, ⟨71, _⟩ => ⟨S3200000x1, .i32⟩
  | .hbm, ⟨72, _⟩ => ⟨S640000, .f32⟩
  | .hbm, ⟨73, _⟩ => ⟨S16x40000x1, .f32⟩
  | .hbm, ⟨74, _⟩ => ⟨S_, .f32⟩
  | .hbm, ⟨75, _⟩ => ⟨S16x40000x1, .f32⟩
  | .hbm, ⟨76, _⟩ => ⟨S16x40000x1, .f32⟩
  | .hbm, ⟨77, _⟩ => ⟨S16x40000x4, .f32⟩
  | .hbm, ⟨78, _⟩ => ⟨S16x40000x4, .f32⟩
  | .hbm, ⟨79, _⟩ => ⟨S16x40000x5, .f32⟩
  | .hbm, ⟨80, _⟩ => ⟨S16x40000x64, .f32⟩
  | .hbm, ⟨81, _⟩ => ⟨S1x1x64, .f32⟩
  | .hbm, ⟨82, _⟩ => ⟨S16x40000x64, .f32⟩
  | .hbm, ⟨83, _⟩ => ⟨S16x40000x64, .f32⟩
  | .hbm, ⟨84, _⟩ => ⟨S_, .f32⟩
  | .hbm, ⟨85, _⟩ => ⟨S16x40000x64, .f32⟩
  | .hbm, ⟨86, _⟩ => ⟨S16x40000x64, .f32⟩
  | .hbm, ⟨87, _⟩ => ⟨S16x40000x96, .f32⟩
  | .hbm, ⟨88, _⟩ => ⟨S1x1x96, .f32⟩
  | .hbm, ⟨89, _⟩ => ⟨S16x40000x96, .f32⟩
  | .hbm, ⟨90, _⟩ => ⟨S16x40000x96, .f32⟩
  | .hbm, ⟨91, _⟩ => ⟨S_, .f32⟩
  | .hbm, ⟨92, _⟩ => ⟨S16x40000, .f32⟩
  | .hbm, ⟨93, _⟩ => ⟨S16x40000x1, .f32⟩
  | .hbm, ⟨94, _⟩ => ⟨S_, .f32⟩
  | .hbm, ⟨95, _⟩ => ⟨S16x40000x1, .f32⟩
  | .hbm, ⟨96, _⟩ => ⟨S16x40000x1, .f32⟩
  | .hbm, ⟨97, _⟩ => ⟨S16x40000x96, .f32⟩
  | .hbm, ⟨98, _⟩ => ⟨S16x40000x96, .f32⟩
  | .hbm, ⟨99, _⟩ => ⟨S16x40000x96, .f32⟩
  | .hbm, ⟨100, _⟩ => ⟨S_, .f32⟩
  | .hbm, ⟨101, _⟩ => ⟨S16x40000, .f32⟩
  | .hbm, ⟨102, _⟩ => ⟨S16x40000x1, .f32⟩
  | .hbm, ⟨103, _⟩ => ⟨S_, .f32⟩
  | .hbm, ⟨104, _⟩ => ⟨S16x40000x1, .f32⟩
  | .hbm, ⟨105, _⟩ => ⟨S16x40000x1, .f32⟩
  | .hbm, ⟨106, _⟩ => ⟨S16x40000x96, .f32⟩
  | .hbm, ⟨107, _⟩ => ⟨S16x40000x96, .f32⟩
  | .hbm, ⟨108, _⟩ => ⟨S_, .f32⟩
  | .hbm, ⟨109, _⟩ => ⟨S16x40000x1, .f32⟩
  | .hbm, ⟨110, _⟩ => ⟨S16x40000x1, .f32⟩
  | .hbm, ⟨111, _⟩ => ⟨S16x40000x1, .f32⟩
  | .hbm, ⟨112, _⟩ => ⟨S16x40000x96, .f32⟩
  | .hbm, ⟨113, _⟩ => ⟨S16x40000x96, .f32⟩
  | .hbm, ⟨114, _⟩ => ⟨S1x1x96, .f32⟩
  | .hbm, ⟨115, _⟩ => ⟨S16x40000x96, .f32⟩
  | .hbm, ⟨116, _⟩ => ⟨S16x40000x96, .f32⟩
  | .hbm, ⟨117, _⟩ => ⟨S1x1x96, .f32⟩
  | .hbm, ⟨118, _⟩ => ⟨S16x40000x96, .f32⟩
  | .hbm, ⟨119, _⟩ => ⟨S16x40000x96, .f32⟩
  | _, _ => ⟨S16x200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_call0_v0 : Ref sig .tc := ⟨.hbm, 48, rfl⟩
abbrev main_call0_v1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  slices_S16x200000x4_S16x200000x1_0_0_0 : S16x200000x4.Slices ![0, 0, 0] S16x200000x1
  shapeCasts_S16x200000x1_S16x200000 : S16x200000x1.ShapeCasts S16x200000
  bcast_S_S16x200000 : S_.BroadcastsInDim S16x200000 (![] : Fin 0 → Fin S16x200000.rank)
  slices_S16x200000x4_S16x200000x1_0_0_1 : S16x200000x4.Slices ![0, 0, 1] S16x200000x1
  bcast_S16_S16x1_0 : S16.BroadcastsInDim S16x1 (![0] : Fin 1 → Fin S16x1.rank)
  bcast_S_S16x1 : S_.BroadcastsInDim S16x1 (![] : Fin 0 → Fin S16x1.rank)
  bcast_S16x1_S16x200000_0_1 : S16x1.BroadcastsInDim S16x200000 (![0, 1] : Fin 2 → Fin S16x200000.rank)
  shapeCasts_S16x200000_S3200000 : S16x200000.ShapeCasts S3200000
  bcast_S16x200000_S16x200000x1_0_1 : S16x200000.BroadcastsInDim S16x200000x1 (![0, 1] : Fin 2 → Fin S16x200000x1.rank)
  bcast_S16x200000x1_S16x200000x4_0_1_2 : S16x200000x1.BroadcastsInDim S16x200000x4 (![0, 1, 2] : Fin 3 → Fin S16x200000x4.rank)
  shapeCasts_S16x200000x4_S3200000x4 : S16x200000x4.ShapeCasts S3200000x4
  bcast_S_S640000x4 : S_.BroadcastsInDim S640000x4 (![] : Fin 0 → Fin S640000x4.rank)
  bcast_S3200000_S3200000x1_0 : S3200000.BroadcastsInDim S3200000x1 (![0] : Fin 1 → Fin S3200000x1.rank)
  shapeCasts_S640000x4_S16x40000x4 : S640000x4.ShapeCasts S16x40000x4
  bcast_S_S640000 : S_.BroadcastsInDim S640000 (![] : Fin 0 → Fin S640000.rank)
  shapeCasts_S640000_S16x40000x1 : S640000.ShapeCasts S16x40000x1
  bcast_S_S16x40000x1 : S_.BroadcastsInDim S16x40000x1 (![] : Fin 0 → Fin S16x40000x1.rank)
  bcast_S16x40000x1_S16x40000x4_0_1_2 : S16x40000x1.BroadcastsInDim S16x40000x4 (![0, 1, 2] : Fin 3 → Fin S16x40000x4.rank)
  concatenates_S16x40000x4_S16x40000x1_S16x40000x5_d2 : Shape.Concatenates [S16x40000x4, S16x40000x1] S16x40000x5 2
  bcast_S64_S1x1x64_2 : S64.BroadcastsInDim S1x1x64 (![2] : Fin 1 → Fin S1x1x64.rank)
  bcast_S1x1x64_S16x40000x64_0_1_2 : S1x1x64.BroadcastsInDim S16x40000x64 (![0, 1, 2] : Fin 3 → Fin S16x40000x64.rank)
  bcast_S_S16x40000x64 : S_.BroadcastsInDim S16x40000x64 (![] : Fin 0 → Fin S16x40000x64.rank)
  bcast_S96_S1x1x96_2 : S96.BroadcastsInDim S1x1x96 (![2] : Fin 1 → Fin S1x1x96.rank)
  bcast_S1x1x96_S16x40000x96_0_1_2 : S1x1x96.BroadcastsInDim S16x40000x96 (![0, 1, 2] : Fin 3 → Fin S16x40000x96.rank)
  reducesTo_S16x40000x96_S16x40000_d2 : S16x40000x96.ReducesTo [2] S16x40000
  h_S_ : 0 < S_.numel
  bcast_S16x40000_S16x40000x1_0_1 : S16x40000.BroadcastsInDim S16x40000x1 (![0, 1] : Fin 2 → Fin S16x40000x1.rank)
  bcast_S16x40000x1_S16x40000x96_0_1_2 : S16x40000x1.BroadcastsInDim S16x40000x96 (![0, 1, 2] : Fin 3 → Fin S16x40000x96.rank)
  scatter_S640000x4_S3200000x1_S3200000x4_1_0_0_1_wf : ScatterDims.WF S640000x4 S3200000x1 S3200000x4 [1] [0] [0] 1
  scatter_S640000_S3200000x1_S3200000_n_0_0_1_wf : ScatterDims.WF S640000 S3200000x1 S3200000 [] [0] [0] 1
  dot_S16x40000x5_S5x64_S16x40000x64_2_0_01_1_n_n_wf : DotDims.WF S16x40000x5 S5x64 S16x40000x64 [2] [0] [0, 1] [1] [] []
  dot_S16x40000x64_S64x96_S16x40000x96_2_0_01_1_n_n_wf : DotDims.WF S16x40000x64 S64x96 S16x40000x96 [2] [0] [0, 1] [1] [] []

variable [Facts₀]

def scatter_S640000x4_S3200000x1_S3200000x4_1_0_0_1 : ScatterDims S640000x4 S3200000x1 S3200000x4 where
  updateWindowDims := [1]
  insertedWindowDims := [0]
  scatterDimsToOperandDims := [0]
  indexVectorDim := 1
  wf := scatter_S640000x4_S3200000x1_S3200000x4_1_0_0_1_wf
def scatter_S640000_S3200000x1_S3200000_n_0_0_1 : ScatterDims S640000 S3200000x1 S3200000 where
  updateWindowDims := []
  insertedWindowDims := [0]
  scatterDimsToOperandDims := [0]
  indexVectorDim := 1
  wf := scatter_S640000_S3200000x1_S3200000_n_0_0_1_wf
def dot_S16x40000x5_S5x64_S16x40000x64_2_0_01_1_n_n : DotDims S16x40000x5 S5x64 S16x40000x64 where
  lhsContracting := [2]
  rhsContracting := [0]
  lhsNonContracting := [0, 1]
  rhsNonContracting := [1]
  lhsBatch := []
  rhsBatch := []
  wf := dot_S16x40000x5_S5x64_S16x40000x64_2_0_01_1_n_n_wf
def dot_S16x40000x64_S64x96_S16x40000x96_2_0_01_1_n_n : DotDims S16x40000x64 S64x96 S16x40000x96 where
  lhsContracting := [2]
  rhsContracting := [0]
  lhsNonContracting := [0, 1]
  rhsNonContracting := [1]
  lhsBatch := []
  rhsBatch := []
  wf := dot_S16x40000x64_S64x96_S16x40000x96_2_0_01_1_n_n_wf

class Facts : Prop extends Facts₀ where

variable [Facts]
-- ==== Proof.FrameKernel.Shared0.lean ====
/-
  The binning region (the first of the program's two kernel regions), what its three control cases share.
  The grid is 16 × 40: coordinate 0 is the batch, coordinate 1 the tile of 5000 points.  The body zeroes
  its accumulator (a scratch of shape [5, 200, 200]) when the tile coordinate is 0, adds the tile's five
  200 × 200 histograms into it at every point, and copies it into the output block when the tile
  coordinate is 39.  So a point is in one of three cases: first tile, middle tile, last tile.
  Stated here: the two conditions in closed form over the linear point number, where the output window is
  idle, the staging and scratch memrefs by name, the block a window shows at a point, and the region's
  invariant with the scratch owned as a memref.  Everything is stated at a parameter `V`, the buffer
  contents the region is entered from.
-/
import proofs.«113907_j39831526703842_2_alg».proof.Proof.Gen.Kernel.Launch
import proofs.«113907_j39831526703842_2_alg».proof.Proof.Gen.Kernel.Skeleton
import proofs.«113907_j39831526703842_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The points window's staging buffer holds the tile's block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions -/

/-- "The tile coordinate is 0": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 40 = 0 :=
  (by decide +kernel : ∀ t : Fin grid0.N, cond0_0 (grid0.coords t) ↔ t.val % 40 = 0)

/-- "The tile coordinate is 39": the accumulator is copied out. -/
abbrev cond0_1 (i : grid0.Coords) : Prop := k0_cond2 i = 1#1
theorem hcond0_1 : ∀ t : Fin cfg0.N, cond0_1 (grid0.coords t) ↔ t.val % 40 = 39 :=
  (by decide +kernel : ∀ t : Fin grid0.N, cond0_1 (grid0.coords t) ↔ t.val % 40 = 39)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs by name -/

/-- One staging buffer of the output window, through which its contents are stated. -/
abbrev VO0_1 : View sig .tc .vmem S1x5x200x200 .f32 := (Memref.whole cc0_stg1_0 : Memref sig .tc .vmem S1x5x200x200 .f32).view
abbrev ms0_0 (t : Fin cfg0.N) : Memref sig .tc .vmem S1x5000x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5x200x200 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S5x200x200 .f32 := Memref.whole cc0_scratch0
abbrev VS0_0 : View sig .tc .vmem S5x200x200 .f32 := scM0_0.view

/-! ## The region's invariant, the accumulator apart -/

/-- The core's other scoped buffers (the second region's staging buffers), each whole at some contents: the
    binning kernel never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- What the launch hands the region: the accumulator owned as a memref at some contents, the other scoped
    buffers, the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.Kernel.Hand

end
-- ==== Proof.FrameKernel.Run0B.lean ====
/-
  The binning kernel's body run once, whole, in the middle-tile case: on whole staging memrefs holding the
  tile's points, the output block and the accumulator, it terminates without a fault; the list of pieces
  (rectangle, value) its stores leave in each buffer is found by the run itself.
-/
import proofs.«113907_j39831526703842_2_alg».proof.Proof.FrameKernel.Shared0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Middle tile (neither the first nor the last of a batch): nothing is stored into the output block, which is
    handed back as found; the accumulator, found at `xs0`, ends with the pieces `LS0` written over it. -/
noncomputable def kernelRun0_B (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : ¬cond0_1 i)
    (x0 : Vec F S1x5000x4 .f32) (xs0 : Vec F S5x200x200 .f32) :
    Σ' (L1 : List (View.Piece (Elt F) S1x5x200x200 .f32)), { LS0 : List (View.Piece (Elt F) S5x200x200 .f32) //
      ∀ (xi1 : Vec F S1x5x200x200 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__binning_kernel i arg2 harg2 arg3 harg3 arg4 harg4) K } := by
  refine ⟨[], ?_, fun xi1 E K => ?run⟩
  case run =>
    simp only [cc0__binning_kernel_eq_skeleton]; unfold cc0__binning_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.FrameKernel.Run0A.lean ====
/-
  The binning kernel's body run once, whole, in the first-tile case: on whole staging memrefs holding the
  tile's points, the output block and the accumulator, it terminates without a fault; the list of pieces
  (rectangle, value) its stores leave in each buffer is found by the run itself.
-/
import proofs.«113907_j39831526703842_2_alg».proof.Proof.FrameKernel.Run0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- First tile of a batch: the accumulator, found at anything, is zeroed and the tile's five histograms added;
    nothing is stored into the output block, which is handed back as found. -/
noncomputable def kernelRun0_A (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : cond0_0 i) (hc1 : ¬cond0_1 i)
    (x0 : Vec F S1x5000x4 .f32) :
    Σ' (L1 : List (View.Piece (Elt F) S1x5x200x200 .f32)), { LS0 : List (View.Piece (Elt F) S5x200x200 .f32) //
      ∀ (xi1 : Vec F S1x5x200x200 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__binning_kernel i arg2 harg2 arg3 harg3 arg4 harg4) K } := by
  refine ⟨[], ?_, fun xi1 E K => ?run⟩
  case run =>
    simp only [cc0__binning_kernel_eq_skeleton]; unfold cc0__binning_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.FrameKernel.Run0C.lean ====
/-
  The binning kernel's body run once, whole, in the last-tile case: on whole staging memrefs holding the
  tile's points, the output block and the accumulator, it terminates without a fault; the list of pieces
  (rectangle, value) its stores leave in each buffer is found by the run itself.
-/
import proofs.«113907_j39831526703842_2_alg».proof.Proof.FrameKernel.Run0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Last tile of a batch: the tile's five histograms are added into the accumulator, found at `xs0`, and the
    accumulator is copied whole into the output block, found at anything. -/
noncomputable def kernelRun0_C (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : cond0_1 i)
    (x0 : Vec F S1x5000x4 .f32) (xs0 : Vec F S5x200x200 .f32) :
    Σ' (L1 : List (View.Piece (Elt F) S1x5x200x200 .f32)), { LS0 : List (View.Piece (Elt F) S5x200x200 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__binning_kernel i arg2 harg2 arg3 harg3 arg4 harg4) K } := by
  refine ⟨?_, ?_, fun E K => ?run⟩
  case run =>
    simp only [cc0__binning_kernel_eq_skeleton]; unfold cc0__binning_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.FrameKernel.Region0.lean ====
/-
  The binning region's proof data and body obligation.
  What the accumulator and the output block hold after each grid point is defined by recursion on the linear
  point number n = 40·b + j (b the batch, j the tile): at j = 0 the first-tile case's pieces read back, at
  0 < j < 39 the middle case's over what point n − 1 left in the accumulator, at j = 39 the last-tile case's.
  The region's invariant before point n + 1 owns the accumulator at exactly what point n left in it; the
  output window is idle (neither stored into nor written back) except at the last tile of each batch.
-/
import proofs.«113907_j39831526703842_2_alg».proof.Proof.FrameKernel.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First tile: nothing stored into the output block (a placeholder nothing consults). -/
def out0_A_1 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : cond0_0 i) (hc1 : ¬cond0_1 i)
    (x0 : Vec F S1x5000x4 .f32) : Vec F S1x5x200x200 .f32 :=
  VO0_1.read (Elt F) (VO0_1.writes (Elt F) VO0_1.junk (kernelRun0_A c i arg2 harg2 arg3 harg3 arg4 harg4 hc0 hc1 x0).1)

/-- First tile: the accumulator's pieces cover it (the five slabs [1, 200, 200]). -/
theorem scover0_A_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : cond0_0 i) (hc1 : ¬cond0_1 i)
    (x0 : Vec F S1x5000x4 .f32) (y : S5x200x200.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x200x200.size (by sl_kernel_rfl) y

/-- First tile: what the accumulator holds afterwards. -/
def sout0_A_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : cond0_0 i) (hc1 : ¬cond0_1 i)
    (x0 : Vec F S1x5000x4 .f32) : Vec F S5x200x200 .f32 :=
  VS0_0.read (Elt F) (VS0_0.writes (Elt F) VS0_0.junk (kernelRun0_A c i arg2 harg2 arg3 harg3 arg4 harg4 hc0 hc1 x0).2.1)

/-- Middle tile: nothing stored into the output block. -/
def out0_B_1 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : ¬cond0_1 i)
    (x0 : Vec F S1x5000x4 .f32) (xs0 : Vec F S5x200x200 .f32) : Vec F S1x5x200x200 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : ¬cond0_1 i)
    (x0 : Vec F S1x5000x4 .f32) (xs0 : Vec F S5x200x200 .f32) (y : S5x200x200.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x200x200.size (by sl_kernel_rfl) y

def sout0_B_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : ¬cond0_1 i)
    (x0 : Vec F S1x5000x4 .f32) (xs0 : Vec F S5x200x200 .f32) : Vec F S5x200x200 .f32 :=
  VS0_0.read (Elt F) (VS0_0.writes (Elt F) VS0_0.junk (kernelRun0_B c i arg2 harg2 arg3 harg3 arg4 harg4 hc0 hc1 x0 xs0).2.1)

/-- Last tile: the one store into the output block covers it. -/
theorem cover0_C_1 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : cond0_1 i)
    (x0 : Vec F S1x5000x4 .f32) (xs0 : Vec F S5x200x200 .f32) (y : S1x5x200x200.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x5x200x200.size (by sl_kernel_rfl) y

def out0_C_1 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : cond0_1 i)
    (x0 : Vec F S1x5000x4 .f32) (xs0 : Vec F S5x200x200 .f32) : Vec F S1x5x200x200 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : cond0_1 i)
    (x0 : Vec F S1x5000x4 .f32) (xs0 : Vec F S5x200x200 .f32) (y : S5x200x200.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x200x200.size (by sl_kernel_rfl) y

def sout0_C_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : cond0_1 i)
    (x0 : Vec F S1x5000x4 .f32) (xs0 : Vec F S5x200x200 .f32) : Vec F S5x200x200 .f32 :=
  VS0_0.read (Elt F) (VS0_0.writes (Elt F) VS0_0.junk (kernelRun0_C c i arg2 harg2 arg3 harg3 arg4 harg4 hc0 hc1 x0 xs0).2.1)

/-! ## The accumulation, point by point -/

/-- What the output block and the accumulator hold after the body at linear position `n` (a pair: the output
    block, then the accumulator). -/
def outsAt0 (c : Dev nD) : (n : ℕ) → n < cfg0.N → Vec F S1x5x200x200 .f32 × Vec F S5x200x200 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 40 = 0 then
      if h1 : (n + 1) % 40 = 39 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 40 = 39 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 40 = 0) (h1 : ¬t.val % 40 = 39) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 40 = 0) (h1 : ¬t.val % 40 = 39) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 40 = 0) (h1 : t.val % 40 = 39) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry what the launch hands over (every scoped buffer at anything);
    afterwards the accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The region's proof data on core `c`: the arrays as the region finds them; after the body the points
    window at its block and the output window at `outsAt0`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the
    accumulator at what the point before left (at anything at the very first point) and takes it back at this
    point's contents; the other scoped buffers, the generator register and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 640 := lt_of_lt_of_eq t.isLt (show cfg0.N = 640 from N_0)
  by_cases h0 : t.val % 40 = 0
  · by_cases h1 : t.val % 40 = 39
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · have hz : t.val ≠ 0 := fun hz => h0 (by rw [hz])
    by_cases h1 : t.val % 40 = 39
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS_castSucc V c t, PhiS_pos V c _ _ hz]
      iintro ⟨⟨⟨HS0, Hoth⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hoth⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _)
          iexact Hoth
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 640 := N_0; omega)

end Cert.Kernel.Hand

end
-- ==== Proof.FrameKernel.Region1.lean ====
/- Region 1 of @main (custom_call 1, the multilayer-perceptron-and-layer-norm kernel), the frame half: at a parameter
   `V` (the TensorCore's buffer contents when the region is entered) each window's block at a point, what the body
   leaves in the output window's staging buffer as a function of the input blocks, the body's triple, the pipeline's
   proof data and the body obligation. Stated for any float model `F`. -/
import proofs.«113907_j39831526703842_2_alg».proof.Proof.Gen.Kernel.Launch
import proofs.«113907_j39831526703842_2_alg».proof.Proof.Gen.Kernel.Skeleton
import proofs.«113907_j39831526703842_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (an unfetched input's block index has not moved since the point before), for any proof data whose array is
    `V`'s (`hA`) and whose body leaves the block in place (`hafter`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    not (an unfetched input's block index has not moved since the point before), for any proof data whose array is
    `V`'s (`hA`) and whose body leaves the block in place (`hafter`); the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or
    not (an unfetched input's block index has not moved since the point before), for any proof data whose array is
    `V`'s (`hA`) and whose body leaves the block in place (`hafter`); the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or
    not (an unfetched input's block index has not moved since the point before), for any proof data whose array is
    `V`'s (`hA`) and whose body leaves the block in place (`hafter`); the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there or
    not (an unfetched input's block index has not moved since the point before), for any proof data whose array is
    `V`'s (`hA`) and whose body leaves the block in place (`hafter`); the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there or
    not (an unfetched input's block index has not moved since the point before), for any proof data whose array is
    `V`'s (`hA`) and whose body leaves the block in place (`hafter`); the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the pipeline fetched it there or
    not (an unfetched input's block index has not moved since the point before), for any proof data whose array is
    `V`'s (`hA`) and whose body leaves the block in place (`hafter`); the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole rectangle of their buffer -/

abbrev rIn0 : Rect S1x5000x5 := Rect.unit (s := S1x5000x5) ![0, 0, 0] S1x5000x5.size inb_S1x5000x5_S1x5000x5_0_0_0
abbrev rIn1 : Rect S5x64 := Rect.unit (s := S5x64) ![0, 0] S5x64.size inb_S5x64_S5x64_0_0
abbrev rIn2 : Rect S64 := Rect.unit (s := S64) ![0] S64.size inb_S64_S64_0
abbrev rIn3 : Rect S64x96 := Rect.unit (s := S64x96) ![0, 0] S64x96.size inb_S64x96_S64x96_0_0
abbrev rVec96 : Rect S96 := Rect.unit (s := S96) ![0] S96.size inb_S96_S96_0
abbrev rOut : Rect S1x5000x96 := Rect.unit (s := S1x5000x96) ![0, 0, 0] S1x5000x96.size inb_S1x5000x96_S1x5000x96_0_0_0

/-! ## What the body leaves in the output window's buffer -/

/-- Window 7's staging buffer after the body, from the seven input windows' blocks: its one store, of the whole
    block, whose payload is the layer norm (`k1_pay1`) of the centred second-layer activations (`k1_pay2`) and their
    row sums of squares (`k1_pay3`), scaled by the sixth input and shifted by the seventh. -/
def out1_7 (x0 : Vec F S1x5000x5 .f32) (x1 : Vec F S5x64 .f32) (x2 : Vec F S64 .f32) (x3 : Vec F S64x96 .f32)
    (x4 x5 x6 : Vec F S96 .f32) : Vec F S1x5000x96 .f32 :=
  View.canon [⟨rOut, k1_pay1
    (k1_pay2 (View.ld x0 rIn0) (View.ld x1 rIn1) (View.ld x2 rIn2) (View.ld x3 rIn3) (View.ld x4 rVec96))
    (k1_pay3 (View.ld x0 rIn0) (View.ld x1 rIn1) (View.ld x2 rIn2) (View.ld x3 rIn3) (View.ld x4 rVec96))
    (View.ld x5 rVec96) (View.ld x6 rVec96)⟩]

/-- The one store is of the whole block, so it covers the buffer. -/
theorem cover1_7 (p0 : Vec F S1x5000x96 .f32) (y : S1x5000x96.Idx) :
    ∃ pc ∈ ([⟨rOut, p0⟩] : List (View.Piece (Elt F) S1x5000x96 .f32)), y ∈ pc.1.set :=
  View.cover_of_tiled [⟨rOut, p0⟩] S1x5000x96.size (by rfl) y

/-! ## The body's triple -/

set_option maxHeartbeats 4000000 in
/-- The kernel body on whole staging memrefs, the inputs' at read contents `x0 … x6` and the output's at anything,
    runs to the continuation holding the inputs' as they were and the output's at `out1_7` of the inputs': the printed
    functions are their skeletons of memory operations over payloads, which the executor runs, through the part call. -/
theorem sound_kernel1 (c : Dev nD) (E : Set ℕ) (i : grid1.Coords) (arg2 : Memref sig .tc .vmem S1x5000x5 .f32) (harg2 : arg2.IsWhole) (arg3 : Memref sig .tc .vmem S5x64 .f32) (harg3 : arg3.IsWhole) (arg4 : Memref sig .tc .vmem S64 .f32) (harg4 : arg4.IsWhole) (arg5 : Memref sig .tc .vmem S64x96 .f32) (harg5 : arg5.IsWhole) (arg6 : Memref sig .tc .vmem S96 .f32) (harg6 : arg6.IsWhole) (arg7 : Memref sig .tc .vmem S96 .f32) (harg7 : arg7.IsWhole) (arg8 : Memref sig .tc .vmem S96 .f32) (harg8 : arg8.IsWhole) (arg9 : Memref sig .tc .vmem S1x5000x96 .f32) (harg9 : arg9.IsWhole)
    (x0 : Vec F S1x5000x5 .f32) (x1 : Vec F S5x64 .f32) (x2 : Vec F S64 .f32) (x3 : Vec F S64x96 .f32) (x4 : Vec F S96 .f32) (x5 : Vec F S96 .f32) (x6 : Vec F S96 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 x0 x1 x2 x3 x4 x5 x6)) -∗ K ⟨⟩))
      ⊢ wp frame (wpE (defs₀ (F := F)) Variants.none c none) E (cc1__mlp_ln_kernel i arg2 harg2 arg3 harg3 arg4 harg4 arg5 harg5 arg6 harg6 arg7 harg7 arg8 harg8 arg9 harg9) K := by
  simp only [cc1__mlp_ln_kernel_eq_skeleton]; unfold cc1__mlp_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and the output's at `out1_7` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks (`before1_W`), so the body's triple applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameKernel.Frame.lean ====
/-
  The whole program's run: the binning region, the two host operations (a transpose and a reshape), the
  MLP-and-normalisation region.  The buffer contents at each boundary are a fold from the launch memory: a
  region leaves its arrays at what its write-backs make of them and every other buffer as entered; a host
  stretch applies its operations.  Each region is a segment entered from "every unscoped buffer at the
  boundary's contents, the generator register at some state, nothing owed" and left at the next boundary's.
  The run's post-state has every unscoped buffer at the last boundary's contents, from which both the frame
  claim (every argument as launched) and the result's value are read.
-/
import proofs.«113907_j39831526703842_2_alg».proof.Proof.FrameKernel.Region0
import proofs.«113907_j39831526703842_2_alg».proof.Proof.FrameKernel.Region1
import proofs.«113907_j39831526703842_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the binning region's entry). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- At the binning region's exit. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the transpose and the reshape (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide)
    _ = W0 m ρ c (Proc.devRef .tc main_arg1) := W2_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (by decide)
    _ = W0 m ρ c (Proc.devRef .tc main_arg2) := W2_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 3).trans (((dat1 (V3 m ρ) c).arrAt_in 3 rfl _).trans (A_eq1 (V3 m ρ) c 3))
    _ = W2 m ρ c (Proc.devRef .tc main_arg3) := StableHlo.after_of_writes_sub hostOps1 _ hostOps1_writes (by decide)
    _ = W0 m ρ c (Proc.devRef .tc main_arg3) := W2_of_ne m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 4).trans (((dat1 (V3 m ρ) c).arrAt_in 4 rfl _).trans (A_eq1 (V3 m ρ) c 4))
    _ = W2 m ρ c (Proc.devRef .tc main_arg4) := StableHlo.after_of_writes_sub hostOps1 _ hostOps1_writes (by decide)
    _ = W0 m ρ c (Proc.devRef .tc main_arg4) := W2_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 5).trans (((dat1 (V3 m ρ) c).arrAt_in 5 rfl _).trans (A_eq1 (V3 m ρ) c 5))
    _ = W2 m ρ c (Proc.devRef .tc main_arg5) := StableHlo.after_of_writes_sub hostOps1 _ hostOps1_writes (by decide)
    _ = W0 m ρ c (Proc.devRef .tc main_arg5) := W2_of_ne m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 6).trans (((dat1 (V3 m ρ) c).arrAt_in 6 rfl _).trans (A_eq1 (V3 m ρ) c 6))
    _ = W2 m ρ c (Proc.devRef .tc main_arg6) := StableHlo.after_of_writes_sub hostOps1 _ hostOps1_writes (by decide)
    _ = W0 m ρ c (Proc.devRef .tc main_arg6) := W2_of_ne m ρ c main_arg6 (by decide)
    _ = m ((c : Thread nD τ).loc main_arg6) := rfl

/-- The result's buffer ends at what the second region's write-backs make of it. -/
theorem W4_main_v3 (c : Dev nD) : W4 m ρ c (Proc.devRef .tc main_v3) = (dat1 (V3 m ρ) c).arrAt 7 cfg1.N :=
  W4_arr m ρ c 7

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.Kernel.Hand

end
-- ==== Proof.FrameKernelIdeal.Shared0.lean ====
/-
  The binning region (the first of the program's two kernel regions), what its three control cases share.
  The grid is 16 × 40: coordinate 0 is the batch, coordinate 1 the tile of 5000 points.  The body zeroes
  its accumulator (a scratch of shape [5, 200, 200]) when the tile coordinate is 0, adds the tile's five
  200 × 200 histograms into it at every point, and copies it into the output block when the tile
  coordinate is 39.  So a point is in one of three cases: first tile, middle tile, last tile.
  Stated here: the two conditions in closed form over the linear point number, where the output window is
  idle, the staging and scratch memrefs by name, the block a window shows at a point, and the region's
  invariant with the scratch owned as a memref.  Everything is stated at a parameter `V`, the buffer
  contents the region is entered from.
-/
import proofs.«113907_j39831526703842_2_alg».proof.Proof.Gen.KernelIdeal.Launch
import proofs.«113907_j39831526703842_2_alg».proof.Proof.Gen.KernelIdeal.Skeleton
import proofs.«113907_j39831526703842_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The points window's staging buffer holds the tile's block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions -/

/-- "The tile coordinate is 0": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 40 = 0 :=
  (by decide +kernel : ∀ t : Fin grid0.N, cond0_0 (grid0.coords t) ↔ t.val % 40 = 0)

/-- "The tile coordinate is 39": the accumulator is copied out. -/
abbrev cond0_1 (i : grid0.Coords) : Prop := k0_cond2 i = 1#1
theorem hcond0_1 : ∀ t : Fin cfg0.N, cond0_1 (grid0.coords t) ↔ t.val % 40 = 39 :=
  (by decide +kernel : ∀ t : Fin grid0.N, cond0_1 (grid0.coords t) ↔ t.val % 40 = 39)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs by name -/

/-- One staging buffer of the output window, through which its contents are stated. -/
abbrev VO0_1 : View sig .tc .vmem S1x5x200x200 .f32 := (Memref.whole cc0_stg1_0 : Memref sig .tc .vmem S1x5x200x200 .f32).view
abbrev ms0_0 (t : Fin cfg0.N) : Memref sig .tc .vmem S1x5000x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5x200x200 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S5x200x200 .f32 := Memref.whole cc0_scratch0
abbrev VS0_0 : View sig .tc .vmem S5x200x200 .f32 := scM0_0.view

/-! ## The region's invariant, the accumulator apart -/

/-- The core's other scoped buffers (the second region's staging buffers), each whole at some contents: the
    binning kernel never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- What the launch hands the region: the accumulator owned as a memref at some contents, the other scoped
    buffers, the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.KernelIdeal.Hand

end
-- ==== Proof.FrameKernelIdeal.Run0B.lean ====
/-
  The binning kernel's body run once, whole, in the middle-tile case: on whole staging memrefs holding the
  tile's points, the output block and the accumulator, it terminates without a fault; the list of pieces
  (rectangle, value) its stores leave in each buffer is found by the run itself.
-/
import proofs.«113907_j39831526703842_2_alg».proof.Proof.FrameKernelIdeal.Shared0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Middle tile (neither the first nor the last of a batch): nothing is stored into the output block, which is
    handed back as found; the accumulator, found at `xs0`, ends with the pieces `LS0` written over it. -/
noncomputable def kernelRun0_B (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : ¬cond0_1 i)
    (x0 : Vec F S1x5000x4 .f32) (xs0 : Vec F S5x200x200 .f32) :
    Σ' (L1 : List (View.Piece (Elt F) S1x5x200x200 .f32)), { LS0 : List (View.Piece (Elt F) S5x200x200 .f32) //
      ∀ (xi1 : Vec F S1x5x200x200 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__binning_kernel i arg2 harg2 arg3 harg3 arg4 harg4) K } := by
  refine ⟨[], ?_, fun xi1 E K => ?run⟩
  case run =>
    simp only [cc0__binning_kernel_eq_skeleton]; unfold cc0__binning_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.FrameKernelIdeal.Run0A.lean ====
/-
  The binning kernel's body run once, whole, in the first-tile case: on whole staging memrefs holding the
  tile's points, the output block and the accumulator, it terminates without a fault; the list of pieces
  (rectangle, value) its stores leave in each buffer is found by the run itself.
-/
import proofs.«113907_j39831526703842_2_alg».proof.Proof.FrameKernelIdeal.Run0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- First tile of a batch: the accumulator, found at anything, is zeroed and the tile's five histograms added;
    nothing is stored into the output block, which is handed back as found. -/
noncomputable def kernelRun0_A (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : cond0_0 i) (hc1 : ¬cond0_1 i)
    (x0 : Vec F S1x5000x4 .f32) :
    Σ' (L1 : List (View.Piece (Elt F) S1x5x200x200 .f32)), { LS0 : List (View.Piece (Elt F) S5x200x200 .f32) //
      ∀ (xi1 : Vec F S1x5x200x200 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__binning_kernel i arg2 harg2 arg3 harg3 arg4 harg4) K } := by
  refine ⟨[], ?_, fun xi1 E K => ?run⟩
  case run =>
    simp only [cc0__binning_kernel_eq_skeleton]; unfold cc0__binning_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.FrameKernelIdeal.Run0C.lean ====
/-
  The binning kernel's body run once, whole, in the last-tile case: on whole staging memrefs holding the
  tile's points, the output block and the accumulator, it terminates without a fault; the list of pieces
  (rectangle, value) its stores leave in each buffer is found by the run itself.
-/
import proofs.«113907_j39831526703842_2_alg».proof.Proof.FrameKernelIdeal.Run0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Last tile of a batch: the tile's five histograms are added into the accumulator, found at `xs0`, and the
    accumulator is copied whole into the output block, found at anything. -/
noncomputable def kernelRun0_C (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : cond0_1 i)
    (x0 : Vec F S1x5000x4 .f32) (xs0 : Vec F S5x200x200 .f32) :
    Σ' (L1 : List (View.Piece (Elt F) S1x5x200x200 .f32)), { LS0 : List (View.Piece (Elt F) S5x200x200 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__binning_kernel i arg2 harg2 arg3 harg3 arg4 harg4) K } := by
  refine ⟨?_, ?_, fun E K => ?run⟩
  case run =>
    simp only [cc0__binning_kernel_eq_skeleton]; unfold cc0__binning_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.FrameKernelIdeal.Region0.lean ====
/-
  The binning region's proof data and body obligation.
  What the accumulator and the output block hold after each grid point is defined by recursion on the linear
  point number n = 40·b + j (b the batch, j the tile): at j = 0 the first-tile case's pieces read back, at
  0 < j < 39 the middle case's over what point n − 1 left in the accumulator, at j = 39 the last-tile case's.
  The region's invariant before point n + 1 owns the accumulator at exactly what point n left in it; the
  output window is idle (neither stored into nor written back) except at the last tile of each batch.
-/
import proofs.«113907_j39831526703842_2_alg».proof.Proof.FrameKernelIdeal.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First tile: nothing stored into the output block (a placeholder nothing consults). -/
def out0_A_1 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : cond0_0 i) (hc1 : ¬cond0_1 i)
    (x0 : Vec F S1x5000x4 .f32) : Vec F S1x5x200x200 .f32 :=
  VO0_1.read (Elt F) (VO0_1.writes (Elt F) VO0_1.junk (kernelRun0_A c i arg2 harg2 arg3 harg3 arg4 harg4 hc0 hc1 x0).1)

/-- First tile: the accumulator's pieces cover it (the five slabs [1, 200, 200]). -/
theorem scover0_A_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : cond0_0 i) (hc1 : ¬cond0_1 i)
    (x0 : Vec F S1x5000x4 .f32) (y : S5x200x200.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x200x200.size (by sl_kernel_rfl) y

/-- First tile: what the accumulator holds afterwards. -/
def sout0_A_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : cond0_0 i) (hc1 : ¬cond0_1 i)
    (x0 : Vec F S1x5000x4 .f32) : Vec F S5x200x200 .f32 :=
  VS0_0.read (Elt F) (VS0_0.writes (Elt F) VS0_0.junk (kernelRun0_A c i arg2 harg2 arg3 harg3 arg4 harg4 hc0 hc1 x0).2.1)

/-- Middle tile: nothing stored into the output block. -/
def out0_B_1 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : ¬cond0_1 i)
    (x0 : Vec F S1x5000x4 .f32) (xs0 : Vec F S5x200x200 .f32) : Vec F S1x5x200x200 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : ¬cond0_1 i)
    (x0 : Vec F S1x5000x4 .f32) (xs0 : Vec F S5x200x200 .f32) (y : S5x200x200.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x200x200.size (by sl_kernel_rfl) y

def sout0_B_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : ¬cond0_1 i)
    (x0 : Vec F S1x5000x4 .f32) (xs0 : Vec F S5x200x200 .f32) : Vec F S5x200x200 .f32 :=
  VS0_0.read (Elt F) (VS0_0.writes (Elt F) VS0_0.junk (kernelRun0_B c i arg2 harg2 arg3 harg3 arg4 harg4 hc0 hc1 x0 xs0).2.1)

/-- Last tile: the one store into the output block covers it. -/
theorem cover0_C_1 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : cond0_1 i)
    (x0 : Vec F S1x5000x4 .f32) (xs0 : Vec F S5x200x200 .f32) (y : S1x5x200x200.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x5x200x200.size (by sl_kernel_rfl) y

def out0_C_1 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : cond0_1 i)
    (x0 : Vec F S1x5000x4 .f32) (xs0 : Vec F S5x200x200 .f32) : Vec F S1x5x200x200 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : cond0_1 i)
    (x0 : Vec F S1x5000x4 .f32) (xs0 : Vec F S5x200x200 .f32) (y : S5x200x200.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x200x200.size (by sl_kernel_rfl) y

def sout0_C_0 (c : Dev nD) (i : grid0.Coords) (arg2 : Memref sig .tc .vmem S1x5000x4 .f32) (harg2 : arg2.IsWhole) (arg3 : Memref sig .tc .vmem S1x5x200x200 .f32) (harg3 : arg3.IsWhole) (arg4 : Memref sig .tc .vmem S5x200x200 .f32) (harg4 : arg4.IsWhole) (hc0 : ¬cond0_0 i) (hc1 : cond0_1 i)
    (x0 : Vec F S1x5000x4 .f32) (xs0 : Vec F S5x200x200 .f32) : Vec F S5x200x200 .f32 :=
  VS0_0.read (Elt F) (VS0_0.writes (Elt F) VS0_0.junk (kernelRun0_C c i arg2 harg2 arg3 harg3 arg4 harg4 hc0 hc1 x0 xs0).2.1)

/-! ## The accumulation, point by point -/

/-- What the output block and the accumulator hold after the body at linear position `n` (a pair: the output
    block, then the accumulator). -/
def outsAt0 (c : Dev nD) : (n : ℕ) → n < cfg0.N → Vec F S1x5x200x200 .f32 × Vec F S5x200x200 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 40 = 0 then
      if h1 : (n + 1) % 40 = 39 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 40 = 39 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 40 = 0) (h1 : ¬t.val % 40 = 39) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 40 = 0) (h1 : ¬t.val % 40 = 39) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 40 = 0) (h1 : t.val % 40 = 39) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry what the launch hands over (every scoped buffer at anything);
    afterwards the accumulator at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The region's proof data on core `c`: the arrays as the region finds them; after the body the points
    window at its block and the output window at `outsAt0`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the
    accumulator at what the point before left (at anything at the very first point) and takes it back at this
    point's contents; the other scoped buffers, the generator register and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 640 := lt_of_lt_of_eq t.isLt (show cfg0.N = 640 from N_0)
  by_cases h0 : t.val % 40 = 0
  · by_cases h1 : t.val % 40 = 39
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · have hz : t.val ≠ 0 := fun hz => h0 (by rw [hz])
    by_cases h1 : t.val % 40 = 39
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS_castSucc V c t, PhiS_pos V c _ _ hz]
      iintro ⟨⟨⟨HS0, Hoth⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hoth⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _)
          iexact Hoth
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 640 := N_0; omega)

end Cert.KernelIdeal.Hand

end
-- ==== Proof.FrameKernelIdeal.Region1.lean ====
/- Region 1 of @main (custom_call 1, the multilayer-perceptron-and-layer-norm kernel), the frame half: at a parameter
   `V` (the TensorCore's buffer contents when the region is entered) each window's block at a point, what the body
   leaves in the output window's staging buffer as a function of the input blocks, the body's triple, the pipeline's
   proof data and the body obligation. Stated for any float model `F`. -/
import proofs.«113907_j39831526703842_2_alg».proof.Proof.Gen.KernelIdeal.Launch
import proofs.«113907_j39831526703842_2_alg».proof.Proof.Gen.KernelIdeal.Skeleton
import proofs.«113907_j39831526703842_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not (an unfetched input's block index has not moved since the point before), for any proof data whose array is
    `V`'s (`hA`) and whose body leaves the block in place (`hafter`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    not (an unfetched input's block index has not moved since the point before), for any proof data whose array is
    `V`'s (`hA`) and whose body leaves the block in place (`hafter`); the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or
    not (an unfetched input's block index has not moved since the point before), for any proof data whose array is
    `V`'s (`hA`) and whose body leaves the block in place (`hafter`); the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or
    not (an unfetched input's block index has not moved since the point before), for any proof data whose array is
    `V`'s (`hA`) and whose body leaves the block in place (`hafter`); the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there or
    not (an unfetched input's block index has not moved since the point before), for any proof data whose array is
    `V`'s (`hA`) and whose body leaves the block in place (`hafter`); the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there or
    not (an unfetched input's block index has not moved since the point before), for any proof data whose array is
    `V`'s (`hA`) and whose body leaves the block in place (`hafter`); the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the pipeline fetched it there or
    not (an unfetched input's block index has not moved since the point before), for any proof data whose array is
    `V`'s (`hA`) and whose body leaves the block in place (`hafter`); the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole rectangle of their buffer -/

abbrev rIn0 : Rect S1x5000x5 := Rect.unit (s := S1x5000x5) ![0, 0, 0] S1x5000x5.size inb_S1x5000x5_S1x5000x5_0_0_0
abbrev rIn1 : Rect S5x64 := Rect.unit (s := S5x64) ![0, 0] S5x64.size inb_S5x64_S5x64_0_0
abbrev rIn2 : Rect S64 := Rect.unit (s := S64) ![0] S64.size inb_S64_S64_0
abbrev rIn3 : Rect S64x96 := Rect.unit (s := S64x96) ![0, 0] S64x96.size inb_S64x96_S64x96_0_0
abbrev rVec96 : Rect S96 := Rect.unit (s := S96) ![0] S96.size inb_S96_S96_0
abbrev rOut : Rect S1x5000x96 := Rect.unit (s := S1x5000x96) ![0, 0, 0] S1x5000x96.size inb_S1x5000x96_S1x5000x96_0_0_0

/-! ## What the body leaves in the output window's buffer -/

/-- Window 7's staging buffer after the body, from the seven input windows' blocks: its one store, of the whole
    block, whose payload is the layer norm (`k1_pay1`) of the centred second-layer activations (`k1_pay2`) and their
    row sums of squares (`k1_pay3`), scaled by the sixth input and shifted by the seventh. -/
def out1_7 (x0 : Vec F S1x5000x5 .f32) (x1 : Vec F S5x64 .f32) (x2 : Vec F S64 .f32) (x3 : Vec F S64x96 .f32)
    (x4 x5 x6 : Vec F S96 .f32) : Vec F S1x5000x96 .f32 :=
  View.canon [⟨rOut, k1_pay1
    (k1_pay2 (View.ld x0 rIn0) (View.ld x1 rIn1) (View.ld x2 rIn2) (View.ld x3 rIn3) (View.ld x4 rVec96))
    (k1_pay3 (View.ld x0 rIn0) (View.ld x1 rIn1) (View.ld x2 rIn2) (View.ld x3 rIn3) (View.ld x4 rVec96))
    (View.ld x5 rVec96) (View.ld x6 rVec96)⟩]

/-- The one store is of the whole block, so it covers the buffer. -/
theorem cover1_7 (p0 : Vec F S1x5000x96 .f32) (y : S1x5000x96.Idx) :
    ∃ pc ∈ ([⟨rOut, p0⟩] : List (View.Piece (Elt F) S1x5000x96 .f32)), y ∈ pc.1.set :=
  View.cover_of_tiled [⟨rOut, p0⟩] S1x5000x96.size (by rfl) y

/-! ## The body's triple -/

set_option maxHeartbeats 4000000 in
/-- The kernel body on whole staging memrefs, the inputs' at read contents `x0 … x6` and the output's at anything,
    runs to the continuation holding the inputs' as they were and the output's at `out1_7` of the inputs': the printed
    functions are their skeletons of memory operations over payloads, which the executor runs, through the part call. -/
theorem sound_kernel1 (c : Dev nD) (E : Set ℕ) (i : grid1.Coords) (arg2 : Memref sig .tc .vmem S1x5000x5 .f32) (harg2 : arg2.IsWhole) (arg3 : Memref sig .tc .vmem S5x64 .f32) (harg3 : arg3.IsWhole) (arg4 : Memref sig .tc .vmem S64 .f32) (harg4 : arg4.IsWhole) (arg5 : Memref sig .tc .vmem S64x96 .f32) (harg5 : arg5.IsWhole) (arg6 : Memref sig .tc .vmem S96 .f32) (harg6 : arg6.IsWhole) (arg7 : Memref sig .tc .vmem S96 .f32) (harg7 : arg7.IsWhole) (arg8 : Memref sig .tc .vmem S96 .f32) (harg8 : arg8.IsWhole) (arg9 : Memref sig .tc .vmem S1x5000x96 .f32) (harg9 : arg9.IsWhole)
    (x0 : Vec F S1x5000x5 .f32) (x1 : Vec F S5x64 .f32) (x2 : Vec F S64 .f32) (x3 : Vec F S64x96 .f32) (x4 : Vec F S96 .f32) (x5 : Vec F S96 .f32) (x6 : Vec F S96 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 x0 x1 x2 x3 x4 x5 x6)) -∗ K ⟨⟩))
      ⊢ wp frame (wpE (defs₀ (F := F)) Variants.none c none) E (cc1__mlp_ln_kernel i arg2 harg2 arg3 harg3 arg4 harg4 arg5 harg5 arg6 harg6 arg7 harg7 arg8 harg8 arg9 harg9) K := by
  simp only [cc1__mlp_ln_kernel_eq_skeleton]; unfold cc1__mlp_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and the output's at `out1_7` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks (`before1_W`), so the body's triple applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameKernelIdeal.Frame.lean ====
/-
  The whole program's run: the binning region, the two host operations (a transpose and a reshape), the
  MLP-and-normalisation region.  The buffer contents at each boundary are a fold from the launch memory: a
  region leaves its arrays at what its write-backs make of them and every other buffer as entered; a host
  stretch applies its operations.  Each region is a segment entered from "every unscoped buffer at the
  boundary's contents, the generator register at some state, nothing owed" and left at the next boundary's.
  The run's post-state has every unscoped buffer at the last boundary's contents, from which both the frame
  claim (every argument as launched) and the result's value are read.
-/
import proofs.«113907_j39831526703842_2_alg».proof.Proof.FrameKernelIdeal.Region0
import proofs.«113907_j39831526703842_2_alg».proof.Proof.FrameKernelIdeal.Region1
import proofs.«113907_j39831526703842_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the binning region's entry). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- At the binning region's exit. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the transpose and the reshape (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide)
    _ = W0 m ρ c (Proc.devRef .tc main_arg1) := W2_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (by decide)
    _ = W0 m ρ c (Proc.devRef .tc main_arg2) := W2_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 3).trans (((dat1 (V3 m ρ) c).arrAt_in 3 rfl _).trans (A_eq1 (V3 m ρ) c 3))
    _ = W2 m ρ c (Proc.devRef .tc main_arg3) := StableHlo.after_of_writes_sub hostOps1 _ hostOps1_writes (by decide)
    _ = W0 m ρ c (Proc.devRef .tc main_arg3) := W2_of_ne m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 4).trans (((dat1 (V3 m ρ) c).arrAt_in 4 rfl _).trans (A_eq1 (V3 m ρ) c 4))
    _ = W2 m ρ c (Proc.devRef .tc main_arg4) := StableHlo.after_of_writes_sub hostOps1 _ hostOps1_writes (by decide)
    _ = W0 m ρ c (Proc.devRef .tc main_arg4) := W2_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 5).trans (((dat1 (V3 m ρ) c).arrAt_in 5 rfl _).trans (A_eq1 (V3 m ρ) c 5))
    _ = W2 m ρ c (Proc.devRef .tc main_arg5) := StableHlo.after_of_writes_sub hostOps1 _ hostOps1_writes (by decide)
    _ = W0 m ρ c (Proc.devRef .tc main_arg5) := W2_of_ne m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 6).trans (((dat1 (V3 m ρ) c).arrAt_in 6 rfl _).trans (A_eq1 (V3 m ρ) c 6))
    _ = W2 m ρ c (Proc.devRef .tc main_arg6) := StableHlo.after_of_writes_sub hostOps1 _ hostOps1_writes (by decide)
    _ = W0 m ρ c (Proc.devRef .tc main_arg6) := W2_of_ne m ρ c main_arg6 (by decide)
    _ = m ((c : Thread nD τ).loc main_arg6) := rfl

/-- The result's buffer ends at what the second region's write-backs make of it. -/
theorem W4_main_v3 (c : Dev nD) : W4 m ρ c (Proc.devRef .tc main_v3) = (dat1 (V3 m ρ) c).arrAt 7 cfg1.N :=
  W4_arr m ρ c 7

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.KernelIdeal.Hand

end
-- ==== Proof.Value.BinAcc.lean ====
/-
  One grid point of the binning region, as a value at the extended reals.  The body adds to slab c of the
  accumulator (c = 0 … 4) the tile's histogram of channel c; so whatever the accumulator held, `xs`, it
  holds afterwards  xs[c, h, w] + T(tile)[c, h, w],  T the tile's contribution.  The three control cases
  differ only in what `xs` is (zero at the first tile of a batch, the previous point's contents otherwise)
  and in whether the accumulator is also copied into the output block (at the last tile).  Stated over an
  abstract contribution `T` with the five stores' arithmetic as hypotheses, which the payload lemmas
  discharge.
-/
import proofs.«113907_j39831526703842_2_alg».proof.Proof.FrameKernelIdeal.Region0
import Idealize.ShloMosaic.Lib.Pipeline.Value
import Idealize.ShloMosaic.Lib.Pipeline.CanonAppend
import Idealize.ShloMosaic.Lib.ValueIdx

set_option maxRecDepth 16384

noncomputable section

namespace Cert.Value.Acc

open Idealize.ShloMosaic Idealize.ShloMosaic.TcCoe Idealize.SL.Sem Idealize.ShloMosaic.Tactic
open Idealize.ShloMosaic.ValueIdx
open Idealize.ShloMosaic.Pipeline (Dat)
open Cert.KernelIdeal Cert.KernelIdeal.Gen Cert.KernelIdeal.Hand

variable (T : Vec Ideal S1x5000x4 .f32 → Fin 5 → Fin 200 → Fin 200 → EReal)

/-- What one point leaves in the accumulator found at `xs`: entry (c, h, w) gains the tile's contribution. -/
def accG (x0 : Vec Ideal S1x5000x4 .f32) (xs : Vec Ideal S5x200x200 .f32) : Vec Ideal S5x200x200 .f32 :=
  fun y => xs y + T x0 (y 0) (y 1) (y 2)

theorem accG_apply (x0 : Vec Ideal S1x5000x4 .f32) (xs : Vec Ideal S5x200x200 .f32) (c : Fin 5) (h w : Fin 200) :
    accG T x0 xs (ix3 c h w) = xs (ix3 c h w) + T x0 c h w := rfl

/-- The five stores' arithmetic: each adds the tile's contribution of its channel to the slab it loaded. -/
structure PayFacts : Prop where
  ch0 : ∀ (v3 : Vec Ideal S1x5000x4 .f32) (v : Vec Ideal S1x200x200 .f32) (h w : Fin 200),
    k0_pay8 (k0_pay7 v3 v) (ix3 0 h w) = v (ix3 0 h w) + T v3 0 h w
  ch1 : ∀ (v3 : Vec Ideal S1x5000x4 .f32) (v : Vec Ideal S1x200x200 .f32) (h w : Fin 200),
    k0_pay9 (k0_pay4 v3) (k0_pay5 v3) (k0_pay6 v3) v (ix3 0 h w) = v (ix3 0 h w) + T v3 1 h w
  ch2 : ∀ (v3 : Vec Ideal S1x5000x4 .f32) (v : Vec Ideal S1x200x200 .f32) (h w : Fin 200),
    k0_pay10 (k0_pay4 v3) (k0_pay5 v3) (k0_pay6 v3) v (ix3 0 h w) = v (ix3 0 h w) + T v3 2 h w
  ch3 : ∀ (v3 : Vec Ideal S1x5000x4 .f32) (v : Vec Ideal S1x200x200 .f32) (h w : Fin 200),
    k0_pay11 (k0_pay4 v3) (k0_pay5 v3) (k0_pay6 v3) v (ix3 0 h w) = v (ix3 0 h w) + T v3 3 h w
  ch4 : ∀ (v3 : Vec Ideal S1x5000x4 .f32) (v : Vec Ideal S1x200x200 .f32) (h w : Fin 200),
    k0_pay1 (k0_pay5 v3) (k0_pay6 v3) (constant S200x200 FTy.f32 0#32) v (ix3 0 h w) = v (ix3 0 h w) + T v3 4 h w
  zero : ∀ (c : Fin 5) (h w : Fin 200), (k0_pay3 (F := Ideal)) (ix3 c h w) = 0
  copy : ∀ (v85 : Vec Ideal S5x200x200 .f32) (c : Fin 5) (h w : Fin 200), k0_pay2 v85 (ix4 0 c h w) = v85 (ix3 c h w)

theorem hz3 : (![0, 0, 0] : Fin 3 → Nat) = fun _ => 0 := funext fun a => by fin_cases a <;> rfl

/-- Slab `c` of the accumulator, as the body loads it: entry (0, h, w) of the load is entry (c, h, w). -/
theorem slab_ld (xs : Vec Ideal S5x200x200 .f32) (off : Fin 3 → Nat) (inb : ∀ a, off a + S1x200x200.size a ≤ S5x200x200.size a)
    (c : Fin 5) (hoff : off = ![c.val, 0, 0]) (h w : Fin 200) :
    View.ld xs (Rect.unit (s := S5x200x200) off S1x200x200.size inb) (ix3 (0 : Fin 1) h w) = xs (ix3 c h w) := by
  subst hoff
  show xs ((Rect.unit (s := S5x200x200) ![c.val, 0, 0] S1x200x200.size inb).emb (ix3 (0 : Fin 1) h w)) = _
  refine congrArg xs (funext fun a => Fin.ext ?_)
  match a with
  | ⟨0, _⟩ => simp [Rect.emb_apply]
  | ⟨1, _⟩ => simp [Rect.emb_apply]
  | ⟨2, _⟩ => simp [Rect.emb_apply]

/-- Entry (0, h, w) of slab `c`'s rectangle sits at (c, h, w) of the accumulator. -/
theorem emb_slab (c : Fin 5) (h w : Fin 200) (off : Fin 3 → Nat) (hoff : off = ![c.val, 0, 0])
    (inb : ∀ a, off a + (![1, 200, 200] : Fin 3 → Nat) a ≤ S5x200x200.size a) :
    (Rect.unit (s := S5x200x200) off ![1, 200, 200] inb).emb (ix3 (0 : Fin 1) h w) = ix3 c h w := by
  subst hoff
  exact funext fun a => Fin.ext (by match a with | ⟨0, _⟩ => simp [Rect.emb_apply] | ⟨1, _⟩ => simp [Rect.emb_apply] | ⟨2, _⟩ => simp [Rect.emb_apply])

theorem mem_slab (c : Fin 5) (h w : Fin 200) (off : Fin 3 → Nat) (hoff : off = ![c.val, 0, 0])
    (inb : ∀ a, off a + (![1, 200, 200] : Fin 3 → Nat) a ≤ S5x200x200.size a) :
    ix3 c h w ∈ (Rect.unit (s := S5x200x200) off ![1, 200, 200] inb).set := by
  subst hoff
  refine Rect.mem_set_unit.mpr fun a => ?_
  have := h.isLt; have := w.isLt
  match a with
  | ⟨0, _⟩ => exact ⟨le_refl _, Nat.lt_succ_self _⟩
  | ⟨1, _⟩ => exact ⟨Nat.zero_le _, by show h.val < 0 + 200; omega⟩
  | ⟨2, _⟩ => exact ⟨Nat.zero_le _, by show w.val < 0 + 200; omega⟩

variable {T}

/-- THE FIVE STORES: whatever earlier stores lie beneath them, if the slab each store loaded holds slab `c` of
    `xs`, the accumulator ends at `xs` plus the tile's contribution. -/
theorem canon_slabs (hP : PayFacts T) (x0 : Vec Ideal S1x5000x4 .f32) (xs : Vec Ideal S5x200x200 .f32)
    (v0 v1 v2 v3 v4 : Vec Ideal S1x200x200 .f32) (L' : List (View.Piece (Elt Ideal) S5x200x200 .f32))
    (e0 : ∀ h w : Fin 200, v0 (ix3 0 h w) = xs (ix3 0 h w)) (e1 : ∀ h w : Fin 200, v1 (ix3 0 h w) = xs (ix3 1 h w))
    (e2 : ∀ h w : Fin 200, v2 (ix3 0 h w) = xs (ix3 2 h w)) (e3 : ∀ h w : Fin 200, v3 (ix3 0 h w) = xs (ix3 3 h w))
    (e4 : ∀ h w : Fin 200, v4 (ix3 0 h w) = xs (ix3 4 h w)) :
    View.canon (([⟨Rect.unit (s := S5x200x200) ![4, 0, 0] ![1, 200, 200] inb_S5x200x200_S1x200x200_4_0_0, k0_pay1 (k0_pay5 x0) (k0_pay6 x0) (constant S200x200 FTy.f32 0#32) v4⟩,
      ⟨Rect.unit (s := S5x200x200) ![3, 0, 0] ![1, 200, 200] inb_S5x200x200_S1x200x200_3_0_0, k0_pay11 (k0_pay4 x0) (k0_pay5 x0) (k0_pay6 x0) v3⟩,
      ⟨Rect.unit (s := S5x200x200) ![2, 0, 0] ![1, 200, 200] inb_S5x200x200_S1x200x200_2_0_0, k0_pay10 (k0_pay4 x0) (k0_pay5 x0) (k0_pay6 x0) v2⟩,
      ⟨Rect.unit (s := S5x200x200) ![1, 0, 0] ![1, 200, 200] inb_S5x200x200_S1x200x200_1_0_0, k0_pay9 (k0_pay4 x0) (k0_pay5 x0) (k0_pay6 x0) v1⟩,
      ⟨Rect.unit (s := S5x200x200) ![0, 0, 0] ![1, 200, 200] inb_S5x200x200_S1x200x200_0_0_0, k0_pay8 (k0_pay7 x0 v0)⟩] : List (View.Piece (Elt Ideal) S5x200x200 .f32)) ++ L') = accG T x0 xs := by
  funext y
  obtain ⟨c', h', w', rfl⟩ : ∃ (c' : Fin 5) (h' w' : Fin 200), y = ix3 c' h' w' := ⟨y 0, y 1, y 2, eq_ix3 y⟩
  refine View.canon_append_of_pieces (accG T x0 xs) L' _ ?hp (ix3 c' h' w') ?hc
  case hp =>
    intro p hp
    simp only [List.mem_cons, List.not_mem_nil, or_false] at hp
    rcases hp with rfl | rfl | rfl | rfl | rfl

    · intro x
      obtain ⟨z, h, w, rfl⟩ : ∃ (z : Fin 1) (h w : Fin 200), x = ix3 z h w := ⟨x 0, x 1, x 2, eq_ix3 x⟩
      obtain rfl : z = 0 := Subsingleton.elim _ _
      show k0_pay1 (k0_pay5 x0) (k0_pay6 x0) (constant S200x200 FTy.f32 0#32) v4 (ix3 0 h w)
        = accG T x0 xs ((Rect.unit (s := S5x200x200) ![4, 0, 0] ![1, 200, 200] inb_S5x200x200_S1x200x200_4_0_0).emb (ix3 (0 : Fin 1) h w))
      rw [emb_slab 4 h w ![4, 0, 0] rfl inb_S5x200x200_S1x200x200_4_0_0, accG_apply]
      exact (hP.ch4 _ _ h w).trans (congrArg (· + T x0 4 h w) (e4 h w))
    · intro x
      obtain ⟨z, h, w, rfl⟩ : ∃ (z : Fin 1) (h w : Fin 200), x = ix3 z h w := ⟨x 0, x 1, x 2, eq_ix3 x⟩
      obtain rfl : z = 0 := Subsingleton.elim _ _
      show k0_pay11 (k0_pay4 x0) (k0_pay5 x0) (k0_pay6 x0) v3 (ix3 0 h w)
        = accG T x0 xs ((Rect.unit (s := S5x200x200) ![3, 0, 0] ![1, 200, 200] inb_S5x200x200_S1x200x200_3_0_0).emb (ix3 (0 : Fin 1) h w))
      rw [emb_slab 3 h w ![3, 0, 0] rfl inb_S5x200x200_S1x200x200_3_0_0, accG_apply]
      exact (hP.ch3 _ _ h w).trans (congrArg (· + T x0 3 h w) (e3 h w))
    · intro x
      obtain ⟨z, h, w, rfl⟩ : ∃ (z : Fin 1) (h w : Fin 200), x = ix3 z h w := ⟨x 0, x 1, x 2, eq_ix3 x⟩
      obtain rfl : z = 0 := Subsingleton.elim _ _
      show k0_pay10 (k0_pay4 x0) (k0_pay5 x0) (k0_pay6 x0) v2 (ix3 0 h w)
        = accG T x0 xs ((Rect.unit (s := S5x200x200) ![2, 0, 0] ![1, 200, 200] inb_S5x200x200_S1x200x200_2_0_0).emb (ix3 (0 : Fin 1) h w))
      rw [emb_slab 2 h w ![2, 0, 0] rfl inb_S5x200x200_S1x200x200_2_0_0, accG_apply]
      exact (hP.ch2 _ _ h w).trans (congrArg (· + T x0 2 h w) (e2 h w))
    · intro x
      obtain ⟨z, h, w, rfl⟩ : ∃ (z : Fin 1) (h w : Fin 200), x = ix3 z h w := ⟨x 0, x 1, x 2, eq_ix3 x⟩
      obtain rfl : z = 0 := Subsingleton.elim _ _
      show k0_pay9 (k0_pay4 x0) (k0_pay5 x0) (k0_pay6 x0) v1 (ix3 0 h w)
        = accG T x0 xs ((Rect.unit (s := S5x200x200) ![1, 0, 0] ![1, 200, 200] inb_S5x200x200_S1x200x200_1_0_0).emb (ix3 (0 : Fin 1) h w))
      rw [emb_slab 1 h w ![1, 0, 0] rfl inb_S5x200x200_S1x200x200_1_0_0, accG_apply]
      exact (hP.ch1 _ _ h w).trans (congrArg (· + T x0 1 h w) (e1 h w))
    · intro x
      obtain ⟨z, h, w, rfl⟩ : ∃ (z : Fin 1) (h w : Fin 200), x = ix3 z h w := ⟨x 0, x 1, x 2, eq_ix3 x⟩
      obtain rfl : z = 0 := Subsingleton.elim _ _
      show k0_pay8 (k0_pay7 x0 v0) (ix3 0 h w)
        = accG T x0 xs ((Rect.unit (s := S5x200x200) ![0, 0, 0] ![1, 200, 200] inb_S5x200x200_S1x200x200_0_0_0).emb (ix3 (0 : Fin 1) h w))
      rw [emb_slab 0 h w ![0, 0, 0] rfl inb_S5x200x200_S1x200x200_0_0_0, accG_apply]
      exact (hP.ch0 _ _ h w).trans (congrArg (· + T x0 0 h w) (e0 h w))
  case hc =>
    match c' with
    | ⟨0, _⟩ => exact ⟨_, List.mem_cons_of_mem _ (List.mem_cons_of_mem _ (List.mem_cons_of_mem _ (List.mem_cons_of_mem _ (List.mem_cons_self)))), mem_slab 0 h' w' ![0, 0, 0] rfl inb_S5x200x200_S1x200x200_0_0_0⟩
    | ⟨1, _⟩ => exact ⟨_, List.mem_cons_of_mem _ (List.mem_cons_of_mem _ (List.mem_cons_of_mem _ (List.mem_cons_self))), mem_slab 1 h' w' ![1, 0, 0] rfl inb_S5x200x200_S1x200x200_1_0_0⟩
    | ⟨2, _⟩ => exact ⟨_, List.mem_cons_of_mem _ (List.mem_cons_of_mem _ (List.mem_cons_self)), mem_slab 2 h' w' ![2, 0, 0] rfl inb_S5x200x200_S1x200x200_2_0_0⟩
    | ⟨3, _⟩ => exact ⟨_, List.mem_cons_of_mem _ (List.mem_cons_self), mem_slab 3 h' w' ![3, 0, 0] rfl inb_S5x200x200_S1x200x200_3_0_0⟩
    | ⟨4, _⟩ => exact ⟨_, List.mem_cons_self, mem_slab 4 h' w' ![4, 0, 0] rfl inb_S5x200x200_S1x200x200_4_0_0⟩

/-- Entry (c, h, w) is not in slab `c'` when c' ≠ c. -/
theorem not_mem_slab (c c' : Fin 5) (hne : c' ≠ c) (h w : Fin 200) (off : Fin 3 → Nat) (hoff : off = ![c'.val, 0, 0])
    (inb : ∀ a, off a + (![1, 200, 200] : Fin 3 → Nat) a ≤ S5x200x200.size a) :
    ix3 c h w ∉ (Rect.unit (s := S5x200x200) off ![1, 200, 200] inb).set := by
  subst hoff
  intro hm
  have h0 := (Rect.mem_set_unit.mp hm) ⟨0, by decide⟩
  have h0' : c'.val ≤ c.val ∧ c.val < c'.val + 1 := h0
  exact hne (Fin.ext (by omega))

abbrev zeroPiece : View.Piece (Elt Ideal) S5x200x200 .f32 :=
  ⟨Rect.unit (s := S5x200x200) ![0, 0, 0] S5x200x200.size inb_S5x200x200_S5x200x200_0_0_0, k0_pay3 (F := Ideal)⟩

/-- Stores among which is the zero fill, the others not covering entry (c, h, w), leave 0 there. -/
theorem canon_zero_of (hP : PayFacts T) (c : Fin 5) (h w : Fin 200) :
    ∀ L : List (View.Piece (Elt Ideal) S5x200x200 .f32), (zeroPiece ∈ L) → (∀ p ∈ L, p = zeroPiece ∨ ix3 c h w ∉ p.1.set) →
      View.canon L (ix3 c h w) = 0
  | [], hz, _ => absurd hz List.not_mem_nil
  | p :: L, hz, hL => by
    rcases hL p List.mem_cons_self with rfl | hnm
    · exact (congrFun (View.canon_cons_unit_zero (S := S5x200x200) hz3 inb_S5x200x200_S5x200x200_0_0_0 (k0_pay3 (F := Ideal)) L) _).trans (hP.zero c h w)
    · rw [View.canon_cons_of_not_mem _ _ hnm]
      refine canon_zero_of hP c h w L ?_ (fun q hq => hL q (List.mem_cons_of_mem _ hq))
      rcases List.mem_cons.mp hz with e | hz'
      · subst e; exact absurd (View.mem_set_unit_zero (S := S5x200x200) hz3 inb_S5x200x200_S5x200x200_0_0_0 (ix3 c h w)) hnm
      · exact hz'

/-- MIDDLE TILE: the accumulator found at `xs0` gains the tile's contribution. -/
theorem sout_B (hP : PayFacts T) (c : Dev nD) (i : grid0.Coords) (a2 : Memref sig .tc .vmem S1x5000x4 .f32) (h2 : a2.IsWhole) (a3 : Memref sig .tc .vmem S1x5x200x200 .f32) (h3 : a3.IsWhole) (a4 : Memref sig .tc .vmem S5x200x200 .f32) (h4 : a4.IsWhole) (hc0 : ¬cond0_0 i) (hc1 : ¬cond0_1 i)
    (x0 : Vec Ideal S1x5000x4 .f32) (xs0 : Vec Ideal S5x200x200 .f32) :
    sout0_B_0 c i a2 h2 a3 h3 a4 h4 hc0 hc1 x0 xs0 = accG T x0 xs0 := by
  unfold sout0_B_0
  rw [View.read_writes_eq_canon _ _ _ (scover0_B_0 c i a2 h2 a3 h3 a4 h4 hc0 hc1 x0 xs0)]
  unfold kernelRun0_B
  dsimp only
  sl_unfold_words
  simp only [View.readAt_eq_ld, h2.read_unread, h4.read_unread, View.ld_unit_zero (S := S1x5000x4) hz3]
  exact canon_slabs hP x0 xs0 _ _ _ _ _ [] (fun h w => slab_ld xs0 ![0, 0, 0] inb_S5x200x200_S1x200x200_0_0_0 0 rfl h w)
    (fun h w => slab_ld xs0 ![1, 0, 0] inb_S5x200x200_S1x200x200_1_0_0 1 rfl h w) (fun h w => slab_ld xs0 ![2, 0, 0] inb_S5x200x200_S1x200x200_2_0_0 2 rfl h w)
    (fun h w => slab_ld xs0 ![3, 0, 0] inb_S5x200x200_S1x200x200_3_0_0 3 rfl h w) (fun h w => slab_ld xs0 ![4, 0, 0] inb_S5x200x200_S1x200x200_4_0_0 4 rfl h w)

/-- LAST TILE, the accumulator: as at a middle tile. -/
theorem sout_C (hP : PayFacts T) (c : Dev nD) (i : grid0.Coords) (a2 : Memref sig .tc .vmem S1x5000x4 .f32) (h2 : a2.IsWhole) (a3 : Memref sig .tc .vmem S1x5x200x200 .f32) (h3 : a3.IsWhole) (a4 : Memref sig .tc .vmem S5x200x200 .f32) (h4 : a4.IsWhole) (hc0 : ¬cond0_0 i) (hc1 : cond0_1 i)
    (x0 : Vec Ideal S1x5000x4 .f32) (xs0 : Vec Ideal S5x200x200 .f32) :
    sout0_C_0 c i a2 h2 a3 h3 a4 h4 hc0 hc1 x0 xs0 = accG T x0 xs0 := by
  unfold sout0_C_0
  rw [View.read_writes_eq_canon _ _ _ (scover0_C_0 c i a2 h2 a3 h3 a4 h4 hc0 hc1 x0 xs0)]
  unfold kernelRun0_C
  dsimp only
  sl_unfold_words
  simp only [View.readAt_eq_ld, h2.read_unread, h4.read_unread, View.ld_unit_zero (S := S1x5000x4) hz3]
  exact canon_slabs hP x0 xs0 _ _ _ _ _ [] (fun h w => slab_ld xs0 ![0, 0, 0] inb_S5x200x200_S1x200x200_0_0_0 0 rfl h w)
    (fun h w => slab_ld xs0 ![1, 0, 0] inb_S5x200x200_S1x200x200_1_0_0 1 rfl h w) (fun h w => slab_ld xs0 ![2, 0, 0] inb_S5x200x200_S1x200x200_2_0_0 2 rfl h w)
    (fun h w => slab_ld xs0 ![3, 0, 0] inb_S5x200x200_S1x200x200_3_0_0 3 rfl h w) (fun h w => slab_ld xs0 ![4, 0, 0] inb_S5x200x200_S1x200x200_4_0_0 4 rfl h w)

set_option maxHeartbeats 4000000 in
/-- FIRST TILE: the accumulator, zeroed, gains the tile's contribution. -/
theorem sout_A (hP : PayFacts T) (c : Dev nD) (i : grid0.Coords) (a2 : Memref sig .tc .vmem S1x5000x4 .f32) (h2 : a2.IsWhole) (a3 : Memref sig .tc .vmem S1x5x200x200 .f32) (h3 : a3.IsWhole) (a4 : Memref sig .tc .vmem S5x200x200 .f32) (h4 : a4.IsWhole) (hc0 : cond0_0 i) (hc1 : ¬cond0_1 i)
    (x0 : Vec Ideal S1x5000x4 .f32) :
    sout0_A_0 c i a2 h2 a3 h3 a4 h4 hc0 hc1 x0 = accG T x0 (fun _ => 0) := by
  unfold sout0_A_0
  rw [View.read_writes_eq_canon _ _ _ (scover0_A_0 c i a2 h2 a3 h3 a4 h4 hc0 hc1 x0)]
  unfold kernelRun0_A
  dsimp only
  sl_unfold_words
  simp only [View.readAt_eq_ld, h2.read_unread, View.ld_unit_zero (S := S1x5000x4) hz3]
  refine canon_slabs hP x0 (fun _ => 0) _ _ _ _ _ [zeroPiece]
    (fun h w => (congrFun (View.readCov_eq_canon' _ _ _) _).trans (by
      show View.canon (_ : List (View.Piece (Elt Ideal) S5x200x200 .f32)) ((Rect.unit (s := S5x200x200) ![0, 0, 0] ![1, 200, 200] inb_S5x200x200_S1x200x200_0_0_0).emb (ix3 (0 : Fin 1) h w)) = (0 : EReal)
      rw [emb_slab 0 h w ![0, 0, 0] rfl inb_S5x200x200_S1x200x200_0_0_0]
      refine canon_zero_of hP 0 h w _ (List.mem_cons_self) ?_
      intro p hp
      simp only [List.mem_cons, List.not_mem_nil, or_false] at hp
      rcases hp with rfl
      · exact Or.inl rfl))
    (fun h w => (congrFun (View.readCov_eq_canon' _ _ _) _).trans (by
      show View.canon (_ : List (View.Piece (Elt Ideal) S5x200x200 .f32)) ((Rect.unit (s := S5x200x200) ![1, 0, 0] ![1, 200, 200] inb_S5x200x200_S1x200x200_1_0_0).emb (ix3 (0 : Fin 1) h w)) = (0 : EReal)
      rw [emb_slab 1 h w ![1, 0, 0] rfl inb_S5x200x200_S1x200x200_1_0_0]
      refine canon_zero_of hP 1 h w _ (List.mem_cons_of_mem _ (List.mem_cons_self)) ?_
      intro p hp
      simp only [List.mem_cons, List.not_mem_nil, or_false] at hp
      rcases hp with rfl | rfl
      · exact Or.inr (not_mem_slab 1 0 (by decide) h w ![0, 0, 0] rfl inb_S5x200x200_S1x200x200_0_0_0)
      · exact Or.inl rfl))
    (fun h w => (congrFun (View.readCov_eq_canon' _ _ _) _).trans (by
      show View.canon (_ : List (View.Piece (Elt Ideal) S5x200x200 .f32)) ((Rect.unit (s := S5x200x200) ![2, 0, 0] ![1, 200, 200] inb_S5x200x200_S1x200x200_2_0_0).emb (ix3 (0 : Fin 1) h w)) = (0 : EReal)
      rw [emb_slab 2 h w ![2, 0, 0] rfl inb_S5x200x200_S1x200x200_2_0_0]
      refine canon_zero_of hP 2 h w _ (List.mem_cons_of_mem _ (List.mem_cons_of_mem _ (List.mem_cons_self))) ?_
      intro p hp
      simp only [List.mem_cons, List.not_mem_nil, or_false] at hp
      rcases hp with rfl | rfl | rfl
      · exact Or.inr (not_mem_slab 2 1 (by decide) h w ![1, 0, 0] rfl inb_S5x200x200_S1x200x200_1_0_0)
      · exact Or.inr (not_mem_slab 2 0 (by decide) h w ![0, 0, 0] rfl inb_S5x200x200_S1x200x200_0_0_0)
      · exact Or.inl rfl))
    (fun h w => (congrFun (View.readCov_eq_canon' _ _ _) _).trans (by
      show View.canon (_ : List (View.Piece (Elt Ideal) S5x200x200 .f32)) ((Rect.unit (s := S5x200x200) ![3, 0, 0] ![1, 200, 200] inb_S5x200x200_S1x200x200_3_0_0).emb (ix3 (0 : Fin 1) h w)) = (0 : EReal)
      rw [emb_slab 3 h w ![3, 0, 0] rfl inb_S5x200x200_S1x200x200_3_0_0]
      refine canon_zero_of hP 3 h w _ (List.mem_cons_of_mem _ (List.mem_cons_of_mem _ (List.mem_cons_of_mem _ (List.mem_cons_self)))) ?_
      intro p hp
      simp only [List.mem_cons, List.not_mem_nil, or_false] at hp
      rcases hp with rfl | rfl | rfl | rfl
      · exact Or.inr (not_mem_slab 3 2 (by decide) h w ![2, 0, 0] rfl inb_S5x200x200_S1x200x200_2_0_0)
      · exact Or.inr (not_mem_slab 3 1 (by decide) h w ![1, 0, 0] rfl inb_S5x200x200_S1x200x200_1_0_0)
      · exact Or.inr (not_mem_slab 3 0 (by decide) h w ![0, 0, 0] rfl inb_S5x200x200_S1x200x200_0_0_0)
      · exact Or.inl rfl))
    (fun h w => (congrFun (View.readCov_eq_canon' _ _ _) _).trans (by
      show View.canon (_ : List (View.Piece (Elt Ideal) S5x200x200 .f32)) ((Rect.unit (s := S5x200x200) ![4, 0, 0] ![1, 200, 200] inb_S5x200x200_S1x200x200_4_0_0).emb (ix3 (0 : Fin 1) h w)) = (0 : EReal)
      rw [emb_slab 4 h w ![4, 0, 0] rfl inb_S5x200x200_S1x200x200_4_0_0]
      refine canon_zero_of hP 4 h w _ (List.mem_cons_of_mem _ (List.mem_cons_of_mem _ (List.mem_cons_of_mem _ (List.mem_cons_of_mem _ (List.mem_cons_self))))) ?_
      intro p hp
      simp only [List.mem_cons, List.not_mem_nil, or_false] at hp
      rcases hp with rfl | rfl | rfl | rfl | rfl
      · exact Or.inr (not_mem_slab 4 3 (by decide) h w ![3, 0, 0] rfl inb_S5x200x200_S1x200x200_3_0_0)
      · exact Or.inr (not_mem_slab 4 2 (by decide) h w ![2, 0, 0] rfl inb_S5x200x200_S1x200x200_2_0_0)
      · exact Or.inr (not_mem_slab 4 1 (by decide) h w ![1, 0, 0] rfl inb_S5x200x200_S1x200x200_1_0_0)
      · exact Or.inr (not_mem_slab 4 0 (by decide) h w ![0, 0, 0] rfl inb_S5x200x200_S1x200x200_0_0_0)
      · exact Or.inl rfl))

theorem hz4 : (![0, 0, 0, 0] : Fin 4 → Nat) = fun _ => 0 := funext fun a => by fin_cases a <;> rfl

/-- LAST TILE, the output block: the accumulator's new contents, copied. -/
theorem out_C (hP : PayFacts T) (c : Dev nD) (i : grid0.Coords) (a2 : Memref sig .tc .vmem S1x5000x4 .f32) (h2 : a2.IsWhole) (a3 : Memref sig .tc .vmem S1x5x200x200 .f32) (h3 : a3.IsWhole) (a4 : Memref sig .tc .vmem S5x200x200 .f32) (h4 : a4.IsWhole) (hc0 : ¬cond0_0 i) (hc1 : cond0_1 i)
    (x0 : Vec Ideal S1x5000x4 .f32) (xs0 : Vec Ideal S5x200x200 .f32) (cc : Fin 5) (h w : Fin 200) :
    out0_C_1 c i a2 h2 a3 h3 a4 h4 hc0 hc1 x0 xs0 (ix4 (0 : Fin 1) cc h w) = accG T x0 xs0 (ix3 cc h w) := by
  unfold out0_C_1
  rw [View.read_writes_eq_canon _ _ _ (cover0_C_1 c i a2 h2 a3 h3 a4 h4 hc0 hc1 x0 xs0)]
  unfold kernelRun0_C
  dsimp only
  sl_unfold_words
  simp only [View.readAt_eq_ld, h2.read_unread, h4.read_unread, View.ld_unit_zero (S := S1x5000x4) hz3]
  rw [View.canon_unit_zero hz4]
  refine (hP.copy _ cc h w).trans ?_
  refine (congrFun (View.readCov_eq_canon' _ _ _) _).trans ?_
  show View.canon (_ : List (View.Piece (Elt Ideal) S5x200x200 .f32)) ((Rect.unit (s := S5x200x200) ![0, 0, 0] S5x200x200.size inb_S5x200x200_S5x200x200_0_0_0).emb (ix3 cc h w)) = _
  rw [show (Rect.unit (s := S5x200x200) ![0, 0, 0] S5x200x200.size inb_S5x200x200_S5x200x200_0_0_0).emb (ix3 cc h w) = ix3 cc h w from
    funext fun a => Fin.ext (by match a with | ⟨0, _⟩ => simp [Rect.emb_apply] | ⟨1, _⟩ => simp [Rect.emb_apply] | ⟨2, _⟩ => simp [Rect.emb_apply])]
  exact congrFun (canon_slabs hP x0 xs0 _ _ _ _ _ [] (fun h w => slab_ld xs0 ![0, 0, 0] inb_S5x200x200_S1x200x200_0_0_0 0 rfl h w)
    (fun h w => slab_ld xs0 ![1, 0, 0] inb_S5x200x200_S1x200x200_1_0_0 1 rfl h w) (fun h w => slab_ld xs0 ![2, 0, 0] inb_S5x200x200_S1x200x200_2_0_0 2 rfl h w)
    (fun h w => slab_ld xs0 ![3, 0, 0] inb_S5x200x200_S1x200x200_3_0_0 3 rfl h w) (fun h w => slab_ld xs0 ![4, 0, 0] inb_S5x200x200_S1x200x200_4_0_0 4 rfl h w)) (ix3 cc h w)

end Cert.Value.Acc

end
-- ==== Proof.Value.BinChain.lean ====
/-
  The binning region point by point.  After the point of linear number n = 40·b + j the accumulator holds,
  at (c, h, w), the sum over the tiles 0 … j of batch b of the tile's contribution: the first tile of a batch
  starts from zero, every later tile adds to what the point before left.  The output window is written back
  only at the last tile of a batch, where the body has just copied the accumulator into it; those sixteen
  blocks tile the result array, which therefore ends holding, at (b, c, h, w), the sum over all forty tiles
  of batch b.
-/
import proofs.«113907_j39831526703842_2_alg».proof.Proof.Value.BinAcc

set_option maxRecDepth 16384

noncomputable section

namespace Cert.Value.Acc

open Idealize.ShloMosaic Idealize.ShloMosaic.TcCoe Idealize.SL.Sem Idealize.ShloMosaic.Tactic
open Idealize.ShloMosaic.ValueIdx
open Idealize.ShloMosaic.Pipeline (Dat)
open Cert.KernelIdeal Cert.KernelIdeal.Gen Cert.KernelIdeal.Hand

variable (T : Vec Ideal S1x5000x4 .f32 → Fin 5 → Fin 200 → Fin 200 → EReal)
variable (V : (c : Dev nD) → (b : Ref sig .tc) → Buf (Elt Ideal) ((c : Thread nD τ).loc b))

/-- The tile of points the body is handed at linear position `n` (zero past the grid, never consulted). -/
def tileAt (c : Dev nD) (n : ℕ) : Vec Ideal S1x5000x4 .f32 :=
  fun y => if h : n < cfg0.N then (iblk0 V c 0 ⟨n, h⟩ : Vec Ideal S1x5000x4 .f32) y else 0

theorem tileAt_eq (c : Dev nD) (n : ℕ) (h : n < cfg0.N) : tileAt V c n = iblk0 V c 0 ⟨n, h⟩ := by
  funext y; unfold tileAt; rw [dif_pos h]

/-- The accumulator after position `n`. -/
def chain (c : Dev nD) : ℕ → Vec Ideal S5x200x200 .f32
  | 0 => accG T (tileAt V c 0) (fun _ => 0)
  | n + 1 => if (n + 1) % 40 = 0 then accG T (tileAt V c (n + 1)) (fun _ => 0) else accG T (tileAt V c (n + 1)) (chain c n)

theorem chain_start (c : Dev nD) (n : ℕ) (h : n % 40 = 0) : chain T V c n = accG T (tileAt V c n) (fun _ => 0) := by
  cases n with
  | zero => rfl
  | succ n => simp only [chain, if_pos h]

theorem chain_step (c : Dev nD) (n : ℕ) (h : ¬(n + 1) % 40 = 0) : chain T V c (n + 1) = accG T (tileAt V c (n + 1)) (chain T V c n) := by
  simp only [chain, if_neg h]

variable {T}

set_option maxHeartbeats 1000000 in
/-- What the frame's recursion leaves in the accumulator IS that chain. -/
theorem outsAt_snd (hP : PayFacts T) (c : Dev nD) : ∀ (n : ℕ) (h : n < cfg0.N), (outsAt0 V c n h).2 = chain T V c n
  | 0, h => by
    rw [outsAt0_A V c ⟨0, h⟩ (Nat.zero_mod _) (by show ¬(0 : ℕ) % 40 = 39; decide)]
    dsimp only
    rw [sout_A hP, chain_start T V c 0 rfl, tileAt_eq V c 0 h]
  | n + 1, h => by
    have hN : cfg0.N = 640 := N_0
    have ih := outsAt_snd hP c n (Nat.lt_of_succ_lt h)
    by_cases h0 : (n + 1) % 40 = 0
    · rw [outsAt0_A V c ⟨n + 1, h⟩ h0 (by show ¬(n + 1) % 40 = 39; omega)]
      dsimp only
      rw [sout_A hP, chain_start T V c (n + 1) h0, tileAt_eq V c (n + 1) h]
    · by_cases h1 : (n + 1) % 40 = 39
      · rw [outsAt0_C V c ⟨n + 1, h⟩ h0 h1]
        dsimp only
        rw [sout_C hP, chain_step T V c n h0, tileAt_eq V c (n + 1) h]
        exact congrArg (accG T _) ih
      · rw [outsAt0_B V c ⟨n + 1, h⟩ h0 h1]
        dsimp only
        rw [sout_B hP, chain_step T V c n h0, tileAt_eq V c (n + 1) h]
        exact congrArg (accG T _) ih

variable (T)

/-- THE CLOSED FORM: after tile j of batch b the accumulator holds the sum of the contributions of tiles 0 … j. -/
theorem chain_closed (c : Dev nD) (b : ℕ) : ∀ j : ℕ, j < 40 →
    chain T V c (40 * b + j) = fun y => ∑ k ∈ Finset.range (j + 1), T (tileAt V c (40 * b + k)) (y 0) (y 1) (y 2)
  | 0, _ => by
    rw [chain_start T V c (40 * b + 0) (by omega)]
    funext y
    simp only [accG, Finset.sum_range_one, zero_add]
  | j + 1, hj => by
    rw [show 40 * b + (j + 1) = (40 * b + j) + 1 from rfl, chain_step T V c (40 * b + j) (by omega), chain_closed c b j (by omega)]
    funext y
    simp only [accG]
    rw [Finset.sum_range_succ _ (j + 1)]
    rfl

/-! ## The result array -/

/-- The accumulator's contents at natural coordinates (zero outside the shape, never consulted). -/
def chainN (c : Dev nD) (n cc h w : ℕ) : EReal :=
  if hh : cc < 5 ∧ h < 200 ∧ w < 200 then chain T V c n (ix3 (⟨cc, hh.1⟩ : Fin 5) (⟨h, hh.2.1⟩ : Fin 200) (⟨w, hh.2.2⟩ : Fin 200)) else 0

/-- What the binning region's result array ends holding: at (b, c, h, w) the accumulator after the last tile
    of batch b. -/
def G0 (c : Dev nD) : S16x5x200x200.Idx → EReal :=
  fun i => chainN T V c (40 * (i 0).val + 39) (i 1).val (i 2).val (i 3).val

/-- The output window's block index at point t: (t / 40, 0, 0, 0). -/
theorem idx_facts1 : ∀ t : Fin cfg0.N, win0_1.index t (0 : Fin 4) = t.val / 40 ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val / 40 ∧ win0_1.index t (1 : Fin 4) = 0
    ∧ win0_1.index t (2 : Fin 4) = 0 ∧ win0_1.index t (3 : Fin 4) = 0)

variable {T}

set_option maxHeartbeats 2000000 in
/-- WHAT A WRITING-BACK POINT WRITES BACK is its block of `G0`. -/
theorem flushed0_eq (hP : PayFacts T) (c : Dev nD) (t : Fin cfg0.N) (hf : (cfg0.win 1).flush t = true) :
    (dat0 V c).flushed 1 t = ((cfg0.win 1).blk t).view.read (Elt Ideal) (G0 T V c) := by
  have hN : cfg0.N = 640 := N_0
  have h39 : t.val % 40 = 39 := (flush0_1 t).mp hf
  have h0 : ¬ t.val % 40 = 0 := by omega
  obtain ⟨e0, e1, e2, e3⟩ := idx_facts1 t
  show (cfg0.win 1).cut (grid0.coords t) ((dat0 V c).after 1 t) = _
  rw [after0_1, outsAt0_C V c t h0 h39]
  dsimp only
  funext j
  obtain ⟨z, cc, h, w, rfl⟩ : ∃ (z : Fin 1) (cc : Fin 5) (h w : Fin 200), j = ix4 z cc h w := ⟨j 0, j 1, j 2, j 3, eq_ix4 j⟩
  obtain rfl : z = 0 := Subsingleton.elim _ _
  refine (out_C hP c _ _ _ _ _ _ _ _ _ _ _ cc h w).trans ?_
  show _ = chainN T V c (40 * (win0_1.index t (0 : Fin 4) * 1 + 1 * 0) + 39) (win0_1.index t (1 : Fin 4) * 5 + 1 * cc.val)
        (win0_1.index t (2 : Fin 4) * 200 + 1 * h.val) (win0_1.index t (3 : Fin 4) * 200 + 1 * w.val)
  rw [outsAt_snd V hP, e0, e1, e2, e3]
  obtain ⟨n, hn⟩ := t
  cases n with
  | zero => exact absurd rfl h0
  | succ m =>
    have e : 40 * ((m + 1) / 40 * 1 + 1 * 0) + 39 = m + 1 := by
      have : (m + 1) % 40 = 39 := h39
      omega
    rw [e, show 0 * 5 + 1 * cc.val = cc.val by omega, show 0 * 200 + 1 * h.val = h.val by omega, show 0 * 200 + 1 * w.val = w.val by omega]
    unfold chainN
    rw [dif_pos ⟨cc.isLt, h.isLt, w.isLt⟩, chain_step T V c m h0, tileAt_eq V c (m + 1) hn]
    rfl

/-- An index of the result array is in point t's block iff each coordinate is in the block's range. -/
theorem mem_blk0 (t : Fin cfg0.N) (i : S16x5x200x200.Idx) :
    i ∈ ((cfg0.win 1).blk t).view.set ↔ ∀ a : Fin 4, win0_1.index t a * S1x5x200x200.size a ≤ (i a).val ∧ (i a).val < win0_1.index t a * S1x5x200x200.size a + S1x5x200x200.size a := by
  show i ∈ ((View.whole main_v0).slice (win0_1.rect t)).set ↔ _
  rw [View.set_slice_whole, Rect.mem_set_unit]
  exact Iff.rfl

/-- THE RESULT ARRAY of the binning region: the sixteen written-back blocks tile it. -/
theorem final0 (hP : PayFacts T) (c : Dev nD) : (dat0 V c).arrAt 1 cfg0.N = G0 T V c :=
  (dat0 V c).arrAt_eq_of_cover 1 (G0 T V c) (fun t hf => flushed0_eq V hP c t hf) fun i => by
    have hi0 : (i 0).val < 16 := (i 0).isLt
    have hi1 : (i 1).val < 5 := (i 1).isLt
    have hi2 : (i 2).val < 200 := (i 2).isLt
    have hi3 : (i 3).val < 200 := (i 3).isLt
    have hlt : 40 * (i 0).val + 39 < cfg0.N := by rw [show cfg0.N = 640 from N_0]; omega
    refine ⟨⟨40 * (i 0).val + 39, hlt⟩, (flush0_1 _).mpr (by show (40 * (i 0).val + 39) % 40 = 39; omega), ?_⟩
    rw [mem_blk0]
    obtain ⟨e0, e1, e2, e3⟩ := idx_facts1 ⟨40 * (i 0).val + 39, hlt⟩
    have e0' : win0_1.index ⟨40 * (i 0).val + 39, hlt⟩ (0 : Fin 4) = (i 0).val := by rw [e0]; show (40 * (i 0).val + 39) / 40 = _; omega
    intro a
    match a with
    | ⟨0, _⟩ => show win0_1.index _ (0 : Fin 4) * 1 ≤ (i 0).val ∧ (i 0).val < win0_1.index _ (0 : Fin 4) * 1 + 1; rw [e0']; omega
    | ⟨1, _⟩ => show win0_1.index _ (1 : Fin 4) * 5 ≤ (i 1).val ∧ (i 1).val < win0_1.index _ (1 : Fin 4) * 5 + 5; rw [e1]; omega
    | ⟨2, _⟩ => show win0_1.index _ (2 : Fin 4) * 200 ≤ (i 2).val ∧ (i 2).val < win0_1.index _ (2 : Fin 4) * 200 + 200; rw [e2]; omega
    | ⟨3, _⟩ => show win0_1.index _ (3 : Fin 4) * 200 ≤ (i 3).val ∧ (i 3).val < win0_1.index _ (3 : Fin 4) * 200 + 200; rw [e3]; omega

end Cert.Value.Acc

end
-- ==== Proof.Value.BinSpec.lean ====
/-
  The binning kernel's arithmetic, stated without the program.

  A tile is 5000 points of four features, `tileP : Fin 5000 → Fin 4 → EReal`. A point's cell along an
  axis is the 32-bit signed word of `⌊(x - c) / s⌋` (`cell`: `c` and `s` the two f32 words the kernel
  subtracts and divides by, kept as literal words; the conversion rounds toward zero and clamps), read off
  feature 0 for the column (`cellX`) and feature 1 for the row (`cellY`). The one-hot entry `hot a w` is
  `1` when the word of the grid coordinate `w` is the cell word `a`, else `0` (`hot_raw`: that is what
  the signed conversion of the zero-extended comparison bit is on the extended reals). One point's
  contribution to channel `c` of grid cell `(h, w)` is `term`: the row indicator times the column
  indicator times the point's feature `c` for `c < 4`, and with no third factor for `c = 4` (the count).
  `tileSum` sums it over the tile's 5000 points: the matrix product of the transposed row one-hot matrix
  with the column one-hot matrix scaled by the feature, read at `(h, w)`.
-/
import Idealize.ShloMosaic.PureOps.Ideal
import Idealize.ShloMosaic.Lib.ValueIdx

noncomputable section

open scoped BigOperators

namespace Cert.Value.Bin

open Idealize.ShloMosaic

/-- The cell word of a coordinate `x`: `⌊(x - c) / s⌋` converted to a signed 32-bit word, with `c` the f32
    word `0xC2480000` and `s` the f32 word `0x3F000000`. -/
def cell (x : EReal) : BitVec 32 :=
  Ideal.fptosi 32 (Ideal.liftRound Int.floor
    (Ideal.div (x - Ideal.ofBits .f32 0xC2480000#32) (Ideal.ofBits .f32 0x3F000000#32)))

/-- A point's column cell: from feature 0. -/
def cellX (p : Fin 4 → EReal) : BitVec 32 := cell (p 0)

/-- A point's row cell: from feature 1. -/
def cellY (p : Fin 4 → EReal) : BitVec 32 := cell (p 1)

/-- The one-hot entry: `1` where the grid coordinate's word is the cell word, else `0`. -/
def hot (a : BitVec 32) (w : Fin 200) : EReal := if BitVec.ofNat 32 w.val = a then 1 else 0

/-- The signed conversion of the zero-extended bit of "the grid coordinate's word equals the cell word" is
    the one-hot entry. -/
theorem hot_raw (a : BitVec 32) (w : Fin 200) :
    ((((IntOp.cmpi .eq (BitVec.ofNat 32 w.val) a).setWidth 32).toInt : ℝ) : EReal) = hot a w := by
  unfold hot IntOp.cmpi
  by_cases h : BitVec.ofNat 32 w.val = a
  · simp [h]
  · have hb : (BitVec.ofNat 32 w.val == a) = false := beq_eq_false_iff_ne.mpr h
    simp [h, hb]

/-- One point's contribution to channel `c` at grid cell `(h, w)`. -/
def term (p : Fin 4 → EReal) (c : Fin 5) (h w : Fin 200) : EReal :=
  match c with
  | ⟨0, _⟩ => hot (cellY p) h * (hot (cellX p) w * p 0)
  | ⟨1, _⟩ => hot (cellY p) h * (hot (cellX p) w * p 1)
  | ⟨2, _⟩ => hot (cellY p) h * (hot (cellX p) w * p 2)
  | ⟨3, _⟩ => hot (cellY p) h * (hot (cellX p) w * p 3)
  | ⟨_ + 4, _⟩ => hot (cellY p) h * hot (cellX p) w

/-- A tile's contribution to channel `c` at grid cell `(h, w)`: the sum over its points. -/
def tileSum (tileP : Fin 5000 → Fin 4 → EReal) (c : Fin 5) (h w : Fin 200) : EReal :=
  ∑ k : Fin 5000, term (tileP k) c h w

theorem term_zero (p : Fin 4 → EReal) (h w : Fin 200) :
    term p 0 h w = hot (cellY p) h * (hot (cellX p) w * p 0) := rfl
theorem term_one (p : Fin 4 → EReal) (h w : Fin 200) :
    term p 1 h w = hot (cellY p) h * (hot (cellX p) w * p 1) := rfl
theorem term_two (p : Fin 4 → EReal) (h w : Fin 200) :
    term p 2 h w = hot (cellY p) h * (hot (cellX p) w * p 2) := rfl
theorem term_three (p : Fin 4 → EReal) (h w : Fin 200) :
    term p 3 h w = hot (cellY p) h * (hot (cellX p) w * p 3) := rfl
theorem term_four (p : Fin 4 → EReal) (h w : Fin 200) :
    term p 4 h w = hot (cellY p) h * hot (cellX p) w := rfl

/-- A one-hot entry is `0` or `1`. -/
theorem hot_eq_zero_or_one (a : BitVec 32) (w : Fin 200) : hot a w = 0 ∨ hot a w = 1 := by
  unfold hot; split
  · exact Or.inr rfl
  · exact Or.inl rfl

end Cert.Value.Bin

end
-- ==== Proof.Value.BinPayload.lean ====
/-
  The binning kernel's payloads read at an index, on the extended reals.

  Each store of the kernel's body puts into a slab of the accumulator the slab as loaded plus a matrix product
  contracting the tile's 5000 points: `out[h, w] = ∑ k, A[k, h] * B[k, w]`, with `A` the row one-hot matrix and `B`
  the column one-hot matrix scaled by one feature of the points (unscaled for the count). Read at `(h, w)` that is
  the loaded value plus `tileSum` of the tile (BinSpec). The steps: the contraction on axis 0 of both operands read
  as a sum over `Fin 5000` (`matmul00_apply`); a column `[5000, 1]` broadcast along the second axis reads the
  column's entry (`broadcastTo_a1_ab_apply`); the one-hot matrices at `(k, w)` are `hot` of the point's cell
  (`onehotX_apply`, `onehotY_apply`); the changes of format are the identity and the shape casts move a unit axis.
-/
import proofs.«113907_j39831526703842_2_alg».proof.Proof.Gen.KernelIdeal.Skeleton
import proofs.«113907_j39831526703842_2_alg».proof.Proof.Value.BinSpec
import Idealize.ShloMosaic.PureOps.Ideal.Laws
import Idealize.ShloMosaic.Lib.ValueIdx
import Idealize.ShloMosaic.Lib.ValueLayout

noncomputable section

open scoped BigOperators

namespace Cert.Value.Bin

open Idealize.ShloMosaic Idealize.ShloMosaic.ValueIdx Cert.KernelIdeal Cert.KernelIdeal.Gen

/-- A column `[a, 1]` broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product contracting axis 0 of both `[5000, 200]` operands, read at `(h, w)`: the accumulator there plus the
    sum over the 5000 points of the products of the operands' entries in row `k`. -/
theorem matmul00_apply (lhs rhs : FVec Ideal S5000x200 .bf16) (acc : FVec Ideal S200x200 .f32) (h w : Fin 200) :
    matmul dot_S5000x200_S5000x200_S200x200_0_0_1_1_n_n none lhs rhs acc (ix2 h w)
      = acc (ix2 h w) + ∑ k : Fin 5000, lhs (ix2 k h) * rhs (ix2 k w) := by
  show FloatOps.matmul _ none lhs rhs acc (ix2 h w) = _
  rw [Ideal.matmul_apply,
    ← Equiv.sum_comp (contrEquiv1 dot_S5000x200_S5000x200_S200x200_0_0_1_1_n_n 5000 rfl rfl).symm]
  congr 1
  refine Finset.sum_congr rfl fun k _ => ?_
  have c2 := contrEquiv1_symm_val dot_S5000x200_S5000x200_S200x200_0_0_1_1_n_n 5000 rfl rfl k
  have l2 : dot_S5000x200_S5000x200_S200x200_0_0_1_1_n_n.lhsIdx (ix2 h w)
      ((contrEquiv1 _ 5000 rfl rfl).symm k) = ix2 k h := by
    funext ax; apply Fin.ext
    match ax with
    | ⟨0, _⟩ => simp [DotDims.lhsIdx, dot_S5000x200_S5000x200_S200x200_0_0_1_1_n_n]; exact c2
    | ⟨1, _⟩ => simp [DotDims.lhsIdx, dot_S5000x200_S5000x200_S200x200_0_0_1_1_n_n]; rfl
  have r2 : dot_S5000x200_S5000x200_S200x200_0_0_1_1_n_n.rhsIdx (ix2 h w)
      ((contrEquiv1 _ 5000 rfl rfl).symm k) = ix2 k w := by
    funext ax; apply Fin.ext
    match ax with
    | ⟨0, _⟩ => simp [DotDims.rhsIdx, dot_S5000x200_S5000x200_S200x200_0_0_1_1_n_n]; exact c2
    | ⟨1, _⟩ => simp [DotDims.rhsIdx, dot_S5000x200_S5000x200_S200x200_0_0_1_1_n_n]; rfl
  rw [l2, r2]

/-- The tile with its unit axis dropped reads the tile. -/
theorem pay4_apply (v3 : Vec Ideal S1x5000x4 .f32) (k : Fin 5000) (f : Fin 4) :
    k0_pay4 v3 (ix2 k f) = v3 (ix3 (0 : Fin 1) k f) :=
  shapeCast_1ab_ab_apply v3 _ k f

/-- A one-hot matrix read at `(k, w)`: `hot` of the cell of the column's entry at `k`. The column is any
    `[5000, 1]` vector of coordinates; the cell is computed from it, broadcast along the grid axis and compared
    with the grid coordinate; the bit is zero-extended, converted and narrowed. -/
theorem onehot_of_col (col : FVec Ideal S5000x1 .f32) (k : Fin 5000) (w : Fin 200)
    (hi : S5000x200.Iotas .tc 32 [1]) (hb : S5000x1.Broadcasts S5000x200) (h1 : 1 < 32)
    (h2 : FTy.bits .bf16 < FTy.bits .f32) :
    (truncf .bf16 (sitofp .f32 (extui 32 (cmpi .eq (iota .tc S5000x200 32 [1] hi)
      (broadcastTo S5000x200 (fptosi 32 (floor (divf (subf col (broadcast S5000x1 (Scalar.ofBits .f32 0xC2480000#32)))
        (broadcast S5000x1 (Scalar.ofBits .f32 0x3F000000#32))))) hb)) h1) : FVec Ideal S5000x200 .f32) h2
        : FVec Ideal S5000x200 .bf16) (ix2 k w)
      = hot (cell (col (ix2 k (0 : Fin 1)))) w := by
  refine Eq.trans ?_ (hot_raw _ w)
  show ((((IntOp.cmpi .eq (iota .tc S5000x200 32 [1] hi (ix2 k w))
      (broadcastTo S5000x200 (fptosi 32 (floor (divf (subf col (broadcast S5000x1 (Scalar.ofBits .f32 0xC2480000#32)))
        (broadcast S5000x1 (Scalar.ofBits .f32 0x3F000000#32))))) hb (ix2 k w))).setWidth 32).toInt : ℝ) : EReal) = _
  rw [iota_single_apply, broadcastTo_a1_ab_apply]
  rfl

/-- The column one-hot matrix at `(k, w)`. -/
theorem onehotX_apply (v3 : Vec Ideal S1x5000x4 .f32) (k : Fin 5000) (w : Fin 200) :
    k0_pay5 v3 (ix2 k w) = hot (cellX fun f => v3 (ix3 (0 : Fin 1) k f)) w := by
  unfold k0_pay5
  refine (onehot_of_col _ k w _ _ _ _).trans ?_
  rw [slice2_axis1_apply 0 (k0_pay4 v3) _ k (0 : Fin 1) (0 : Fin 4) rfl, pay4_apply]
  rfl

/-- The row one-hot matrix at `(k, h)`. -/
theorem onehotY_apply (v3 : Vec Ideal S1x5000x4 .f32) (k : Fin 5000) (h : Fin 200) :
    k0_pay6 v3 (ix2 k h) = hot (cellY fun f => v3 (ix3 (0 : Fin 1) k f)) h := by
  unfold k0_pay6
  refine (onehot_of_col _ k h _ _ _ _).trans ?_
  rw [slice2_axis1_apply 1 (k0_pay4 v3) _ k (0 : Fin 1) (1 : Fin 4) rfl, pay4_apply]
  rfl

/-- A slab update with a feature: the loaded slab plus the product of the row one-hot matrix `A` with the column
    one-hot matrix `B` scaled by the narrowed, broadcast feature column, stored with a unit axis. -/
theorem core_apply (A B : FVec Ideal S5000x200 .bf16) (col : FVec Ideal S5000x1 .f32) (v : Vec Ideal S1x200x200 .f32)
    (hb : S5000x1.Broadcasts S5000x200) (h2 : FTy.bits .bf16 < FTy.bits .f32)
    (hc1 : S1x200x200.ShapeCasts S200x200) (hc2 : S200x200.ShapeCasts S1x200x200) (h w : Fin 200) :
    shapeCast S1x200x200 (addf (shapeCast S200x200 v hc1)
        (matmul dot_S5000x200_S5000x200_S200x200_0_0_1_1_n_n none A
          (mulf B (broadcastTo S5000x200 (truncf .bf16 col h2) hb)) (constant S200x200 .f32 0x00000000#32))) hc2
        (ix3 (0 : Fin 1) h w)
      = (v (ix3 (0 : Fin 1) h w) : EReal) + ∑ k : Fin 5000, A (ix2 k h) * (B (ix2 k w) * col (ix2 k (0 : Fin 1))) := by
  rw [shapeCast_ab_1ab_apply]
  show shapeCast S200x200 v hc1 (ix2 h w) + matmul dot_S5000x200_S5000x200_S200x200_0_0_1_1_n_n none A
      (mulf B (broadcastTo S5000x200 (truncf .bf16 col h2) hb)) (constant S200x200 .f32 0x00000000#32) (ix2 h w) = _
  rw [shapeCast_1ab_ab_apply, matmul00_apply]
  show _ + (Ideal.ofBits .f32 0x00000000#32 + _) = _
  rw [Ideal.ofBits_zero_f32, zero_add]
  congr 1
  refine Finset.sum_congr rfl fun k _ => ?_
  show A (ix2 k h) * (B (ix2 k w) * broadcastTo S5000x200 (truncf .bf16 col h2) hb (ix2 k w)) = _
  rw [broadcastTo_a1_ab_apply]
  rfl

/-- The count's slab update: no feature factor. -/
theorem core4_apply (A B : FVec Ideal S5000x200 .bf16) (v : Vec Ideal S1x200x200 .f32)
    (hc1 : S1x200x200.ShapeCasts S200x200) (hc2 : S200x200.ShapeCasts S1x200x200) (h w : Fin 200) :
    shapeCast S1x200x200 (addf (shapeCast S200x200 v hc1)
        (matmul dot_S5000x200_S5000x200_S200x200_0_0_1_1_n_n none A B (constant S200x200 .f32 0x00000000#32))) hc2
        (ix3 (0 : Fin 1) h w)
      = (v (ix3 (0 : Fin 1) h w) : EReal) + ∑ k : Fin 5000, A (ix2 k h) * B (ix2 k w) := by
  rw [shapeCast_ab_1ab_apply]
  show shapeCast S200x200 v hc1 (ix2 h w) + matmul dot_S5000x200_S5000x200_S200x200_0_0_1_1_n_n none A B
      (constant S200x200 .f32 0x00000000#32) (ix2 h w) = _
  rw [shapeCast_1ab_ab_apply, matmul00_apply]
  show _ + (Ideal.ofBits .f32 0x00000000#32 + _) = _
  rw [Ideal.ofBits_zero_f32, zero_add]

/-- Channel 0's store: the loaded slab plus the tile's sum of feature 0. -/
theorem pay_ch0 (v3 : Vec Ideal S1x5000x4 .f32) (v : Vec Ideal S1x200x200 .f32) (h w : Fin 200) :
    k0_pay8 (k0_pay7 v3 v) (ix3 (0 : Fin 1) h w)
      = (v (ix3 (0 : Fin 1) h w) : EReal) + tileSum (fun k f => v3 (ix3 (0 : Fin 1) k f)) 0 h w := by
  unfold k0_pay8 k0_pay7
  refine (core_apply _ _ _ v _ _ _ _ h w).trans ?_
  congr 1
  refine Finset.sum_congr rfl fun k _ => ?_
  rw [onehotY_apply, onehotX_apply, slice2_axis1_apply 0 (k0_pay4 v3) _ k (0 : Fin 1) (0 : Fin 4) rfl, pay4_apply]
  rfl

/-- Channel 1's store. -/
theorem pay_ch1 (v3 : Vec Ideal S1x5000x4 .f32) (v : Vec Ideal S1x200x200 .f32) (h w : Fin 200) :
    k0_pay9 (k0_pay4 v3) (k0_pay5 v3) (k0_pay6 v3) v (ix3 (0 : Fin 1) h w)
      = (v (ix3 (0 : Fin 1) h w) : EReal) + tileSum (fun k f => v3 (ix3 (0 : Fin 1) k f)) 1 h w := by
  unfold k0_pay9
  refine (core_apply _ _ _ v _ _ _ _ h w).trans ?_
  congr 1
  refine Finset.sum_congr rfl fun k _ => ?_
  rw [onehotY_apply, onehotX_apply, slice2_axis1_apply 1 (k0_pay4 v3) _ k (0 : Fin 1) (1 : Fin 4) rfl, pay4_apply]
  rfl

/-- Channel 2's store. -/
theorem pay_ch2 (v3 : Vec Ideal S1x5000x4 .f32) (v : Vec Ideal S1x200x200 .f32) (h w : Fin 200) :
    k0_pay10 (k0_pay4 v3) (k0_pay5 v3) (k0_pay6 v3) v (ix3 (0 : Fin 1) h w)
      = (v (ix3 (0 : Fin 1) h w) : EReal) + tileSum (fun k f => v3 (ix3 (0 : Fin 1) k f)) 2 h w := by
  unfold k0_pay10
  refine (core_apply _ _ _ v _ _ _ _ h w).trans ?_
  congr 1
  refine Finset.sum_congr rfl fun k _ => ?_
  rw [onehotY_apply, onehotX_apply, slice2_axis1_apply 2 (k0_pay4 v3) _ k (0 : Fin 1) (2 : Fin 4) rfl, pay4_apply]
  rfl

/-- Channel 3's store. -/
theorem pay_ch3 (v3 : Vec Ideal S1x5000x4 .f32) (v : Vec Ideal S1x200x200 .f32) (h w : Fin 200) :
    k0_pay11 (k0_pay4 v3) (k0_pay5 v3) (k0_pay6 v3) v (ix3 (0 : Fin 1) h w)
      = (v (ix3 (0 : Fin 1) h w) : EReal) + tileSum (fun k f => v3 (ix3 (0 : Fin 1) k f)) 3 h w := by
  unfold k0_pay11
  refine (core_apply _ _ _ v _ _ _ _ h w).trans ?_
  congr 1
  refine Finset.sum_congr rfl fun k _ => ?_
  rw [onehotY_apply, onehotX_apply, slice2_axis1_apply 3 (k0_pay4 v3) _ k (0 : Fin 1) (3 : Fin 4) rfl, pay4_apply]
  rfl

/-- Channel 4's store: the loaded slab plus the tile's count. -/
theorem pay_ch4 (v3 : Vec Ideal S1x5000x4 .f32) (v : Vec Ideal S1x200x200 .f32) (h w : Fin 200) :
    k0_pay1 (k0_pay5 v3) (k0_pay6 v3) (constant S200x200 .f32 0#32) v (ix3 (0 : Fin 1) h w)
      = (v (ix3 (0 : Fin 1) h w) : EReal) + tileSum (fun k f => v3 (ix3 (0 : Fin 1) k f)) 4 h w := by
  unfold k0_pay1
  refine (core4_apply _ _ v _ _ h w).trans ?_
  refine congrArg (fun x => (v (ix3 (0 : Fin 1) h w) : EReal) + x) (Finset.sum_congr rfl fun k _ => ?_)
  rw [onehotY_apply, onehotX_apply]
  exact (term_four _ h w).symm

/-- The first tile's reset stores zero everywhere. -/
theorem pay_zero (c : Fin 5) (h w : Fin 200) : (k0_pay3 (F := Ideal)) (ix3 c h w) = (0 : EReal) := by
  unfold k0_pay3
  show Ideal.ofBits .f32 0x00000000#32 = 0
  exact Ideal.ofBits_zero_f32

/-- The copy-out adds a unit axis. -/
theorem pay_copy (v85 : Vec Ideal S5x200x200 .f32) (c : Fin 5) (h w : Fin 200) :
    k0_pay2 v85 (ix4 (0 : Fin 1) c h w) = v85 (ix3 c h w) :=
  shapeCast_abc_1abc_apply v85 _ (0 : Fin 1) c h w

end Cert.Value.Bin

end
-- ==== Proof.Value.RefSpec.lean ====
/-
  The reference's value, spelt without the program: what one row of the result is, as a function of the
  seven arguments.

  A point (b, n) of the cloud has four features pts (b, n, ·); the first two are its planar coordinates.
  Its cell words are xi = ⌊(x − (−50)) / 0.5⌋ and yi = ⌊(y − (−50)) / 0.5⌋, converted to signed 32-bit
  words; the point is valid when both lie in [0, 200); its flat word is b · 40000 + (yi · 200 + xi) when it
  is valid and b · 40000 when it is not (an invalid point is sent to cell 0 of its batch, where it adds zeros).
  Cell k of batch b collects, over ALL points whose flat word reads b · 40000 + k, the count of valid points
  and the sums of the masked features; its five features are the four means (sum over max count 1) and the
  count. A row of the result is the two-layer perceptron of those five features followed by a layer
  normalisation over the 96 outputs.
-/
import Idealize.ShloMosaic.PureOps.Ideal
import Idealize.ShloMosaic.Lib.ValueIdx

noncomputable section

namespace Cert.Value.RefSpec

open Idealize.ShloMosaic Idealize.ShloMosaic.ValueIdx
open scoped BigOperators

/-- The point cloud: 16 batches of 200000 points of 4 features. -/
abbrev Pts : Type := (⟨3, ![16, 200000, 4]⟩ : Shape).Idx → EReal

/-! ## The cell of a point -/

/-- The cell word of a planar coordinate: the floor of (c − (−50)) / 0.5 as a signed 32-bit word
    (the conversion clamps what does not fit). -/
def cellWord (c : EReal) : BitVec 32 :=
  Ideal.fptosi 32 (Ideal.liftRound Int.floor
    (Ideal.div (c - Ideal.ofBits .f32 0xC2480000#32) (Ideal.ofBits .f32 0x3F000000#32)))

/-- The column word of point (b, n): the cell word of its first feature. -/
def xi (pts : Pts) (b : Fin 16) (n : Fin 200000) : BitVec 32 := cellWord (pts (ix3 b n (0 : Fin 4)))

/-- The row word of point (b, n): the cell word of its second feature. -/
def yi (pts : Pts) (b : Fin 16) (n : Fin 200000) : BitVec 32 := cellWord (pts (ix3 b n (1 : Fin 4)))

/-- The validity bit of point (b, n): 0 ≤ xi < 200 and 0 ≤ yi < 200, signed. -/
def valid (pts : Pts) (b : Fin 16) (n : Fin 200000) : BitVec 1 :=
  IntOp.andi
    (IntOp.andi
      (IntOp.andi (IntOp.cmpi .sge (xi pts b n) 0#32) (IntOp.cmpi .slt (xi pts b n) 200#32))
      (IntOp.cmpi .sge (yi pts b n) 0#32))
    (IntOp.cmpi .slt (yi pts b n) 200#32)

/-- The validity bit as a number: 1 for a valid point, 0 for an invalid one. -/
def vf (pts : Pts) (b : Fin 16) (n : Fin 200000) : EReal := (((valid pts b n).toNat : ℝ) : EReal)

/-- The cell of point (b, n) within its batch: yi · 200 + xi when valid, 0 when not. -/
def cellIdx (pts : Pts) (b : Fin 16) (n : Fin 200000) : BitVec 32 :=
  Scalar.select (valid pts b n) (IntOp.addi (IntOp.muli (yi pts b n) 200#32) (xi pts b n)) 0#32

/-- The flat word of point (b, n): b · 40000 plus its cell. -/
def flatWord (pts : Pts) (b : Fin 16) (n : Fin 200000) : BitVec 32 :=
  IntOp.addi (IntOp.muli (BitVec.ofNat 32 b.val) 40000#32) (cellIdx pts b n)

/-- Point (b', n) is sent to cell k of batch b: its flat word, read signed, is b · 40000 + k. -/
def hits (pts : Pts) (b : Fin 16) (k : Fin 40000) (b' : Fin 16) (n : Fin 200000) : Prop :=
  (flatWord pts b' n).toInt = ((b.val * 40000 + k.val : Nat) : Int)

instance (pts : Pts) (b : Fin 16) (k : Fin 40000) (b' : Fin 16) (n : Fin 200000) : Decidable (hits pts b k b' n) := by
  unfold hits; infer_instance

/-! ## The five features of a cell -/

/-- The number of valid points sent to cell k of batch b (the invalid ones sent there add 0). -/
def count (pts : Pts) (b : Fin 16) (k : Fin 40000) : EReal :=
  ∑ b' : Fin 16, ∑ n : Fin 200000, if hits pts b k b' n then vf pts b' n else 0

/-- The sum of feature f, masked by validity, over the points sent to cell k of batch b. -/
def sumFeat (pts : Pts) (b : Fin 16) (k : Fin 40000) (f : Fin 4) : EReal :=
  ∑ b' : Fin 16, ∑ n : Fin 200000, if hits pts b k b' n then pts (ix3 b' n f) * vf pts b' n else 0

/-- The five features of cell k of batch b: the four masked means, sum / max (count, 1), then the count. -/
def featRef (pts : Pts) (b : Fin 16) (k : Fin 40000) : Fin 5 → EReal := fun f =>
  if h : f.val < 4 then
    Ideal.div (sumFeat pts b k ⟨f.val, h⟩) (max (count pts b k) (Ideal.ofBits .f32 0x3F800000#32))
  else count pts b k

/-! ## The perceptron and the normalisation of a row -/

/-- Hidden unit k: the rectified affine form of the five features. -/
def hid (feat : Fin 5 → EReal) (w1 : (⟨2, ![5, 64]⟩ : Shape).Idx → EReal) (b1 : (⟨1, ![64]⟩ : Shape).Idx → EReal)
    (k : Fin 64) : EReal :=
  max ((∑ f : Fin 5, feat f * w1 (ix2 f k)) + b1 (ix1 k)) 0

/-- Output e before normalisation: the affine form of the 64 hidden units. -/
def tok (feat : Fin 5 → EReal) (w1 : (⟨2, ![5, 64]⟩ : Shape).Idx → EReal) (b1 : (⟨1, ![64]⟩ : Shape).Idx → EReal)
    (w2 : (⟨2, ![64, 96]⟩ : Shape).Idx → EReal) (b2 : (⟨1, ![96]⟩ : Shape).Idx → EReal) (e : Fin 96) : EReal :=
  (∑ k : Fin 64, hid feat w1 b1 k * w2 (ix2 k e)) + b2 (ix1 e)

/-- The mean of 96 numbers: their sum divided by 96. -/
def mean96 (v : Fin 96 → EReal) : EReal :=
  Ideal.div (∑ e : Fin 96, v e) (Ideal.ofBits .f32 0x42C00000#32)

/-- The mean of the 96 outputs of a row. -/
def mu (t : Fin 96 → EReal) : EReal := mean96 t

/-- The variance of the 96 outputs of a row: the mean of the squared deviations from the mean. -/
def var (t : Fin 96 → EReal) : EReal := mean96 fun e => (t e - mu t) * (t e - mu t)

/-- The layer normalisation of the outputs t at e: (t e − mean) / sqrt (variance + 1e-5) · gamma e + beta e. -/
def layerNorm (t : Fin 96 → EReal) (gamma beta : (⟨1, ![96]⟩ : Shape).Idx → EReal) (e : Fin 96) : EReal :=
  Ideal.div (t e - mu t) (Ideal.sqrt (var t + Ideal.ofBits .f32 0x3727C5AC#32)) * gamma (ix1 e) + beta (ix1 e)

/-- **The row function**: entry e of the result's row whose five features are feat. -/
def refRow (feat : Fin 5 → EReal) (w1 : (⟨2, ![5, 64]⟩ : Shape).Idx → EReal) (b1 : (⟨1, ![64]⟩ : Shape).Idx → EReal)
    (w2 : (⟨2, ![64, 96]⟩ : Shape).Idx → EReal) (b2 gamma beta : (⟨1, ![96]⟩ : Shape).Idx → EReal) (e : Fin 96) : EReal :=
  layerNorm (tok feat w1 b1 w2 b2) gamma beta e

end Cert.Value.RefSpec

end
-- ==== Proof.Value.BinAll.lean ====
/-
  The binning of a whole batch, stated without the program: channel c of grid cell (h, w) of batch b collects,
  over all 200000 points of the batch, each point's contribution (the row indicator times the column indicator
  times the point's feature c, or times nothing for the count channel c = 4).  This is where the kernel's
  side (forty tiles of 5000 points, accumulated) and the reference's side (a segment sum over flat cell
  indices) meet.
-/
import proofs.«113907_j39831526703842_2_alg».proof.Proof.Value.BinSpec
import proofs.«113907_j39831526703842_2_alg».proof.Proof.Value.RefSpec

noncomputable section

open scoped BigOperators

namespace Cert.Value.Bin

open Idealize.ShloMosaic Idealize.ShloMosaic.ValueIdx

/-- Point n of batch b as its four features. -/
def pointOf (pts : Cert.Value.RefSpec.Pts) (b : Fin 16) (n : Fin 200000) : Fin 4 → EReal := fun f => pts (ix3 b n f)

/-- Channel c of grid cell (h, w) of batch b: the sum over the batch's points of their contributions. -/
def binK (pts : Cert.Value.RefSpec.Pts) (b : Fin 16) (c : Fin 5) (h w : Fin 200) : EReal :=
  ∑ n : Fin 200000, term (pointOf pts b n) c h w

end Cert.Value.Bin

end
-- ==== Proof.Value.BinTiles.lean ====
/-
  The forty tiles of a batch are the batch.

  A batch's 200000 points are read as forty consecutive tiles of 5000: point `5000 * j + k` is point `k` of
  tile `j`. A sum over the batch's points is therefore the sum over the tiles of the sums over each tile's
  points (`sum_blocks`: the index set `Fin 200000` is `Fin 40 × Fin 5000` through `(j, k) ↦ 5000 * j + k`), and
  the tiles' contributions to a channel of a grid cell add up to the batch's (`tiles_eq_binK`).
-/
import proofs.«113907_j39831526703842_2_alg».proof.Proof.Value.BinAll

noncomputable section

open scoped BigOperators

namespace Cert.Value.Bin

open Idealize.ShloMosaic Idealize.ShloMosaic.ValueIdx

/-- A sum over 200000 indices as forty consecutive blocks of 5000. -/
theorem sum_blocks {M : Type*} [AddCommMonoid M] (g : Fin 200000 → M) :
    ∑ n : Fin 200000, g n = ∑ j : Fin 40, ∑ k : Fin 5000, g ⟨5000 * j.val + k.val, by omega⟩ := by
  rw [← Equiv.sum_comp (finProdFinEquiv : Fin 40 × Fin 5000 ≃ Fin 200000) g, Fintype.sum_prod_type]
  refine Finset.sum_congr rfl fun j _ => Finset.sum_congr rfl fun k _ => ?_
  refine congrArg g (Fin.ext ?_)
  show k.val + 5000 * j.val = 5000 * j.val + k.val
  omega

/-- The tiles' contributions to channel `cc` of grid cell `(h, w)` of batch `b` add up to the batch's. -/
theorem tiles_eq_binK (pts : Cert.Value.RefSpec.Pts) (b : Fin 16) (cc : Fin 5) (h w : Fin 200) :
    (∑ j ∈ Finset.range 40, tileSum (fun (k : Fin 5000) (f : Fin 4) =>
        if hj : j < 40 then pts (ix3 b ⟨5000 * j + k.val, by omega⟩ f) else 0) cc h w)
      = binK pts b cc h w := by
  unfold binK
  rw [sum_blocks, Finset.sum_range]
  refine Finset.sum_congr rfl fun j _ => ?_
  unfold tileSum
  refine Finset.sum_congr rfl fun k _ => ?_
  refine congrArg (fun p => term p cc h w) (funext fun f => ?_)
  show (if hj : j.val < 40 then pts (ix3 b ⟨5000 * j.val + k.val, by omega⟩ f) else 0) = _
  rw [dif_pos j.isLt]
  rfl

end Cert.Value.Bin

end
-- ==== Proof.Value.KernelBin.lean ====
/-
  What the second region is handed.  The binning region's result array holds at (b, c, h, w) the accumulator
  after the last tile of batch b, which is the sum over the batch's forty tiles of their contributions, that
  is, over all of the batch's points: `binK`.  The host then moves the channel axis last and flattens the
  grid, so the array the second region reads holds at (b, k, f) channel f of cell (k / 200, k % 200) of batch b.
-/
import proofs.«113907_j39831526703842_2_alg».proof.Proof.FrameKernelIdeal.Frame
import proofs.«113907_j39831526703842_2_alg».proof.Proof.Value.BinChain
import proofs.«113907_j39831526703842_2_alg».proof.Proof.Value.BinPayload
import proofs.«113907_j39831526703842_2_alg».proof.Proof.Value.BinTiles
import Idealize.ShloMosaic.Lib.Pipeline.Value
import Idealize.ShloMosaic.Lib.StableHlo.Run

set_option maxRecDepth 16384

noncomputable section

namespace Cert.Value.Glue

open Idealize.ShloMosaic Idealize.ShloMosaic.TcCoe Idealize.SL.Sem Idealize.ShloMosaic.Tactic
open Idealize.ShloMosaic.ValueIdx
open Idealize.ShloMosaic.Pipeline (Dat)
open Cert.KernelIdeal Cert.KernelIdeal.Gen Cert.KernelIdeal.Hand

open Cert.Value.Acc Cert.Value.Bin

/-- A tile's contribution, in the payload lemmas' spelling. -/
def T (x0 : Vec Ideal S1x5000x4 .f32) (cc : Fin 5) (h w : Fin 200) : EReal :=
  tileSum (fun k f => x0 (ix3 (0 : Fin 1) k f)) cc h w

theorem payFacts : PayFacts T :=
  ⟨fun v3 v h w => pay_ch0 v3 v h w, fun v3 v h w => pay_ch1 v3 v h w, fun v3 v h w => pay_ch2 v3 v h w,
   fun v3 v h w => pay_ch3 v3 v h w, fun v3 v h w => pay_ch4 v3 v h w, fun c h w => pay_zero c h w, fun v c h w => pay_copy v c h w⟩

/-- The points window's block index at point t: (t / 40, t % 40, 0). -/
theorem idx_facts0 : ∀ t : Fin cfg0.N, win0_0.index t (0 : Fin 3) = t.val / 40 ∧ win0_0.index t (1 : Fin 3) = t.val % 40
    ∧ win0_0.index t (2 : Fin 3) = 0 :=
  (by decide +kernel : ∀ t : Fin grid0.N, win0_0.index t (0 : Fin 3) = t.val / 40 ∧ win0_0.index t (1 : Fin 3) = t.val % 40
    ∧ win0_0.index t (2 : Fin 3) = 0)

variable (V : (c : Dev nD) → (b : Ref sig .tc) → Buf (Elt Ideal) ((c : Thread nD τ).loc b))

/-- Tile j of batch b is rows 5000·j … of batch b of the point cloud. -/
theorem tile_read (c : Dev nD) (b j : ℕ) (hb : b < 16) (hj : j < 40) (k : Fin 5000) (f : Fin 4) :
    tileAt V c (40 * b + j) (ix3 (0 : Fin 1) k f)
      = V c main_arg0 (ix3 (⟨b, hb⟩ : Fin 16) (⟨5000 * j + k.val, by omega⟩ : Fin 200000) f) := by
  have hlt : 40 * b + j < cfg0.N := by rw [show cfg0.N = 640 from N_0]; omega
  rw [tileAt_eq V c _ hlt]
  unfold iblk0
  rw [View.read_apply]
  show V c main_arg0 _ = V c main_arg0 _
  refine congrArg (V c main_arg0) (funext fun a => Fin.ext ?_)
  obtain ⟨e0, e1, e2⟩ := idx_facts0 ⟨40 * b + j, hlt⟩
  match a with
  | ⟨0, _⟩ => show win0_0.index ⟨40 * b + j, hlt⟩ (0 : Fin 3) * 1 + 1 * 0 = b; rw [e0]; show (40 * b + j) / 40 * 1 + 1 * 0 = b; omega
  | ⟨1, _⟩ => show win0_0.index ⟨40 * b + j, hlt⟩ (1 : Fin 3) * 5000 + 1 * k.val = 5000 * j + k.val; rw [e1]; show (40 * b + j) % 40 * 5000 + 1 * k.val = _; omega
  | ⟨2, _⟩ => show win0_0.index ⟨40 * b + j, hlt⟩ (2 : Fin 3) * 4 + 1 * f.val = f.val; rw [e2]; omega

/-- After the last tile of batch b the accumulator holds the batch's binning. -/
theorem acc_binK (c : Dev nD) (b : Fin 16) (cc : Fin 5) (h w : Fin 200) :
    chain T V c (40 * b.val + 39) (ix3 cc h w) = binK (V c main_arg0) b cc h w := by
  rw [chain_closed T V c b.val 39 (by omega)]
  show ∑ k ∈ Finset.range 40, T (tileAt V c (40 * b.val + k)) cc h w = _
  rw [← tiles_eq_binK]
  refine Finset.sum_congr rfl fun j hj => ?_
  have hj' : j < 40 := Finset.mem_range.mp hj
  unfold T
  refine congrArg (fun P => tileSum P cc h w) (funext fun k => funext fun f => ?_)
  rw [dif_pos hj']
  exact tile_read V c b.val j b.isLt hj' k f

/-- The binning region's result array, read at an index. -/
theorem G0_apply (c : Dev nD) (b : Fin 16) (cc : Fin 5) (h w : Fin 200) :
    G0 T V c (ix4 b cc h w) = binK (V c main_arg0) b cc h w := by
  show chainN T V c (40 * b.val + 39) cc.val h.val w.val = _
  unfold chainN
  rw [dif_pos ⟨cc.isLt, h.isLt, w.isLt⟩]
  exact acc_binK V c b cc h w

variable (m : (ℓ : Loc nD τ sig) → Buf (Elt Ideal) ℓ) (ρ : Dev nD → PrngReg)

/-- What the host's two layout operations make of the binning region's result. -/
theorem sfc_eq (c : Dev nD) : V3 m ρ c main_v2
    = shapeCast S16x40000x5 (transpose S16x200x200x5 [0, 2, 3, 1] (V2 m ρ c main_v0) transposes_S16x5x200x200_S16x200x200x5_0_2_3_1) shapeCasts_S16x200x200x5_S16x40000x5 := by
  show StableHlo.after hostOps1 (W2 m ρ c) (Proc.devRef .tc main_v2) = _
  after_results
  rfl

/-- The array the second region reads: at (b, k, f), channel f of cell (k / 200, k % 200) of batch b. -/
theorem sfc_apply (c : Dev nD) (b : Fin 16) (k : Fin 40000) (f : Fin 5) :
    V3 m ρ c main_v2 (ix3 b k f)
      = binK (m ((c : Thread nD τ).loc main_arg0)) b f (⟨k.val / 200, by omega⟩ : Fin 200) (⟨k.val % 200, by omega⟩ : Fin 200) := by
  rw [sfc_eq]
  refine (shapeCast_apply _ _ (ix3 b k f) (ix4 b (⟨k.val / 200, by omega⟩ : Fin 200) (⟨k.val % 200, by omega⟩ : Fin 200) f) ?_).trans ?_
  · rw [Shape.rowMajor_val_four, Shape.rowMajor_val_three]
    show ((b.val * 200 + k.val / 200) * 200 + k.val % 200) * 5 + f.val = (b.val * 40000 + k.val) * 5 + f.val
    omega
  · refine (transpose_apply _ _ _ _ (ix4 b f (⟨k.val / 200, by omega⟩ : Fin 200) (⟨k.val % 200, by omega⟩ : Fin 200)) (fun bb => by
      match bb with
      | ⟨0, _⟩ => rfl
      | ⟨1, _⟩ => rfl
      | ⟨2, _⟩ => rfl
      | ⟨3, _⟩ => rfl)).trans ?_
    show W2 m ρ c (Proc.devRef .tc main_v0) _ = _
    rw [show W2 m ρ c (Proc.devRef .tc main_v0) = (dat0 (V1 m ρ) c).arrAt 1 cfg0.N from W2_arr m ρ c 1, final0 (V1 m ρ) payFacts c]
    exact G0_apply (V1 m ρ) c b f _ _

end Cert.Value.Glue

end
-- ==== Proof.Value.KernelRun.lean ====
/-
  The idealized kernel's run with its result named: the result buffer ends at what the second region's
  write-backs make of it, every argument as launched; and the second region reads the arguments as launched.
-/
import proofs.«113907_j39831526703842_2_alg».proof.Proof.Value.KernelBin

set_option maxRecDepth 16384

noncomputable section

namespace Cert.Value.Glue

open Idealize.ShloMosaic Idealize.ShloMosaic.TcCoe Idealize.SL.Sem Idealize.ShloMosaic.Tactic
open Idealize.ShloMosaic.ValueIdx
open Idealize.ShloMosaic.Pipeline (Dat)
open Cert.KernelIdeal Cert.KernelIdeal.Gen Cert.KernelIdeal.Hand

variable (m : (ℓ : Loc nD τ sig) → Buf (Elt Ideal) ℓ) (ρ : Dev nD → PrngReg)

theorem V3_main_arg1 (c : Dev nD) : V3 m ρ c main_arg1 = m ((c : Thread nD τ).loc main_arg1) :=
  (StableHlo.after_of_writes_sub hostOps1 _ hostOps1_writes (by decide)).trans ((W2_of_ne m ρ c main_arg1 (by decide)).trans rfl)
theorem V3_main_arg2 (c : Dev nD) : V3 m ρ c main_arg2 = m ((c : Thread nD τ).loc main_arg2) :=
  (StableHlo.after_of_writes_sub hostOps1 _ hostOps1_writes (by decide)).trans ((W2_of_ne m ρ c main_arg2 (by decide)).trans rfl)
theorem V3_main_arg3 (c : Dev nD) : V3 m ρ c main_arg3 = m ((c : Thread nD τ).loc main_arg3) :=
  (StableHlo.after_of_writes_sub hostOps1 _ hostOps1_writes (by decide)).trans ((W2_of_ne m ρ c main_arg3 (by decide)).trans rfl)
theorem V3_main_arg4 (c : Dev nD) : V3 m ρ c main_arg4 = m ((c : Thread nD τ).loc main_arg4) :=
  (StableHlo.after_of_writes_sub hostOps1 _ hostOps1_writes (by decide)).trans ((W2_of_ne m ρ c main_arg4 (by decide)).trans rfl)
theorem V3_main_arg5 (c : Dev nD) : V3 m ρ c main_arg5 = m ((c : Thread nD τ).loc main_arg5) :=
  (StableHlo.after_of_writes_sub hostOps1 _ hostOps1_writes (by decide)).trans ((W2_of_ne m ρ c main_arg5 (by decide)).trans rfl)
theorem V3_main_arg6 (c : Dev nD) : V3 m ρ c main_arg6 = m ((c : Thread nD τ).loc main_arg6) :=
  (StableHlo.after_of_writes_sub hostOps1 _ hostOps1_writes (by decide)).trans ((W2_of_ne m ρ c main_arg6 (by decide)).trans rfl)

theorem kernel_run : θ_run defs (onTc (τ := τ) (main (F := Ideal))) ⟨m, fun _ => 0, ρ⟩ (fun r => ∀ c : Dev nD,
      r.2.mem ((c.tc : Thread nD τ).loc main_v3) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_v3 (by decide))).trans (W4_main_v3 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.Value.Glue

end
-- ==== Proof.LibFiniteReal.lean ====
/-
  FROM "EVERY ENTRY IS BELOW +∞ IN ABSOLUTE VALUE" TO "EVERY ENTRY IS A REAL NUMBER", at the ideal values
  (floats are extended reals), independent of any particular program.
  A precondition "every entry of `x` is finite" prints, per float array `x`, as: the absolute value of `x`, the
  f32 word 0x7F800000 broadcast to `x`'s shape, their elementwise ordered less-than (an array of one-bit words), and the
  reduction of that array by `and` over all axes from the constant 1. This file reads that back:
  • `real_of_abs_lt_top`: an extended real whose absolute value compares below +∞ is a real number;
  • `ofBits_inf_f32`, `broadcast_inf_apply`: the word 0x7F800000 is +∞, and so is its broadcast at every index;
  • `forall_real_of_all_abs_lt`: if the reduction is 1 then every entry of `x` is a real number, against any array that
    is +∞ everywhere; `forall_real_of_all_abs_lt_inf`: the same against the broadcast word, the form a printed
    precondition has.
  The conclusion is spelt out, `∀ i, ∃ r : ℝ, x i = (r : EReal)`: the statement that `x` is an array of real numbers.
-/
import Idealize.ShloMosaic.Lib.ReduceAll
import Idealize.ShloMosaic.PureOps.Ideal

noncomputable section

namespace FiniteReal

open Idealize.ShloMosaic

/-- An extended real whose absolute value `max x (-x)` compares (ordered less-than, as a one-bit word) below +∞ is a
    real number: at ⊥ and at ⊤ the absolute value is ⊤, and ⊤ < ⊤ is false. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- The f32 word 0x7F800000 denotes +∞. -/
theorem ofBits_inf_f32 : Ideal.ofBits .f32 0x7F800000#32 = ⊤ := by simp [Ideal.ofBits, Ideal.ieee]

/-- The word 0x7F800000 as a constant of any shape, broadcast to any shape, reads +∞ at every index. -/
theorem broadcast_inf_apply {u s : Shape} (dims : Fin u.rank → Fin s.rank) (hb : u.BroadcastsInDim s dims) (i : s.Idx) :
    broadcastInDim s dims hb (constant (F := Ideal) u .f32 0x7F800000#32) i = ⊤ := by
  unfold broadcastInDim
  exact ofBits_inf_f32

/-- If the `and` over ALL entries of "the absolute value of `x` is below `B`" is 1, and `B` is +∞ everywhere, then
    every entry of `x` is a real number. (`t` has one index: the reduction is over all axes.) -/
theorem forall_real_of_all_abs_lt {s t u : Shape} {axes : List (Fin s.rank)} [Subsingleton t.Idx]
    (x B : FVec Ideal s .f32) (hB : ∀ i, B i = ⊤) (init : u.Idx → BitVec 1) (h : s.ReducesTo axes t) (hu : 0 < u.numel)
    (j : t.Idx) (e : Host.reduce IntOp.andi (cmpf .olt (Host.absf x) B) init h hu j = 1#1) :
    ∀ i, ∃ r : ℝ, x i = (r : EReal) := fun i => by
  have hi := Host.reduce_andi_all (cmpf .olt (Host.absf x) B) init h hu j e i
  refine real_of_abs_lt_top (x i) ?_
  have : cmpf .olt (Host.absf x) B i = Ideal.cmp .olt (max (x i) (-(x i))) (B i) := rfl
  rw [this, hB i] at hi
  exact hi

/-- The printed form: against the word 0x7F800000 broadcast to `x`'s shape. -/
theorem forall_real_of_all_abs_lt_inf {s t u v : Shape} {axes : List (Fin s.rank)} [Subsingleton t.Idx]
    (x : FVec Ideal s .f32) (dims : Fin v.rank → Fin s.rank) (hb : v.BroadcastsInDim s dims)
    (init : u.Idx → BitVec 1) (h : s.ReducesTo axes t) (hu : 0 < u.numel) (j : t.Idx)
    (e : Host.reduce IntOp.andi
          (cmpf .olt (Host.absf x) (broadcastInDim s dims hb (constant (F := Ideal) v .f32 0x7F800000#32))) init h hu j = 1#1) :
    ∀ i, ∃ r : ℝ, x i = (r : EReal) :=
  forall_real_of_all_abs_lt x _ (broadcast_inf_apply dims hb) init h hu j e

end FiniteReal

end
-- ==== Proof.Value.FiniteArgs.lean ====
/-
  The precondition read back: if "every input is finite" evaluates to one on the seven argument arrays, read at
  the extended reals, then every entry of every argument is a real number.  The predicate is the conjunction,
  over the arguments, of the all-reduction of |x| < +∞.
-/
import proofs.«113907_j39831526703842_2_alg».proof.Pre_finite_inputs
import proofs.«113907_j39831526703842_2_alg».proof.Proof.Gen.Pre_finite_inputs
import proofs.«113907_j39831526703842_2_alg».proof.Proof.LibFiniteReal
import Idealize.ShloMosaic.Lib.ValueIdx

noncomputable section

namespace Cert.Value.Fin

open Idealize.ShloMosaic Idealize.ShloMosaic.ValueIdx Cert.Pre_finite_inputs

instance : Subsingleton S_.Idx := ⟨fun a b => funext fun d => d.elim0⟩

/-- An array all of whose entries are real numbers. -/
def AllReal {s : Shape} (x : s.Idx → EReal) : Prop := ∀ i, ∃ r : ℝ, x i = (r : EReal)

theorem finite_args [Cert.Pre_finite_inputs.Facts] (a0 : FVec Ideal S16x200000x4 .f32) (a1 : FVec Ideal S5x64 .f32) (a2 : FVec Ideal S64 .f32)
    (a3 : FVec Ideal S64x96 .f32) (a4 a5 a6 : FVec Ideal S96 .f32)
    (h : Cert.Pre_finite_inputs.fn (F := Ideal) a0 a1 a2 a3 a4 a5 a6 = fun _ => 1#1) :
    AllReal a0 ∧ AllReal a1 ∧ AllReal a2 ∧ AllReal a3 ∧ AllReal a4 ∧ AllReal a5 ∧ AllReal a6 := by
  have h0 := congrFun h ix0
  dsimp only [Cert.Pre_finite_inputs.fn, Cert.Pre_finite_inputs.fn_part1] at h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨FiniteReal.forall_real_of_all_abs_lt_inf a0 _ _ _ _ _ ix0 e0, FiniteReal.forall_real_of_all_abs_lt_inf a1 _ _ _ _ _ ix0 e1,
    FiniteReal.forall_real_of_all_abs_lt_inf a2 _ _ _ _ _ ix0 e2, FiniteReal.forall_real_of_all_abs_lt_inf a3 _ _ _ _ _ ix0 e3,
    FiniteReal.forall_real_of_all_abs_lt_inf a4 _ _ _ _ _ ix0 e4, FiniteReal.forall_real_of_all_abs_lt_inf a5 _ _ _ _ _ ix0 e5,
    FiniteReal.forall_real_of_all_abs_lt_inf a6 _ _ _ _ _ ix0 e6⟩

end Cert.Value.Fin

end
-- ==== Proof.Value.BinBridge.lean ====
/-
  The reference's segment sums are the batch's binning.

  The reference sends point `(b', n)` to the flat cell `b' * 40000 + (yi * 200 + xi)` when both cell words lie
  in `[0, 200)` (signed), and to `b' * 40000` when not, where it adds zeros. For a valid point the flat word does
  not wrap (it is below `16 * 40000`), so read signed it determines `(b', yi, xi)`: the point is sent to cell
  `200 * h + w` of batch `b` exactly when `b' = b`, `yi = h` and `xi = w`, which is when both of its one-hot
  entries at `(h, w)` are `1`. An invalid point adds `0` wherever it is sent (its validity factor is `0`, and
  `x * 0 = 0` for every extended real), and one of its cell words is outside `[0, 200)`, so one of its one-hot
  entries is `0` at every `(h, w)`. Point by point the two sides agree (`point_feat`, `point_count`); summed,
  the count and the masked feature sums of cell `200 * h + w` of batch `b` are the batch's binning at `(h, w)`
  (`count_eq_binK`, `sumFeat_eq_binK`).
-/
import proofs.«113907_j39831526703842_2_alg».proof.Proof.Value.BinAll

noncomputable section

open scoped BigOperators

namespace Cert.Value.Bin

open Idealize.ShloMosaic Idealize.ShloMosaic.ValueIdx Cert.Value.RefSpec

/-! ## Words -/

/-- A one-bit word built from a Boolean is `1` exactly when the Boolean is true. -/
theorem ofBool_eq_one_iff (a : Bool) : BitVec.ofBool a = 1#1 ↔ a = true := by cases a <;> decide

/-- A 32-bit word read signed lies in `[0, m)`, `m ≤ 2^31`, exactly when read unsigned it is below `m`. -/
theorem toInt_mem_iff (X : BitVec 32) (m : Nat) (hm : m ≤ 2147483648) :
    (0 ≤ X.toInt ∧ X.toInt < (m : Int)) ↔ X.toNat < m := by
  have := X.isLt
  rw [BitVec.toInt_eq_toNat_cond]
  omega

/-- The flat word of a batch below 16 and two cell words below 200 does not wrap: read signed it is
    `b' * 40000 + (Y * 200 + X)`. -/
theorem flat_toInt (X Y : BitVec 32) (b' : Fin 16) (hx : X.toNat < 200) (hy : Y.toNat < 200) :
    (IntOp.addi (IntOp.muli (BitVec.ofNat 32 b'.val) 40000#32) (IntOp.addi (IntOp.muli Y 200#32) X)).toInt
      = ((b'.val * 40000 + (Y.toNat * 200 + X.toNat) : Nat) : Int) := by
  have hb := b'.isLt
  have e : (IntOp.addi (IntOp.muli (BitVec.ofNat 32 b'.val) 40000#32) (IntOp.addi (IntOp.muli Y 200#32) X)).toNat
      = b'.val * 40000 + (Y.toNat * 200 + X.toNat) := by
    unfold IntOp.addi IntOp.muli
    simp only [BitVec.toNat_add, BitVec.toNat_mul, BitVec.toNat_ofNat]
    omega
  rw [BitVec.toInt_eq_toNat_cond, e]
  omega

/-- The one-hot entry by the cell word read unsigned. -/
theorem hot_toNat (a : BitVec 32) (w : Fin 200) : hot a w = if a.toNat = w.val then 1 else 0 := by
  unfold hot
  have hw := w.isLt
  have e : (BitVec.ofNat 32 w.val = a) ↔ a.toNat = w.val := by
    rw [← BitVec.toNat_inj, BitVec.toNat_ofNat]
    constructor <;> intro h <;> omega
  by_cases h : a.toNat = w.val
  · rw [if_pos h, if_pos (e.mpr h)]
  · rw [if_neg h, if_neg (fun h' => h (e.mp h'))]

/-! ## A point's cell words, validity and flat word -/

/-- The kernel's column cell of a point of the batch is the reference's column word. -/
theorem cellX_pointOf (pts : Pts) (b : Fin 16) (n : Fin 200000) : cellX (pointOf pts b n) = xi pts b n := rfl

/-- The kernel's row cell of a point of the batch is the reference's row word. -/
theorem cellY_pointOf (pts : Pts) (b : Fin 16) (n : Fin 200000) : cellY (pointOf pts b n) = yi pts b n := rfl

/-- A point is valid exactly when both of its cell words, read unsigned, are below 200. -/
theorem valid_iff (pts : Pts) (b : Fin 16) (n : Fin 200000) :
    valid pts b n = 1#1 ↔ (xi pts b n).toNat < 200 ∧ (yi pts b n).toNat < 200 := by
  have h0 : (0#32 : BitVec 32).toInt = 0 := by decide
  have h200 : (200#32 : BitVec 32).toInt = ((200 : Nat) : Int) := by decide
  unfold valid IntOp.andi IntOp.cmpi
  simp only [BitVec.ofBool_and_ofBool]
  rw [ofBool_eq_one_iff]
  simp only [Bool.and_eq_true, BitVec.sle_iff_toInt_le, BitVec.slt_iff_toInt_lt, h0, h200]
  rw [← toInt_mem_iff (xi pts b n) 200 (by omega), ← toInt_mem_iff (yi pts b n) 200 (by omega)]
  tauto

/-- A valid point's validity factor is `1`. -/
theorem vf_of_valid {pts : Pts} {b : Fin 16} {n : Fin 200000} (h : valid pts b n = 1#1) : vf pts b n = 1 := by
  unfold vf; rw [h]; simp

/-- An invalid point's validity factor is `0`. -/
theorem vf_of_invalid {pts : Pts} {b : Fin 16} {n : Fin 200000} (h : ¬ valid pts b n = 1#1) : vf pts b n = 0 := by
  unfold vf; rw [eq_zero_of_ne_one h]; simp

/-- A valid point `(b', n)` is sent to cell `200 * h + w` of batch `b` exactly when `b' = b` and its cell words
    are `h` and `w`. -/
theorem hits_iff_of_valid (pts : Pts) (b : Fin 16) (h w : Fin 200) (b' : Fin 16) (n : Fin 200000)
    (hv : valid pts b' n = 1#1) :
    hits pts b ⟨200 * h.val + w.val, by omega⟩ b' n
      ↔ (b' = b ∧ (yi pts b' n).toNat = h.val ∧ (xi pts b' n).toNat = w.val) := by
  obtain ⟨hx, hy⟩ := (valid_iff pts b' n).mp hv
  unfold hits flatWord cellIdx Scalar.select
  have hv' : valid pts b' n = 1 := hv
  rw [if_pos hv', flat_toInt _ _ b' hx hy]
  have := b.isLt; have := b'.isLt; have := h.isLt; have := w.isLt
  constructor
  · intro e
    have e' : b'.val * 40000 + ((yi pts b' n).toNat * 200 + (xi pts b' n).toNat)
        = b.val * 40000 + (200 * h.val + w.val) := by exact_mod_cast e
    exact ⟨Fin.ext (by omega), by omega, by omega⟩
  · rintro ⟨rfl, e1, e2⟩
    rw [e1, e2]
    have : b'.val * 40000 + (h.val * 200 + w.val) = b'.val * 40000 + (200 * h.val + w.val) := by omega
    exact_mod_cast this

/-! ## Point by point -/

/-- What point `(b', n)` adds to a masked sum of cell `200 * h + w` of batch `b` — its value `a` times its validity
    factor if it is sent there — is, for `b' = b`, its row indicator times its column indicator times `a`, and `0`
    for another batch. -/
theorem point_feat (pts : Pts) (b : Fin 16) (h w : Fin 200) (b' : Fin 16) (n : Fin 200000) (a : EReal) :
    (if hits pts b ⟨200 * h.val + w.val, by omega⟩ b' n then a * vf pts b' n else 0)
      = if b' = b then hot (yi pts b' n) h * (hot (xi pts b' n) w * a) else 0 := by
  rw [hot_toNat, hot_toNat]
  by_cases hv : valid pts b' n = 1#1
  · rw [vf_of_valid hv]
    by_cases hh : hits pts b ⟨200 * h.val + w.val, by omega⟩ b' n
    · obtain ⟨hb, e1, e2⟩ := (hits_iff_of_valid pts b h w b' n hv).mp hh
      rw [if_pos hh, if_pos hb, if_pos e1, if_pos e2, mul_one, one_mul, one_mul]
    · rw [if_neg hh]
      have hn := fun c => hh ((hits_iff_of_valid pts b h w b' n hv).mpr c)
      by_cases hb : b' = b
      · rw [if_pos hb]
        by_cases e1 : (yi pts b' n).toNat = h.val
        · have e2 : ¬ (xi pts b' n).toNat = w.val := fun e2 => hn ⟨hb, e1, e2⟩
          rw [if_neg e2, zero_mul, mul_zero]
        · rw [if_neg e1, zero_mul]
      · rw [if_neg hb]
  · rw [vf_of_invalid hv, mul_zero, ite_self]
    by_cases hb : b' = b
    · rw [if_pos hb]
      have hnv := fun c => hv ((valid_iff pts b' n).mpr c)
      by_cases e1 : (yi pts b' n).toNat = h.val
      · have e2 : ¬ (xi pts b' n).toNat = w.val := fun e2 =>
          hnv ⟨by have := w.isLt; omega, by have := h.isLt; omega⟩
        rw [if_neg e2, zero_mul, mul_zero]
      · rw [if_neg e1, zero_mul]
    · rw [if_neg hb]

/-- What point `(b', n)` adds to the count of cell `200 * h + w` of batch `b`. -/
theorem point_count (pts : Pts) (b : Fin 16) (h w : Fin 200) (b' : Fin 16) (n : Fin 200000) :
    (if hits pts b ⟨200 * h.val + w.val, by omega⟩ b' n then vf pts b' n else 0)
      = if b' = b then hot (yi pts b' n) h * hot (xi pts b' n) w else 0 := by
  have := point_feat pts b h w b' n 1
  rwa [one_mul, mul_one] at this

/-! ## Summed -/

/-- A feature channel's contribution spelt with the feature's index. -/
theorem term_castSucc (p : Fin 4 → EReal) (f : Fin 4) (h w : Fin 200) :
    term p f.castSucc h w = hot (cellY p) h * (hot (cellX p) w * p f) := by
  fin_cases f <;> rfl

/-- The reference's count of cell `200 * h + w` of batch `b` is the batch's binning of the count channel. -/
theorem count_eq_binK (pts : Pts) (b : Fin 16) (h w : Fin 200) :
    count pts b ⟨200 * h.val + w.val, by omega⟩ = binK pts b 4 h w := by
  unfold count binK
  rw [Finset.sum_eq_single b]
  · refine Finset.sum_congr rfl fun n _ => ?_
    rw [point_count, if_pos rfl, term_four, cellX_pointOf, cellY_pointOf]
  · intro b' _ hb
    refine Finset.sum_eq_zero fun n _ => ?_
    rw [point_count, if_neg hb]
  · intro hb; exact absurd (Finset.mem_univ b) hb

/-- The reference's masked sum of feature `f` over cell `200 * h + w` of batch `b` is the batch's binning of
    channel `f`. -/
theorem sumFeat_eq_binK (pts : Pts) (b : Fin 16) (h w : Fin 200) (f : Fin 4) :
    sumFeat pts b ⟨200 * h.val + w.val, by omega⟩ f = binK pts b f.castSucc h w := by
  unfold sumFeat binK
  rw [Finset.sum_eq_single b]
  · refine Finset.sum_congr rfl fun n _ => ?_
    rw [point_feat, if_pos rfl, term_castSucc, cellX_pointOf, cellY_pointOf]
    rfl
  · intro b' _ hb
    refine Finset.sum_eq_zero fun n _ => ?_
    rw [point_feat, if_neg hb]
  · intro hb; exact absurd (Finset.mem_univ b) hb

/-! ## Real inputs give real sums -/

/-- A finite sum of reals is real. -/
theorem exists_real_sum {ι : Type*} (s : Finset ι) (g : ι → EReal) (hg : ∀ i ∈ s, ∃ r : ℝ, g i = (r : EReal)) :
    ∃ r : ℝ, ∑ i ∈ s, g i = (r : EReal) := by
  refine Finset.sum_induction g (fun x => ∃ r : ℝ, x = (r : EReal)) ?_ ⟨0, rfl⟩ hg
  rintro _ _ ⟨r, rfl⟩ ⟨r', rfl⟩
  exact ⟨r + r', (EReal.coe_add r r').symm⟩

/-- A one-hot entry is real. -/
theorem hot_real (a : BitVec 32) (w : Fin 200) : ∃ r : ℝ, hot a w = (r : EReal) := by
  rcases hot_eq_zero_or_one a w with h | h
  · exact ⟨0, by rw [h]; rfl⟩
  · exact ⟨1, by rw [h]; rfl⟩

/-- A point with real features contributes a real to every channel. -/
theorem term_real (p : Fin 4 → EReal) (hp : ∀ f, ∃ r : ℝ, p f = (r : EReal)) (c : Fin 5) (h w : Fin 200) :
    ∃ r : ℝ, term p c h w = (r : EReal) := by
  obtain ⟨y, hy⟩ := hot_real (cellY p) h
  obtain ⟨x, hx⟩ := hot_real (cellX p) w
  have key : ∀ f : Fin 4, ∃ r : ℝ, hot (cellY p) h * (hot (cellX p) w * p f) = (r : EReal) := fun f => by
    obtain ⟨a, ha⟩ := hp f
    exact ⟨y * (x * a), by rw [hy, hx, ha, EReal.coe_mul, EReal.coe_mul]⟩
  match c with
  | ⟨0, _⟩ => exact key 0
  | ⟨1, _⟩ => exact key 1
  | ⟨2, _⟩ => exact key 2
  | ⟨3, _⟩ => exact key 3
  | ⟨_ + 4, _⟩ => exact ⟨y * x, by show hot (cellY p) h * hot (cellX p) w = _; rw [hy, hx, EReal.coe_mul]⟩

/-- On real inputs the batch's binning is real. -/
theorem binK_real (pts : Pts) (hfin : ∀ i, ∃ r : ℝ, pts i = (r : EReal)) (b : Fin 16) (c : Fin 5) (h w : Fin 200) :
    ∃ r : ℝ, binK pts b c h w = (r : EReal) :=
  exists_real_sum _ _ fun n _ => term_real _ (fun f => hfin (ix3 b n f)) c h w

end Cert.Value.Bin

end
-- ==== Proof.FrameKernelIdeal.RowSpec.lean ====
/- The mathematics of one row of the multilayer perceptron with layer norm, at the ideal (extended-real) values, as
   functions of the parameter arrays and of the row's five features: no program is imported here. -/
import Idealize.ShloMosaic.PureOps.Ideal.Laws
import Idealize.ShloMosaic.Lib.ValueIdx

noncomputable section

namespace Cert.RowSpec

open Idealize.ShloMosaic Idealize.ShloMosaic.ValueIdx

/-- The float words the computation names: one, zero, the feature count 96 and the variance floor. -/
abbrev wOne : EReal := Ideal.ofBits .f32 0x3F800000#32
abbrev wZero : EReal := Ideal.ofBits .f32 0x00000000#32
abbrev w96 : EReal := Ideal.ofBits .f32 0x42C00000#32
abbrev wEps : EReal := Ideal.ofBits .f32 0x3727C5AC#32

variable (x0 : (⟨3, ![1, 5000, 5]⟩ : Shape).Idx → EReal) (x1 : (⟨2, ![5, 64]⟩ : Shape).Idx → EReal)
  (x2 : (⟨1, ![64]⟩ : Shape).Idx → EReal) (x3 : (⟨2, ![64, 96]⟩ : Shape).Idx → EReal)
  (x4 x5 x6 : (⟨1, ![96]⟩ : Shape).Idx → EReal) (r : Fin 5000)

/-- The row's point count: its fifth feature. -/
def cnt : EReal := x0 (ix3 0 r 4)

/-- Each of the first four features (sums over the points) divided by the count, the count floored at one. -/
def mean (f : Fin 4) : EReal := Ideal.div (x0 (ix3 0 r f.castSucc)) (max (cnt x0 r) wOne)

/-- The first layer: the four means through the first four rows of the weights, the raw count through the fifth,
    the bias, then the rectifier. -/
def hid (j : Fin 64) : EReal :=
  max ((∑ f : Fin 4, mean x0 r f * x1 (ix2 f.castSucc j)) + cnt x0 r * x1 (ix2 4 j) + x2 (ix1 j)) wZero

/-- The second layer: the hidden row through the weights, plus the bias. -/
def tok (e : Fin 96) : EReal := (∑ j : Fin 64, hid x0 x1 x2 r j * x3 (ix2 j e)) + x4 (ix1 e)

/-- The row's mean over its 96 features, -/
def mu : EReal := Ideal.div (∑ e : Fin 96, tok x0 x1 x2 x3 x4 r e) w96

/-- each feature's deviation from it, -/
def dev (e : Fin 96) : EReal := tok x0 x1 x2 x3 x4 r e - mu x0 x1 x2 x3 x4 r

/-- and the mean of the squared deviations. -/
def var : EReal := Ideal.div (∑ e : Fin 96, dev x0 x1 x2 x3 x4 r e * dev x0 x1 x2 x3 x4 r e) w96

/-- The layer norm of the row at feature `e`: the deviation over the root of the floored variance, scaled and shifted. -/
def rowOut (e : Fin 96) : EReal :=
  dev x0 x1 x2 x3 x4 r e * Ideal.rsqrt (var x0 x1 x2 x3 x4 r + wEps) * x5 (ix1 e) + x6 (ix1 e)

end Cert.RowSpec

end
-- ==== Proof.Value.RowBridge.lean ====
/- The kernel's row function and the reference's agree on real inputs: the layer norm of the two-layer perceptron of a
   row, spelt as the kernel computes it (four means and the count through split weights, a reciprocal square root) and as
   the reference does (five features through one sum, a division by a square root). No program is imported. -/
import proofs.«113907_j39831526703842_2_alg».proof.Proof.FrameKernelIdeal.RowSpec
import proofs.«113907_j39831526703842_2_alg».proof.Proof.Value.RefSpec
import Idealize.ShloMosaic.PureOps.Ideal.Laws
import Idealize.ShloMosaic.Lib.IdealHost
import Idealize.ShloMosaic.Lib.ValueIdx

noncomputable section

namespace Cert.Value.Row

open Idealize.ShloMosaic Idealize.ShloMosaic.ValueIdx
open scoped BigOperators

/-! ## Extended reals that are real numbers -/

/-- The extended real `x` is a real number. -/
def IsR (x : EReal) : Prop := ∃ t : ℝ, x = (t : EReal)

theorem IsR.add {a b : EReal} (ha : IsR a) (hb : IsR b) : IsR (a + b) := by
  obtain ⟨x, rfl⟩ := ha; obtain ⟨y, rfl⟩ := hb; exact ⟨x + y, (EReal.coe_add x y).symm⟩

theorem IsR.sub {a b : EReal} (ha : IsR a) (hb : IsR b) : IsR (a - b) := by
  obtain ⟨x, rfl⟩ := ha; obtain ⟨y, rfl⟩ := hb; exact ⟨x - y, (EReal.coe_sub x y).symm⟩

theorem IsR.mul {a b : EReal} (ha : IsR a) (hb : IsR b) : IsR (a * b) := by
  obtain ⟨x, rfl⟩ := ha; obtain ⟨y, rfl⟩ := hb; exact ⟨x * y, (EReal.coe_mul x y).symm⟩

theorem coe_max (x y : ℝ) : ((max x y : ℝ) : EReal) = max (x : EReal) (y : EReal) :=
  Monotone.map_max EReal.coe_strictMono.monotone

theorem IsR.max {a b : EReal} (ha : IsR a) (hb : IsR b) : IsR (max a b) := by
  obtain ⟨x, rfl⟩ := ha; obtain ⟨y, rfl⟩ := hb; exact ⟨Max.max x y, (coe_max x y).symm⟩

/-- The coercion of a finite sum of reals is the sum of the coercions. -/
theorem coe_sum {κ : Type*} (s : Finset κ) (f : κ → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

theorem IsR.sum {κ : Type*} (s : Finset κ) (f : κ → EReal) (h : ∀ k, IsR (f k)) : IsR (∑ k ∈ s, f k) := by
  choose g hg using h
  exact ⟨∑ k ∈ s, g k, by rw [coe_sum]; exact Finset.sum_congr rfl fun k _ => hg k⟩

/-- Division by a real number that is not zero keeps a real number real. -/
theorem IsR.div {a : EReal} (ha : IsR a) {y : ℝ} (hy : y ≠ 0) : IsR (Ideal.div a (y : EReal)) := by
  rw [Ideal.div_coe hy]; exact ha.mul ⟨1 / y, rfl⟩

/-! ## The float words the computation names -/

theorem wOne_eq : Ideal.ofBits .f32 0x3F800000#32 = ((1 : ℝ) : EReal) := by
  rw [Ideal.ofBits_one_f32]; norm_cast

theorem wZero_eq : Ideal.ofBits .f32 0x00000000#32 = ((0 : ℝ) : EReal) := by
  rw [Ideal.ofBits_zero_f32]; norm_cast

/-- The word `0x42C00000` is 96. -/
theorem w96_eq : Ideal.ofBits .f32 0x42C00000#32 = ((96 : ℝ) : EReal) := by
  simp [Ideal.ofBits, Ideal.ieee, -EReal.coe_mul]; norm_num

/-- The word `0x3727C5AC` (the variance floor) is a positive real number. -/
theorem wEps_pos : ∃ t : ℝ, 0 < t ∧ Ideal.ofBits .f32 0x3727C5AC#32 = (t : EReal) := by
  refine ⟨(10995116 : ℝ) * (2 : ℝ) ^ (-40 : ℤ), by positivity, ?_⟩
  simp [Ideal.ofBits, Ideal.ieee, -EReal.coe_mul]

/-! ## A quotient by a square root is a product with the reciprocal square root -/

/-- At a positive real `v`, dividing by its square root is multiplying by its reciprocal square root, whatever the
    numerator. -/
theorem div_sqrt_eq_mul_rsqrt (d : EReal) {v : ℝ} (hv : 0 < v) :
    Ideal.div d (Ideal.sqrt (v : EReal)) = d * Ideal.rsqrt (v : EReal) := by
  have hs : Real.sqrt v ≠ 0 := (Real.sqrt_pos.mpr hv).ne'
  rw [Ideal.sqrt_coe, if_neg (not_lt.mpr hv.le), Ideal.div_coe hs, Ideal.rsqrt_coe, if_neg (not_lt.mpr hv.le),
    if_neg hv.ne', one_div]

/-! ## The reference's five features of the row the kernel is handed -/

section Bridge
variable (x0 : (⟨3, ![1, 5000, 5]⟩ : Shape).Idx → EReal) (x1 : (⟨2, ![5, 64]⟩ : Shape).Idx → EReal)
  (x2 : (⟨1, ![64]⟩ : Shape).Idx → EReal) (x3 : (⟨2, ![64, 96]⟩ : Shape).Idx → EReal)
  (x4 x5 x6 : (⟨1, ![96]⟩ : Shape).Idx → EReal) (r : Fin 5000)

/-- The five features the reference's perceptron takes, from row `r` of the block the kernel is handed (four sums and
    the count): each sum over the count floored at one, then the count. -/
def featOfRow : Fin 5 → EReal := fun f =>
  if f.val < 4 then Ideal.div (x0 (ix3 0 r f)) (max (x0 (ix3 0 r 4)) (Ideal.ofBits .f32 0x3F800000#32))
  else x0 (ix3 0 r 4)

theorem featOfRow_last : featOfRow x0 r (Fin.last 4) = RowSpec.cnt x0 r := by
  unfold featOfRow RowSpec.cnt
  rw [if_neg (by simp)]

theorem featOfRow_castSucc (f : Fin 4) : featOfRow x0 r f.castSucc = RowSpec.mean x0 r f := by
  unfold featOfRow RowSpec.mean RowSpec.cnt
  rw [if_pos (by simp)]

/-- The first layer: the reference's one sum over five features is the kernel's sum over four plus the count's term. -/
theorem hid_eq (j : Fin 64) : RefSpec.hid (featOfRow x0 r) x1 x2 j = RowSpec.hid x0 x1 x2 r j := by
  unfold RefSpec.hid RowSpec.hid
  rw [Fin.sum_univ_castSucc, featOfRow_last]
  simp only [featOfRow_castSucc]
  show _ = max _ (Ideal.ofBits .f32 0x00000000#32)
  rw [Ideal.ofBits_zero_f32]
  rfl

theorem tok_eq : RefSpec.tok (featOfRow x0 r) x1 x2 x3 x4 = fun e => RowSpec.tok x0 x1 x2 x3 x4 r e := by
  funext e
  unfold RefSpec.tok RowSpec.tok
  simp only [hid_eq]

theorem mu_eq : RefSpec.mu (fun e => RowSpec.tok x0 x1 x2 x3 x4 r e) = RowSpec.mu x0 x1 x2 x3 x4 r := rfl

theorem var_eq : RefSpec.var (fun e => RowSpec.tok x0 x1 x2 x3 x4 r e) = RowSpec.var x0 x1 x2 x3 x4 r := rfl

/-! ## On real inputs everything up to the variance is real, and the variance is not negative -/

variable (h0 : ∀ i, IsR (x0 i)) (h1 : ∀ i, IsR (x1 i)) (h2 : ∀ i, IsR (x2 i)) (h3 : ∀ i, IsR (x3 i)) (h4 : ∀ i, IsR (x4 i))

include h0 in
theorem isR_mean (f : Fin 4) : IsR (RowSpec.mean x0 r f) := by
  unfold RowSpec.mean RowSpec.cnt
  obtain ⟨c, hc⟩ := h0 (ix3 0 r 4)
  have hm : max (x0 (ix3 0 r 4)) RowSpec.wOne = ((max c 1 : ℝ) : EReal) := by
    show max _ (Ideal.ofBits .f32 0x3F800000#32) = _
    rw [hc, wOne_eq, coe_max]
  rw [hm]
  exact (h0 _).div (by have : (1 : ℝ) ≤ max c 1 := le_max_right _ _; linarith)

include h0 h1 h2 in
theorem isR_hid (j : Fin 64) : IsR (RowSpec.hid x0 x1 x2 r j) := by
  unfold RowSpec.hid
  refine IsR.max (((IsR.sum _ _ fun f => (isR_mean x0 r h0 f).mul (h1 _)).add ((h0 _).mul (h1 _))).add (h2 _)) ?_
  exact ⟨0, wZero_eq⟩

include h0 h1 h2 h3 h4 in
theorem isR_tok (e : Fin 96) : IsR (RowSpec.tok x0 x1 x2 x3 x4 r e) := by
  unfold RowSpec.tok
  exact (IsR.sum _ _ fun j => (isR_hid x0 x1 x2 r h0 h1 h2 j).mul (h3 _)).add (h4 _)

include h0 h1 h2 h3 h4 in
theorem isR_dev (e : Fin 96) : IsR (RowSpec.dev x0 x1 x2 x3 x4 r e) := by
  unfold RowSpec.dev RowSpec.mu
  refine (isR_tok x0 x1 x2 x3 x4 r h0 h1 h2 h3 h4 e).sub ?_
  show IsR (Ideal.div _ (Ideal.ofBits .f32 0x42C00000#32))
  rw [w96_eq]
  exact (IsR.sum _ _ fun e => isR_tok x0 x1 x2 x3 x4 r h0 h1 h2 h3 h4 e).div (by norm_num)

include h0 h1 h2 h3 h4 in
/-- The variance plus its floor is a positive real number. -/
theorem var_eps_pos : ∃ v : ℝ, 0 < v ∧ RowSpec.var x0 x1 x2 x3 x4 r + RowSpec.wEps = (v : EReal) := by
  choose d hd using isR_dev x0 x1 x2 x3 x4 r h0 h1 h2 h3 h4
  obtain ⟨t, ht, he⟩ := wEps_pos
  refine ⟨(∑ e : Fin 96, d e * d e) * (1 / 96) + t, ?_, ?_⟩
  · have : 0 ≤ ∑ e : Fin 96, d e * d e := Finset.sum_nonneg fun e _ => mul_self_nonneg (d e)
    positivity
  · unfold RowSpec.var
    show Ideal.div _ (Ideal.ofBits .f32 0x42C00000#32) + Ideal.ofBits .f32 0x3727C5AC#32 = _
    rw [w96_eq, he, Ideal.div_coe (by norm_num : (96 : ℝ) ≠ 0), EReal.coe_add, EReal.coe_mul, coe_sum]
    congr 2
    exact Finset.sum_congr rfl fun e _ => by rw [hd e, EReal.coe_mul]

/-! ## The row functions agree -/

include h0 h1 h2 h3 h4 in
/-- ON REAL INPUTS THE KERNEL'S ROW IS THE REFERENCE'S ROW of the five features `featOfRow`: the first layer by splitting
    the sum over the features, the normalisation by `div_sqrt_eq_mul_rsqrt` at the positive real variance plus floor.
    (The scale and the shift need not be real.) -/
theorem rowOut_eq_refRow (e : Fin 96) :
    RowSpec.rowOut x0 x1 x2 x3 x4 x5 x6 r e = RefSpec.refRow (featOfRow x0 r) x1 x2 x3 x4 x5 x6 e := by
  obtain ⟨v, hv, hve⟩ := var_eps_pos x0 x1 x2 x3 x4 r h0 h1 h2 h3 h4
  unfold RefSpec.refRow RefSpec.layerNorm
  rw [tok_eq, mu_eq, var_eq]
  show _ = Ideal.div (RowSpec.tok x0 x1 x2 x3 x4 r e - RowSpec.mu x0 x1 x2 x3 x4 r)
      (Ideal.sqrt (RowSpec.var x0 x1 x2 x3 x4 r + RowSpec.wEps)) * x5 (ix1 e) + x6 (ix1 e)
  rw [hve, div_sqrt_eq_mul_rsqrt _ hv, ← hve]
  rfl

end Bridge

end Cert.Value.Row

end
-- ==== Proof.Value.FeatBridge.lean ====
/-
  The five features of a grid cell: the kernel's side and the reference's side.

  The second region is handed, for cell `k` of batch `b`, a row of five numbers: the batch's binning of the four
  feature channels and of the count channel at `(k / 200, k % 200)`. The reference's five features of that cell are
  the four masked sums over the count floored at one, then the count. Since `k = 200 * (k / 200) + k % 200`, the
  reference's count and masked sums of cell `k` are the batch's binning there (`count_eq_binK_of`,
  `sumFeat_eq_binK_of`), so the features computed from the row are the reference's (`featOfRow_eq_featRef`).
-/
import proofs.«113907_j39831526703842_2_alg».proof.Proof.Value.BinBridge
import proofs.«113907_j39831526703842_2_alg».proof.Proof.Value.RowBridge

noncomputable section

open scoped BigOperators

namespace Cert.Value.Bin

open Idealize.ShloMosaic Idealize.ShloMosaic.ValueIdx Cert.Value.RefSpec

/-- A cell index below 40000 is `200` times its row plus its column. -/
theorem cell_split (k : Fin 40000) :
    k = (⟨200 * (k.val / 200) + k.val % 200, by omega⟩ : Fin 40000) :=
  Fin.ext (by show k.val = 200 * (k.val / 200) + k.val % 200; omega)

/-- The reference's count of cell `k` of batch `b` is the batch's binning of the count channel at `k`'s row and
    column. -/
theorem count_eq_binK_of (pts : Pts) (b : Fin 16) (k : Fin 40000) :
    count pts b k = binK pts b 4 (⟨k.val / 200, by omega⟩ : Fin 200) (⟨k.val % 200, by omega⟩ : Fin 200) :=
  (congrArg (count pts b) (cell_split k)).trans
    (count_eq_binK pts b (⟨k.val / 200, by omega⟩ : Fin 200) (⟨k.val % 200, by omega⟩ : Fin 200))

/-- The reference's masked sum of feature `f` over cell `k` of batch `b` is the batch's binning of channel `f` at
    `k`'s row and column. -/
theorem sumFeat_eq_binK_of (pts : Pts) (b : Fin 16) (k : Fin 40000) (f : Fin 4) :
    sumFeat pts b k f
      = binK pts b f.castSucc (⟨k.val / 200, by omega⟩ : Fin 200) (⟨k.val % 200, by omega⟩ : Fin 200) :=
  (congrArg (fun k' => sumFeat pts b k' f) (cell_split k)).trans
    (sumFeat_eq_binK pts b (⟨k.val / 200, by omega⟩ : Fin 200) (⟨k.val % 200, by omega⟩ : Fin 200) f)

/-- The five features computed from a row that holds the batch's binning at cell `k` are the reference's five
    features of cell `k`. -/
theorem featOfRow_eq_featRef (pts : Pts) (b : Fin 16) (k : Fin 40000)
    (x0 : (⟨3, ![1, 5000, 5]⟩ : Shape).Idx → EReal) (r : Fin 5000)
    (hx : ∀ f : Fin 5, x0 (ix3 (0 : Fin 1) r f)
      = binK pts b f (⟨k.val / 200, by omega⟩ : Fin 200) (⟨k.val % 200, by omega⟩ : Fin 200)) :
    Cert.Value.Row.featOfRow x0 r = featRef pts b k := by
  funext f
  unfold Cert.Value.Row.featOfRow featRef
  by_cases hf : f.val < 4
  · have hc : (⟨f.val, hf⟩ : Fin 4).castSucc = f := Fin.ext rfl
    rw [if_pos hf, dif_pos hf, hx f, hx 4, sumFeat_eq_binK_of, count_eq_binK_of, hc]
  · rw [if_neg hf, dif_neg hf, hx 4, count_eq_binK_of]

end Cert.Value.Bin

end
-- ==== Proof.FrameKernelIdeal.Region1Value.lean ====
/- The value of region 1's body at the ideal (extended-real) values: what the kernel leaves in the output window's
   staging buffer, read at row `r` and feature `e`, is the layer norm of the row's two-layer perceptron (`RowSpec.rowOut`)
   of the input blocks. -/
import proofs.«113907_j39831526703842_2_alg».proof.Proof.Gen.KernelIdeal.Skeleton
import proofs.«113907_j39831526703842_2_alg».proof.Proof.FrameKernelIdeal.Region1
import proofs.«113907_j39831526703842_2_alg».proof.Proof.FrameKernelIdeal.RowSpec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## Three layout operations read at an index, for the shapes a row-wise reduction with kept dimensions makes -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) (u : Fin 1) :
    broadcastTo ⟨2, ![a, b]⟩ v h (ix2 p c) = v (ix2 p u) := by
  have hu : u = 0 := Fin.ext (by omega)
  subst hu
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two contractions and the row sum, read at an index -/

/-- A plain `m × k` by `k × n` product accumulated into a zero splat reads, at `(a, b)`, the sum over the contracted
    coordinate of the products of the entries. -/
theorem matmul_plain_zero_apply {m k n : ℕ} {φ₁ φ₂ : FTy} (D : DotDims ⟨2, ![m, k]⟩ ⟨2, ![k, n]⟩ ⟨2, ![m, n]⟩)
    (hD : D = DotDims.plain m k n) (A : FVec Ideal ⟨2, ![m, k]⟩ φ₁) (B : FVec Ideal ⟨2, ![k, n]⟩ φ₂) (a : Fin m) (b : Fin n) :
    matmul D none A B (constant ⟨2, ![m, n]⟩ .f32 0x00000000#32) (ix2 a b) = ∑ c : Fin k, A (ix2 a c) * B (ix2 c b) := by
  subst hD
  rw [matmul_zero_eq_dotGeneral]
  exact StackMember.dotGeneral_plain_apply none A B a b

/-- The sum along the rows of a `5000 × 96` array reads, at row `r`, the sum over the 96 features. -/
theorem rowSum_apply (src : FVec Ideal S5000x96 .f32) (hacc : (0x00000000#32 : BitVec 32) = 0x00000000#32) (r : Fin 5000) :
    multiReduction .add [1] S5000 src 0x00000000#32 reduces_S5000x96_S5000 (.inl rfl) hacc (ix1 r)
      = ∑ e : Fin 96, src (ix2 r e) := by
  refine (Ideal.multiReduction_add_single src 0x00000000#32 reduces_S5000x96_S5000 (.inl rfl) hacc (ix1 r)).trans ?_
  refine Finset.sum_congr rfl fun e _ => congrArg src ?_
  funext c
  apply Fin.ext
  rw [Shape.Reduces.lift_val]
  unfold Shape.Reduces.liftVal
  match c with
  | ⟨0, _⟩ => rfl
  | ⟨1, _⟩ => rfl

/-! ## The payloads as named stages -/

section Stages
variable (v0 : Vec Ideal S1x5000x5 .f32) (v9 : Vec Ideal S5x64 .f32) (v19 : Vec Ideal S64 .f32)
  (v26 : Vec Ideal S64x96 .f32) (v29 v49 v53 : Vec Ideal S96 .f32)

/-- The block of rows with its unit axis dropped. -/
def sfcV : FVec Ideal S5000x5 .f32 :=
  shapeCast S5000x5 (shapeCast S1x5000x5 v0 shapeCasts_S1x5000x5_S1x5000x5) shapeCasts_S1x5000x5_S5000x5

/-- The rows' counts, as a column. -/
def cntV : FVec Ideal S5000x1 .f32 := extractStridedSlice S5000x1 ![0, 4] (sfcV v0) slices_S5000x5_o0_4_S5000x1

/-- The rows' four means. -/
def meanV : FVec Ideal S5000x4 .f32 :=
  divf (extractStridedSlice S5000x4 ![0, 0] (sfcV v0) slices_S5000x5_o0_0_S5000x4)
    (broadcastTo S5000x4 (maximumf (cntV v0) (broadcast S5000x1 (Scalar.ofBits .f32 0x3F800000#32))) broadcasts_S5000x1_S5000x4)

/-- The first layer. -/
def hidV : FVec Ideal S5000x64 .f32 :=
  maximumf
    (addf
      (addf
        (matmul dot_S5000x4_S4x64_S5000x64_1_0_0_1_n_n none (truncf .bf16 (meanV v0) bitsLt_bf16_f32)
          (truncf .bf16 (extractStridedSlice S4x64 ![0, 0] v9 slices_S5x64_o0_0_S4x64) bitsLt_bf16_f32)
          (constant S5000x64 .f32 0x00000000#32))
        (mulf (broadcastTo S5000x64 (cntV v0) broadcasts_S5000x1_S5000x64)
          (broadcastTo S5000x64 (extractStridedSlice S1x64 ![4, 0] v9 slices_S5x64_o4_0_S1x64) broadcasts_S1x64_S5000x64)))
      (broadcastTo S5000x64 (shapeCast S1x64 v19 shapeCasts_S64_S1x64) broadcasts_S1x64_S5000x64))
    (broadcast S5000x64 (Scalar.ofBits .f32 0x00000000#32))

/-- The second layer. -/
def tokV : FVec Ideal S5000x96 .f32 :=
  addf
    (matmul dot_S5000x64_S64x96_S5000x96_1_0_0_1_n_n none (truncf .bf16 (hidV v0 v9 v19) bitsLt_bf16_f32)
      (truncf .bf16 v26 bitsLt_bf16_f32) (constant S5000x96 .f32 0x00000000#32))
    (broadcastTo S5000x96 (shapeCast S1x96 v29 shapeCasts_S96_S1x96) broadcasts_S1x96_S5000x96)

/-- The rows' means over the features, as a column. -/
def muV : FVec Ideal S5000x1 .f32 :=
  divf
    (shapeCast S5000x1 (multiReduction .add [1] S5000 (tokV v0 v9 v19 v26 v29) 0x00000000#32 reduces_S5000x96_S5000 (.inl rfl) rfl)
      shapeCasts_S5000_S5000x1)
    (broadcast S5000x1 (Scalar.ofBits .f32 0x42C00000#32))

/-- The first payload of the part is the second layer centred on its row means; -/
theorem pay2_eq : k1_pay2 v0 v9 v19 v26 v29
    = subf (tokV v0 v9 v19 v26 v29) (broadcastTo S5000x96 (muV v0 v9 v19 v26 v29) broadcasts_S5000x1_S5000x96) := rfl

/-- the second, the rows' sums of its squares, as a column. -/
theorem pay3_eq : k1_pay3 v0 v9 v19 v26 v29
    = shapeCast S5000x1
        (multiReduction .add [1] S5000 (mulf (k1_pay2 v0 v9 v19 v26 v29) (k1_pay2 v0 v9 v19 v26 v29)) 0x00000000#32
          reduces_S5000x96_S5000 (.inl rfl) rfl)
        shapeCasts_S5000_S5000x1 := rfl

/-- The stored payload: the centred layer over the root of the floored mean square, scaled and shifted. -/
theorem pay1_eq (v38 : FVec Ideal S5000x96 .f32) (v41 : FVec Ideal S5000x1 .f32) : k1_pay1 v38 v41 v49 v53
    = shapeCast S1x5000x96
        (addf
          (mulf
            (mulf v38
              (broadcastTo S5000x96
                (rsqrt (addf (divf v41 (broadcast S5000x1 (Scalar.ofBits .f32 0x42C00000#32)))
                  (broadcast S5000x1 (Scalar.ofBits .f32 0x3727C5AC#32))))
                broadcasts_S5000x1_S5000x96))
            (broadcastTo S5000x96 (shapeCast S1x96 v49 shapeCasts_S96_S1x96) broadcasts_S1x96_S5000x96))
          (broadcastTo S5000x96 (shapeCast S1x96 v53 shapeCasts_S96_S1x96) broadcasts_S1x96_S5000x96))
        shapeCasts_S5000x96_S1x5000x96 := rfl

/-! ## The stages read at a row -/

variable (r : Fin 5000)

theorem sfcV_apply (f : Fin 5) : sfcV v0 (ix2 r f) = v0 (ix3 0 r f) := by
  unfold sfcV
  rw [shapeCast_self]
  exact shapeCast_1ab_ab_apply v0 _ r f

theorem cntV_apply (u : Fin 1) : cntV v0 (ix2 r u) = RowSpec.cnt v0 r := by
  unfold cntV RowSpec.cnt
  exact (slice2_axis1_apply 4 (sfcV v0) slices_S5000x5_o0_4_S5000x1 r u (4 : Fin 5)
    (by have := u.isLt; show 4 = 4 + u.val; omega)).trans (sfcV_apply v0 r 4)

theorem meanV_apply (f : Fin 4) : meanV v0 (ix2 r f) = RowSpec.mean v0 r f := by
  have e1 : (extractStridedSlice S5000x4 ![0, 0] (sfcV v0) slices_S5000x5_o0_0_S5000x4) (ix2 r f) = v0 (ix3 0 r f.castSucc) :=
    (slice2_axis1_apply 0 (sfcV v0) slices_S5000x5_o0_0_S5000x4 r f f.castSucc
      (by show f.val = 0 + f.val; omega)).trans (sfcV_apply v0 r _)
  have e2 : (broadcastTo S5000x4 (maximumf (cntV v0) (broadcast S5000x1 (Scalar.ofBits .f32 0x3F800000#32))) broadcasts_S5000x1_S5000x4) (ix2 r f) = max (RowSpec.cnt v0 r) RowSpec.wOne :=
    (broadcastTo_a1_ab_apply _ broadcasts_S5000x1_S5000x4 r f 0).trans (by
      show max (cntV v0 (ix2 r 0)) _ = _
      rw [cntV_apply]; rfl)
  unfold meanV RowSpec.mean
  show Ideal.div _ _ = Ideal.div _ _
  rw [e1, e2]

theorem hidV_apply (j : Fin 64) : hidV v0 v9 v19 (ix2 r j) = RowSpec.hid v0 v9 v19 r j := by
  have m1 : (matmul dot_S5000x4_S4x64_S5000x64_1_0_0_1_n_n none (truncf .bf16 (meanV v0) bitsLt_bf16_f32)
          (truncf .bf16 (extractStridedSlice S4x64 ![0, 0] v9 slices_S5x64_o0_0_S4x64) bitsLt_bf16_f32)
          (constant S5000x64 .f32 0x00000000#32)) (ix2 r j) = ∑ f : Fin 4, RowSpec.mean v0 r f * v9 (ix2 f.castSucc j) := by
    refine (matmul_plain_zero_apply dot_S5000x4_S4x64_S5000x64_1_0_0_1_n_n rfl _ _ r j).trans
      (Finset.sum_congr rfl fun f _ => ?_)
    show meanV v0 (ix2 r f) * (extractStridedSlice S4x64 ![0, 0] v9 slices_S5x64_o0_0_S4x64) (ix2 f j) = _
    rw [meanV_apply, slice2_axis0_apply 0 v9 slices_S5x64_o0_0_S4x64 f j f.castSucc (by show f.val = 0 + f.val; omega)]
  have m2 : (broadcastTo S5000x64 (cntV v0) broadcasts_S5000x1_S5000x64) (ix2 r j) = RowSpec.cnt v0 r :=
    (broadcastTo_a1_ab_apply _ broadcasts_S5000x1_S5000x64 r j 0).trans (cntV_apply v0 r 0)
  have m3 : (broadcastTo S5000x64 (extractStridedSlice S1x64 ![4, 0] v9 slices_S5x64_o4_0_S1x64) broadcasts_S1x64_S5000x64) (ix2 r j) = v9 (ix2 4 j) :=
    (broadcastTo_1b_ab_apply _ broadcasts_S1x64_S5000x64 r j).trans
      (slice2_axis0_apply 4 v9 slices_S5x64_o4_0_S1x64 (0 : Fin 1) j (4 : Fin 5) (by rfl))
  have m4 : (broadcastTo S5000x64 (shapeCast S1x64 v19 shapeCasts_S64_S1x64) broadcasts_S1x64_S5000x64) (ix2 r j) = v19 (ix1 j) :=
    (broadcastTo_1b_ab_apply _ broadcasts_S1x64_S5000x64 r j).trans (shapeCast_a_1a_apply v19 shapeCasts_S64_S1x64 0 j)
  unfold hidV RowSpec.hid
  show max (_ + _ * _ + _) _ = max (_ + _ * _ + _) _
  rw [m1, m2, m3, m4]
  rfl

theorem tokV_apply (e : Fin 96) : tokV v0 v9 v19 v26 v29 (ix2 r e) = RowSpec.tok v0 v9 v19 v26 v29 r e := by
  have t1 : (matmul dot_S5000x64_S64x96_S5000x96_1_0_0_1_n_n none (truncf .bf16 (hidV v0 v9 v19) bitsLt_bf16_f32)
      (truncf .bf16 v26 bitsLt_bf16_f32) (constant S5000x96 .f32 0x00000000#32)) (ix2 r e) = ∑ j : Fin 64, RowSpec.hid v0 v9 v19 r j * v26 (ix2 j e) := by
    refine (matmul_plain_zero_apply dot_S5000x64_S64x96_S5000x96_1_0_0_1_n_n rfl _ _ r e).trans
      (Finset.sum_congr rfl fun j _ => ?_)
    show hidV v0 v9 v19 (ix2 r j) * v26 (ix2 j e) = _
    rw [hidV_apply]
  have t2 : (broadcastTo S5000x96 (shapeCast S1x96 v29 shapeCasts_S96_S1x96) broadcasts_S1x96_S5000x96) (ix2 r e) = v29 (ix1 e) :=
    (broadcastTo_1b_ab_apply _ broadcasts_S1x96_S5000x96 r e).trans (shapeCast_a_1a_apply v29 shapeCasts_S96_S1x96 0 e)
  unfold tokV RowSpec.tok
  show _ + _ = _ + _
  rw [t1, t2]

theorem muV_apply (u : Fin 1) : muV v0 v9 v19 v26 v29 (ix2 r u) = RowSpec.mu v0 v9 v19 v26 v29 r := by
  have s1 : shapeCast S5000x1 (multiReduction .add [1] S5000 (tokV v0 v9 v19 v26 v29) 0x00000000#32 reduces_S5000x96_S5000 (.inl rfl) rfl) shapeCasts_S5000_S5000x1 (ix2 r u)
      = ∑ e : Fin 96, RowSpec.tok v0 v9 v19 v26 v29 r e :=
    (shapeCast_a_a1_apply _ shapeCasts_S5000_S5000x1 r u).trans
      ((rowSum_apply _ rfl r).trans (Finset.sum_congr rfl fun e _ => tokV_apply v0 v9 v19 v26 v29 r e))
  unfold muV RowSpec.mu
  show Ideal.div _ _ = Ideal.div _ _
  rw [s1]
  rfl

theorem pay2_apply (e : Fin 96) : k1_pay2 v0 v9 v19 v26 v29 (ix2 r e) = RowSpec.dev v0 v9 v19 v26 v29 r e := by
  rw [pay2_eq]
  unfold RowSpec.dev
  show _ - _ = _ - _
  rw [tokV_apply, broadcastTo_a1_ab_apply (muV v0 v9 v19 v26 v29) broadcasts_S5000x1_S5000x96 r e 0, muV_apply]

theorem pay3_apply (u : Fin 1) : k1_pay3 v0 v9 v19 v26 v29 (ix2 r u)
    = ∑ e : Fin 96, RowSpec.dev v0 v9 v19 v26 v29 r e * RowSpec.dev v0 v9 v19 v26 v29 r e := by
  rw [pay3_eq]
  refine (shapeCast_a_a1_apply _ shapeCasts_S5000_S5000x1 r u).trans
    ((rowSum_apply _ rfl r).trans (Finset.sum_congr rfl fun e _ => ?_))
  show k1_pay2 v0 v9 v19 v26 v29 (ix2 r e) * k1_pay2 v0 v9 v19 v26 v29 (ix2 r e) = _
  rw [pay2_apply]

/-- THE STORED PAYLOAD AT A ROW: at row `r` and feature `e` it is the layer norm of the row's perceptron. -/
theorem pay1_apply (u : Fin 1) (e : Fin 96) :
    k1_pay1 (k1_pay2 v0 v9 v19 v26 v29) (k1_pay3 v0 v9 v19 v26 v29) v49 v53 (ix3 u r e) = RowSpec.rowOut v0 v9 v19 v26 v29 v49 v53 r e := by
  have q1 : (broadcastTo S5000x96
                (rsqrt (addf (divf (k1_pay3 v0 v9 v19 v26 v29) (broadcast S5000x1 (Scalar.ofBits .f32 0x42C00000#32)))
                  (broadcast S5000x1 (Scalar.ofBits .f32 0x3727C5AC#32))))
                broadcasts_S5000x1_S5000x96) (ix2 r e)
      = Ideal.rsqrt (RowSpec.var v0 v9 v19 v26 v29 r + RowSpec.wEps) :=
    (broadcastTo_a1_ab_apply _ broadcasts_S5000x1_S5000x96 r e 0).trans (by
      show Ideal.rsqrt (Ideal.div (k1_pay3 v0 v9 v19 v26 v29 (ix2 r 0)) _ + _) = _
      rw [pay3_apply]; rfl)
  have q2 : (broadcastTo S5000x96 (shapeCast S1x96 v49 shapeCasts_S96_S1x96) broadcasts_S1x96_S5000x96) (ix2 r e) = v49 (ix1 e) :=
    (broadcastTo_1b_ab_apply _ broadcasts_S1x96_S5000x96 r e).trans (shapeCast_a_1a_apply v49 shapeCasts_S96_S1x96 0 e)
  have q3 : (broadcastTo S5000x96 (shapeCast S1x96 v53 shapeCasts_S96_S1x96) broadcasts_S1x96_S5000x96) (ix2 r e) = v53 (ix1 e) :=
    (broadcastTo_1b_ab_apply _ broadcasts_S1x96_S5000x96 r e).trans (shapeCast_a_1a_apply v53 shapeCasts_S96_S1x96 0 e)
  rw [pay1_eq]
  refine (shapeCast_ab_1ab_apply _ shapeCasts_S5000x96_S1x5000x96 u r e).trans ?_
  unfold RowSpec.rowOut
  show _ * _ * _ + _ = _ * _ * _ + _
  rw [pay2_apply, q1, q2, q3]

end Stages

/-! ## The output window's buffer after the body, at a row -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- What the body leaves in the output window's staging buffer is its one store's payload of the input blocks, every
    load and the store being of whole buffers. -/
theorem out1_7_eq_payload (x0 : Vec Ideal S1x5000x5 .f32) (x1 : Vec Ideal S5x64 .f32) (x2 : Vec Ideal S64 .f32)
    (x3 : Vec Ideal S64x96 .f32) (x4 x5 x6 : Vec Ideal S96 .f32) :
    out1_7 x0 x1 x2 x3 x4 x5 x6 = k1_pay1 (k1_pay2 x0 x1 x2 x3 x4) (k1_pay3 x0 x1 x2 x3 x4) x5 x6 := by
  unfold out1_7
  rw [View.canon_unit_zero zeros3]
  simp only [View.ld_unit_zero (S := S1x5000x5) zeros3, View.ld_unit_zero (S := S5x64) zeros2,
    View.ld_unit_zero (S := S64) zeros1, View.ld_unit_zero (S := S64x96) zeros2, View.ld_unit_zero (S := S96) zeros1]

/-- THE VALUE OF REGION 1'S BODY: at row `r` and feature `e` of the block, the output window's staging buffer holds the
    layer norm of the two-layer perceptron of row `r` of the first input block, with the six parameter blocks. -/
theorem out1_7_apply (x0 : Vec Ideal S1x5000x5 .f32) (x1 : Vec Ideal S5x64 .f32) (x2 : Vec Ideal S64 .f32)
    (x3 : Vec Ideal S64x96 .f32) (x4 x5 x6 : Vec Ideal S96 .f32) (u : Fin 1) (r : Fin 5000) (e : Fin 96) :
    out1_7 x0 x1 x2 x3 x4 x5 x6 (ix3 u r e) = RowSpec.rowOut x0 x1 x2 x3 x4 x5 x6 r e := by
  rw [out1_7_eq_payload]
  exact pay1_apply x0 x1 x2 x3 x4 x5 x6 r u e

end Cert.KernelIdeal.Hand

end
-- ==== Proof.FrameKernelIdeal.Region1Final.lean ====
/- Region 1 from blocks to the array, at the ideal values: what the pipeline leaves in the output array of region 1 is,
   row by row, the layer norm of the two-layer perceptron (`RowSpec.rowOut`) of that row of the first operand's array as
   the region finds it, with the six parameter arrays as the region finds them. -/
import proofs.«113907_j39831526703842_2_alg».proof.Proof.FrameKernelIdeal.Region1Value
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The row function reads its block at one row only -/

/-- `RowSpec.rowOut` depends on the block and the row only through the row's five features. -/
theorem rowOut_congr {x0 x0' : (⟨3, ![1, 5000, 5]⟩ : Shape).Idx → EReal} {r r' : Fin 5000}
    (h : ∀ f : Fin 5, x0 (ix3 0 r f) = x0' (ix3 0 r' f))
    (x1 : (⟨2, ![5, 64]⟩ : Shape).Idx → EReal) (x2 : (⟨1, ![64]⟩ : Shape).Idx → EReal)
    (x3 : (⟨2, ![64, 96]⟩ : Shape).Idx → EReal) (x4 x5 x6 : (⟨1, ![96]⟩ : Shape).Idx → EReal) (e : Fin 96) :
    RowSpec.rowOut x0 x1 x2 x3 x4 x5 x6 r e = RowSpec.rowOut x0' x1 x2 x3 x4 x5 x6 r' e := by
  unfold RowSpec.rowOut RowSpec.var RowSpec.dev RowSpec.mu RowSpec.tok RowSpec.hid RowSpec.mean RowSpec.cnt
  simp only [h]

/-! ## The output array as one function of the operand arrays -/

section Whole
variable (sfc : (⟨3, ![16, 40000, 5]⟩ : Shape).Idx → EReal) (w1 : (⟨2, ![5, 64]⟩ : Shape).Idx → EReal)
  (b1 : (⟨1, ![64]⟩ : Shape).Idx → EReal) (w2 : (⟨2, ![64, 96]⟩ : Shape).Idx → EReal)
  (b2 g be : (⟨1, ![96]⟩ : Shape).Idx → EReal)

/-- Row `n` of batch `b` of the first operand, as a block of one meaningful row: every row of it reads that row. -/
def rowBlock (b : Fin 16) (n : Fin 40000) : (⟨3, ![1, 5000, 5]⟩ : Shape).Idx → EReal := fun y => sfc (ix3 b n (y 2))

/-- The result at batch `b`, row `n`, feature `e`: the row function of that row. -/
def rowOutAt (b : Fin 16) (n : Fin 40000) (e : Fin 96) : EReal :=
  RowSpec.rowOut (rowBlock sfc b n) w1 b1 w2 b2 g be 0 e

/-- The whole output array of region 1. -/
def G1 : S16x40000x96.Idx → EReal := fun i =>
  rowOutAt sfc w1 b1 w2 b2 g be ⟨(i 0).val, (i 0).isLt⟩ ⟨(i 1).val, (i 1).isLt⟩ ⟨(i 2).val, (i 2).isLt⟩

theorem G1_ix3 (b : Fin 16) (n : Fin 40000) (e : Fin 96) :
    G1 sfc w1 b1 w2 b2 g be (ix3 b n e) = rowOutAt sfc w1 b1 w2 b2 g be b n e := rfl

/-- The array at an index whose coordinates are known by value. -/
theorem G1_of_val (i : S16x40000x96.Idx) (b : Fin 16) (n : Fin 40000) (e : Fin 96)
    (h0 : (i 0).val = b.val) (h1 : (i 1).val = n.val) (h2 : (i 2).val = e.val) :
    G1 sfc w1 b1 w2 b2 g be i = rowOutAt sfc w1 b1 w2 b2 g be b n e := by
  unfold G1
  congr 1 <;> exact Fin.ext ‹_›

end Whole

/-! ## The printed index maps over the grid -/

/-- Decided over the 128 points: the first operand's window moves with the output's on the batch and row-block axes,
    both sit at feature block 0, the output's block indices stay in range, and every parameter window sits at block 0. -/
theorem idx_facts1 : ∀ t : Fin cfg1.N,
    win1_0.index t (0 : Fin 3) = win1_7.index t (0 : Fin 3) ∧ win1_0.index t (1 : Fin 3) = win1_7.index t (1 : Fin 3)
    ∧ win1_0.index t (2 : Fin 3) = 0 ∧ win1_7.index t (2 : Fin 3) = 0
    ∧ win1_7.index t (0 : Fin 3) ≤ 15 ∧ win1_7.index t (1 : Fin 3) ≤ 7
    ∧ win1_1.index t (0 : Fin 2) = 0 ∧ win1_1.index t (1 : Fin 2) = 0 ∧ win1_2.index t (0 : Fin 1) = 0
    ∧ win1_3.index t (0 : Fin 2) = 0 ∧ win1_3.index t (1 : Fin 2) = 0 ∧ win1_4.index t (0 : Fin 1) = 0
    ∧ win1_5.index t (0 : Fin 1) = 0 ∧ win1_6.index t (0 : Fin 1) = 0 :=
  (by decide +kernel : ∀ t : Fin grid1.N, _)

/-- Every block of the output array is some point's. -/
theorem idx_onto1 : ∀ (q0 : Fin 16) (q1 : Fin 8), ∃ t : Fin cfg1.N, win1_7.index t = ![q0.val, q1.val, 0] :=
  (by decide +kernel : ∀ (q0 : Fin 16) (q1 : Fin 8), ∃ t : Fin grid1.N, win1_7.index t = ![q0.val, q1.val, 0])

/-! ## The input windows' blocks, read off the arrays -/

section Blocks
variable (V : (c : Dev nD) → (b : Ref sig .tc) → Buf (Elt Ideal) ((c : Thread nD τ).loc b))

/-- Each parameter window's one block is its whole array. -/
theorem iblk1_1 (c : Dev nD) (t : Fin cfg1.N) : iblk1 V c 1 t = V c main_arg1 := by
  obtain ⟨-, -, -, -, -, -, e0, e1, -⟩ := idx_facts1 t
  funext y
  show V c main_arg1 (((cfg1.win 1).blk t).view.emb y) = V c main_arg1 y
  refine congrArg _ (funext fun a => Fin.ext ?_)
  match a with
  | ⟨0, _⟩ => show win1_1.index t (0 : Fin 2) * 5 + 1 * (y 0).val = (y 0).val; omega
  | ⟨1, _⟩ => show win1_1.index t (1 : Fin 2) * 64 + 1 * (y 1).val = (y 1).val; omega

theorem iblk1_2 (c : Dev nD) (t : Fin cfg1.N) : iblk1 V c 2 t = V c main_arg2 := by
  obtain ⟨-, -, -, -, -, -, -, -, e0, -⟩ := idx_facts1 t
  funext y
  show V c main_arg2 (((cfg1.win 2).blk t).view.emb y) = V c main_arg2 y
  refine congrArg _ (funext fun a => Fin.ext ?_)
  match a with
  | ⟨0, _⟩ => show win1_2.index t (0 : Fin 1) * 64 + 1 * (y 0).val = (y 0).val; omega

theorem iblk1_3 (c : Dev nD) (t : Fin cfg1.N) : iblk1 V c 3 t = V c main_arg3 := by
  obtain ⟨-, -, -, -, -, -, -, -, -, e0, e1, -⟩ := idx_facts1 t
  funext y
  show V c main_arg3 (((cfg1.win 3).blk t).view.emb y) = V c main_arg3 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 96 + 1 * (y 1).val = (y 1).val; omega

theorem iblk1_4 (c : Dev nD) (t : Fin cfg1.N) : iblk1 V c 4 t = V c main_arg4 := by
  obtain ⟨-, -, -, -, -, -, -, -, -, -, -, e0, -⟩ := idx_facts1 t
  funext y
  show V c main_arg4 (((cfg1.win 4).blk t).view.emb y) = V c main_arg4 y
  refine congrArg _ (funext fun a => Fin.ext ?_)
  match a with
  | ⟨0, _⟩ => show win1_4.index t (0 : Fin 1) * 96 + 1 * (y 0).val = (y 0).val; omega

theorem iblk1_5 (c : Dev nD) (t : Fin cfg1.N) : iblk1 V c 5 t = V c main_arg5 := by
  obtain ⟨-, -, -, -, -, -, -, -, -, -, -, -, e0, -⟩ := idx_facts1 t
  funext y
  show V c main_arg5 (((cfg1.win 5).blk t).view.emb y) = V c main_arg5 y
  refine congrArg _ (funext fun a => Fin.ext ?_)
  match a with
  | ⟨0, _⟩ => show win1_5.index t (0 : Fin 1) * 96 + 1 * (y 0).val = (y 0).val; omega

theorem iblk1_6 (c : Dev nD) (t : Fin cfg1.N) : iblk1 V c 6 t = V c main_arg6 := by
  obtain ⟨-, -, -, -, -, -, -, -, -, -, -, -, -, e0⟩ := idx_facts1 t
  funext y
  show V c main_arg6 (((cfg1.win 6).blk t).view.emb y) = V c main_arg6 y
  refine congrArg _ (funext fun a => Fin.ext ?_)
  match a with
  | ⟨0, _⟩ => show win1_6.index t (0 : Fin 1) * 96 + 1 * (y 0).val = (y 0).val; omega

/-- Row `r` of the first operand's block at point `t` is the row of the array the output's block at `t` puts there:
    batch and row block are the output's, the row inside the block is `r`. -/
theorem iblk1_0_row (c : Dev nD) (t : Fin cfg1.N) (r : Fin 5000) (f : Fin 5) (b : Fin 16) (n : Fin 40000)
    (hb : b.val = win1_7.index t (0 : Fin 3)) (hn : n.val = win1_7.index t (1 : Fin 3) * 5000 + r.val) :
    iblk1 V c 0 t (ix3 0 r f) = V c main_v2 (ix3 b n f) := by
  obtain ⟨e0, e1, e2, -⟩ := idx_facts1 t
  show V c main_v2 (((cfg1.win 0).blk t).view.emb (ix3 0 r f)) = V c main_v2 (ix3 b n f)
  refine congrArg _ (funext fun a => Fin.ext ?_)
  match a with
  | ⟨0, _⟩ => show win1_0.index t (0 : Fin 3) * 1 + 1 * 0 = b.val; omega
  | ⟨1, _⟩ => show win1_0.index t (1 : Fin 3) * 5000 + 1 * r.val = n.val; omega
  | ⟨2, _⟩ => show win1_0.index t (2 : Fin 3) * 5 + 1 * f.val = f.val; omega

/-! ## What a point writes back -/

/-- WHAT POINT `t` WRITES BACK to the output array is block `t` of `G1` of the operand arrays as the region finds them. -/
theorem flushed1_7_eq (c : Dev nD) (t : Fin cfg1.N) :
    (dat1 V c).flushed 7 t = ((cfg1.win 7).blk t).view.read (Elt Ideal)
      (G1 (V c main_v2) (V c main_arg1) (V c main_arg2) (V c main_arg3) (V c main_arg4) (V c main_arg5) (V c main_arg6)) := by
  show (cfg1.win 7).cut (grid1.coords t) ((dat1 V c).after 7 t) = _
  rw [after1_7, iblk1_1, iblk1_2, iblk1_3, iblk1_4, iblk1_5, iblk1_6]
  obtain ⟨-, -, -, e3, e4, e5, -⟩ := idx_facts1 t
  funext j
  show out1_7 (iblk1 V c 0 t) (V c main_arg1) (V c main_arg2) (V c main_arg3) (V c main_arg4) (V c main_arg5) (V c main_arg6) j
    = G1 (V c main_v2) (V c main_arg1) (V c main_arg2) (V c main_arg3) (V c main_arg4) (V c main_arg5) (V c main_arg6)
        (((cfg1.win 7).blk t).view.emb j)
  obtain ⟨u, r, e, rfl⟩ : ∃ (u : Fin 1) (r : Fin 5000) (e : Fin 96), j = ix3 u r e := ⟨j 0, j 1, j 2, eq_ix3 j⟩
  have hu : u.val = 0 := by omega
  rw [out1_7_apply]
  have hb : win1_7.index t (0 : Fin 3) * 1 + 1 * u.val < 16 := by omega
  have hn : win1_7.index t (1 : Fin 3) * 5000 + 1 * r.val < 40000 := by have := r.isLt; omega
  rw [G1_of_val _ _ _ _ _ _ _ _ ⟨_, hb⟩ ⟨_, hn⟩ e rfl rfl
    (by show win1_7.index t (2 : Fin 3) * 96 + 1 * e.val = e.val; omega)]
  unfold rowOutAt
  refine rowOut_congr (fun f => ?_) _ _ _ _ _ _ e
  exact iblk1_0_row V c t r f _ _ (by show _ * 1 + 1 * u.val = _; omega) (by show _ * 5000 + 1 * r.val = _; omega)

/-! ## The cover and the final array -/

/-- An index of the output array is in point `t`'s block iff each coordinate is in the block's range on its axis. -/
theorem mem_blk1_7 (t : Fin cfg1.N) (i : S16x40000x96.Idx) :
    i ∈ ((cfg1.win 7).blk t).view.set ↔ ∀ a : Fin 3, win1_7.index t a * S1x5000x96.size a ≤ (i a).val
      ∧ (i a).val < win1_7.index t a * S1x5000x96.size a + S1x5000x96.size a := by
  show i ∈ ((View.whole main_v3).slice (win1_7.rect t)).set ↔ _
  rw [View.set_slice_whole, Rect.mem_set_unit]
  exact Iff.rfl

/-- Every index of the output array is in the block of the point at its batch and its row block. -/
theorem cover1_7_array (i : S16x40000x96.Idx) :
    ∃ t : Fin cfg1.N, (cfg1.win 7).flush t = true ∧ i ∈ ((cfg1.win 7).blk t).view.set := by
  have hi0 : (i 0).val < 16 := (i 0).isLt
  have hi1 : (i 1).val < 40000 := (i 1).isLt
  have hi2 : (i 2).val < 96 := (i 2).isLt
  obtain ⟨t, ht⟩ := idx_onto1 ⟨(i 0).val, hi0⟩ ⟨(i 1).val / 5000, by omega⟩
  have q0 : win1_7.index t (0 : Fin 3) = (i 0).val := congrFun ht 0
  have q1 : win1_7.index t (1 : Fin 3) = (i 1).val / 5000 := congrFun ht 1
  have q2 : win1_7.index t (2 : Fin 3) = 0 := congrFun ht 2
  refine ⟨t, flush1_7 t, ?_⟩
  rw [mem_blk1_7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 5000 ≤ (i 1).val ∧ (i 1).val < win1_7.index t (1 : Fin 3) * 5000 + 5000; omega
  | ⟨2, _⟩ => show win1_7.index t (2 : Fin 3) * 96 ≤ (i 2).val ∧ (i 2).val < win1_7.index t (2 : Fin 3) * 96 + 96; omega

/-- THE OUTPUT ARRAY OF REGION 1 after the pipeline: `G1` of the operand arrays as the region finds them. -/
theorem final1 (c : Dev nD) :
    (dat1 V c).arrAt 7 cfg1.N
      = G1 (V c main_v2) (V c main_arg1) (V c main_arg2) (V c main_arg3) (V c main_arg4) (V c main_arg5) (V c main_arg6) :=
  (dat1 V c).arrAt_eq_of_cover 7 _ (fun t _ => flushed1_7_eq V c t) cover1_7_array

end Blocks

end Cert.KernelIdeal.Hand

end
-- ==== Proof.Value.KernelValue.lean ====
/-
  Entry (b, k, e) of the idealized kernel's result, on real inputs, is the reference's row function of the five
  features of cell k of batch b: the second region's row function agrees with the reference's on real rows, and
  the row it is handed is the binning of the cell, which is what the reference's segment sums compute.
-/
import proofs.«113907_j39831526703842_2_alg».proof.Defs
import proofs.«113907_j39831526703842_2_alg».proof.Proof.Value.KernelRun
import proofs.«113907_j39831526703842_2_alg».proof.Proof.Value.FiniteArgs
import proofs.«113907_j39831526703842_2_alg».proof.Proof.Value.FeatBridge
import proofs.«113907_j39831526703842_2_alg».proof.Proof.Value.RowBridge
import proofs.«113907_j39831526703842_2_alg».proof.Proof.FrameKernelIdeal.Region1Final

set_option maxRecDepth 16384

noncomputable section

namespace Cert.Value.Final

open Idealize.ShloMosaic Idealize.ShloMosaic.TcCoe Idealize.SL.Sem
open Idealize.ShloMosaic.ValueIdx
open Cert.KernelIdeal Cert.KernelIdeal.Gen Cert.KernelIdeal.Hand
open Cert.Value.Glue Cert.Value.Fin

variable (m : (ℓ : Loc nD τ sig) → Buf (Elt Ideal) ℓ) (ρ : Dev nD → PrngReg)

theorem kernel_value_at (c : Dev nD)
    (h0 : AllReal (m ((c : Thread nD τ).loc main_arg0))) (h1 : AllReal (m ((c : Thread nD τ).loc main_arg1)))
    (h2 : AllReal (m ((c : Thread nD τ).loc main_arg2))) (h3 : AllReal (m ((c : Thread nD τ).loc main_arg3)))
    (h4 : AllReal (m ((c : Thread nD τ).loc main_arg4))) (b : Fin 16) (k : Fin 40000) (e : Fin 96) :
    (dat1 (V3 m ρ) c).arrAt 7 cfg1.N (ix3 b k e)
      = Cert.Value.RefSpec.refRow (Cert.Value.RefSpec.featRef (m ((c : Thread nD τ).loc main_arg0)) b k) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) e := by
  rw [final1 (V3 m ρ) c, V3_main_arg1, V3_main_arg2, V3_main_arg3, V3_main_arg4, V3_main_arg5, V3_main_arg6]
  show Cert.RowSpec.rowOut (rowBlock (V3 m ρ c main_v2) b k) _ _ _ _ _ _ 0 e = _
  refine (Cert.Value.Row.rowOut_eq_refRow (rowBlock (V3 m ρ c main_v2) b k) _ _ _ _ _ _ 0
    (fun i => (Cert.Value.Bin.binK_real (m ((c : Thread nD τ).loc main_arg0)) h0 b (i 2) _ _).elim
      fun r hr => ⟨r, (sfc_apply m ρ c b k (i 2)).trans hr⟩)
    (fun i => h1 i) (fun i => h2 i) (fun i => h3 i) (fun i => h4 i) e).trans ?_
  exact congrArg (fun ft => Cert.Value.RefSpec.refRow ft _ _ _ _ _ _ e)
    (Cert.Value.Bin.featOfRow_eq_featRef (m ((c : Thread nD τ).loc main_arg0)) b k _ 0 (fun f => sfc_apply m ρ c b k f))

end Cert.Value.Final

end
-- ==== Proof.Value.RefReadTail.lean ====
/-
  The reference's result read at an index, second half: the perceptron and the layer normalisation.

  Entry (b, k, e) of the result is the row function of the five features the reference holds for cell k of
  batch b: the two contractions read as finite sums, the broadcasts of the biases, of the scale and of the shift read
  at their one coordinate, the two means as sums over the 96 outputs divided by 96.
-/
import proofs.«113907_j39831526703842_2_alg».proof.Proof.Gen.ReferenceIdeal.Read
import proofs.«113907_j39831526703842_2_alg».proof.Proof.Value.RefSpec

noncomputable section

namespace Cert.Value.RefRead

open Idealize.ShloMosaic Idealize.ShloMosaic.ValueIdx Idealize.ShloMosaic.StableHlo
open Cert.ReferenceIdeal Cert.ReferenceIdeal.Read Cert.Value.RefSpec
open scoped BigOperators

section
variable (x0 : (⟨S16x200000x4, .f32⟩ : BufTy).Contents (Elt Ideal)) (x1 : (⟨S5x64, .f32⟩ : BufTy).Contents (Elt Ideal))
  (x2 : (⟨S64, .f32⟩ : BufTy).Contents (Elt Ideal)) (x3 : (⟨S64x96, .f32⟩ : BufTy).Contents (Elt Ideal))
  (x4 x5 x6 : (⟨S96, .f32⟩ : BufTy).Contents (Elt Ideal))

/-- The five features the reference holds for cell k of batch b. -/
def feat56 (b : Fin 16) (k : Fin 40000) : Fin 5 → EReal := fun f => val_main_v56 (F := Ideal) x0 (ix3 b k f)

/-- The hidden layer before the rectifier, at (b, k, j). -/
theorem v60_at (b : Fin 16) (k : Fin 40000) (j : Fin 64) :
    val_main_v60 (F := Ideal) x0 x1 x2 (ix3 b k j)
      = (∑ f : Fin 5, feat56 x0 b k f * x1 (ix2 f j)) + x2 (ix1 j) := by
  rw [val_main_v60_apply, val_main_v57_apply, val_main_v59_apply, val_main_v58_apply]
  have e1 : ∀ f : Fin 5, lidx_main_v57 (ix3 b k j) f = ix3 b k f := fun f =>
    funext fun a => by match a with | ⟨0, _⟩ => rfl | ⟨1, _⟩ => rfl | ⟨2, _⟩ => rfl
  have e2 : ∀ f : Fin 5, ridx_main_v57 (ix3 b k j) f = ix2 f j := fun f =>
    funext fun a => by match a with | ⟨0, _⟩ => rfl | ⟨1, _⟩ => rfl
  have e3 : idx_main_v58 (idx_main_v59 (ix3 b k j)) = ix1 j :=
    funext fun a => by match a with | ⟨0, _⟩ => rfl
  simp only [e1, e2, e3, Ideal.addf_def]
  rfl

/-- The hidden layer at (b, k, j). -/
theorem v61_at (b : Fin 16) (k : Fin 40000) (j : Fin 64) :
    val_main_v61 (F := Ideal) x0 x1 x2 (ix3 b k j) = hid (feat56 x0 b k) x1 x2 j := by
  rw [val_main_v61_apply, v60_at, val_main_call1_v0_apply, val_main_call1_cst_apply]
  simp only [Ideal.maximumf_def, Ideal.ofBits_def, Ideal.ofBits_zero_f32]
  rfl

/-- The output before normalisation at (b, k, e). -/
theorem v65_at (b : Fin 16) (k : Fin 40000) (e : Fin 96) :
    val_main_v65 (F := Ideal) x0 x1 x2 x3 x4 (ix3 b k e) = tok (feat56 x0 b k) x1 x2 x3 x4 e := by
  rw [val_main_v65_apply, val_main_v62_apply, val_main_v64_apply, val_main_v63_apply]
  have e1 : ∀ j : Fin 64, lidx_main_v62 (ix3 b k e) j = ix3 b k j := fun j =>
    funext fun a => by match a with | ⟨0, _⟩ => rfl | ⟨1, _⟩ => rfl | ⟨2, _⟩ => rfl
  have e2 : ∀ j : Fin 64, ridx_main_v62 (ix3 b k e) j = ix2 j e := fun j =>
    funext fun a => by match a with | ⟨0, _⟩ => rfl | ⟨1, _⟩ => rfl
  have e3 : idx_main_v63 (idx_main_v64 (ix3 b k e)) = ix1 e :=
    funext fun a => by match a with | ⟨0, _⟩ => rfl
  simp only [e1, e2, e3, Ideal.addf_def, v61_at]
  rfl

/-- The mean of the outputs of row (b, k). -/
theorem v69_at (b : Fin 16) (k : Fin 40000) (z : Fin 1) :
    val_main_v69 (F := Ideal) x0 x1 x2 x3 x4 (ix3 b k z) = mu (tok (feat56 x0 b k) x1 x2 x3 x4) := by
  rw [val_main_v69_apply, val_main_v67_apply, val_main_v66_apply, val_main_cst_12_apply, val_main_v68_apply,
    val_main_cst_13_apply]
  have e1 : ∀ e : Fin 96, idx_main_v66 (idx_main_v67 (ix3 b k z)) e = ix3 b k e := fun e =>
    funext fun a => by match a with | ⟨0, _⟩ => rfl | ⟨1, _⟩ => rfl | ⟨2, _⟩ => rfl
  simp only [e1, v65_at, Ideal.hostDivf_def, Ideal.ofBits_def, Ideal.ofBits_zero_f32, zero_add]
  rfl

/-- The centred output at (b, k, e), as the variance reads it. -/
theorem v71_at (b : Fin 16) (k : Fin 40000) (e : Fin 96) :
    val_main_v71 (F := Ideal) x0 x1 x2 x3 x4 (ix3 b k e)
      = tok (feat56 x0 b k) x1 x2 x3 x4 e - mu (tok (feat56 x0 b k) x1 x2 x3 x4) := by
  rw [val_main_v71_apply, val_main_v70_apply, v65_at]
  have e1 : idx_main_v70 (ix3 b k e) = ix3 b k (0 : Fin 1) :=
    funext fun a => by match a with | ⟨0, _⟩ => rfl | ⟨1, _⟩ => rfl | ⟨2, _⟩ => rfl
  rw [e1, v69_at]
  rfl

/-- The squared deviation at (b, k, e). -/
theorem v72_at (b : Fin 16) (k : Fin 40000) (e : Fin 96) :
    val_main_v72 (F := Ideal) x0 x1 x2 x3 x4 (ix3 b k e)
      = (tok (feat56 x0 b k) x1 x2 x3 x4 e - mu (tok (feat56 x0 b k) x1 x2 x3 x4))
        * (tok (feat56 x0 b k) x1 x2 x3 x4 e - mu (tok (feat56 x0 b k) x1 x2 x3 x4)) := by
  rw [val_main_v72_apply, v71_at]
  rfl

/-- The sum of the squared deviations of row (b, k). -/
theorem v73_at (b : Fin 16) (k : Fin 40000) :
    val_main_v73 (F := Ideal) x0 x1 x2 x3 x4 (ix2 b k)
      = ∑ e : Fin 96, (tok (feat56 x0 b k) x1 x2 x3 x4 e - mu (tok (feat56 x0 b k) x1 x2 x3 x4))
          * (tok (feat56 x0 b k) x1 x2 x3 x4 e - mu (tok (feat56 x0 b k) x1 x2 x3 x4)) := by
  rw [val_main_v73_apply, val_main_cst_14_apply, Ideal.ofBits_def, Ideal.ofBits_zero_f32, zero_add]
  refine Finset.sum_congr rfl fun e _ => ?_
  have e1 : idx_main_v73 (ix2 b k) e = ix3 b k e :=
    funext fun a => by match a with | ⟨0, _⟩ => rfl | ⟨1, _⟩ => rfl | ⟨2, _⟩ => rfl
  rw [e1, v72_at]

/-- The variance of the outputs of row (b, k). -/
theorem v76_at (b : Fin 16) (k : Fin 40000) (z : Fin 1) :
    val_main_v76 (F := Ideal) x0 x1 x2 x3 x4 (ix3 b k z) = var (tok (feat56 x0 b k) x1 x2 x3 x4) := by
  rw [val_main_v76_apply, val_main_v74_apply, val_main_v75_apply, val_main_cst_15_apply]
  have e1 : idx_main_v74 (ix3 b k z) = ix2 b k :=
    funext fun a => by match a with | ⟨0, _⟩ => rfl | ⟨1, _⟩ => rfl
  rw [e1, v73_at]
  rfl

/-- **The result at (b, k, e)** is the row function of the five features of cell k of batch b. -/
theorem v89_tail (b : Fin 16) (k : Fin 40000) (e : Fin 96) :
    val_main_v89 (F := Ideal) x0 x1 x2 x3 x4 x5 x6 (ix3 b k e) = refRow (feat56 x0 b k) x1 x2 x3 x4 x5 x6 e := by
  rw [val_main_v89_apply, val_main_v86_apply, val_main_v83_apply, val_main_v78_apply, val_main_v77_apply,
    val_main_v82_apply, val_main_v81_apply, val_main_v80_apply, val_main_v79_apply, val_main_cst_16_apply,
    val_main_v85_apply, val_main_v84_apply, val_main_v88_apply, val_main_v87_apply, v65_at]
  have e1 : idx_main_v77 (ix3 b k e) = ix3 b k (0 : Fin 1) :=
    funext fun a => by match a with | ⟨0, _⟩ => rfl | ⟨1, _⟩ => rfl | ⟨2, _⟩ => rfl
  have e2 : idx_main_v82 (ix3 b k e) = ix3 b k (0 : Fin 1) :=
    funext fun a => by match a with | ⟨0, _⟩ => rfl | ⟨1, _⟩ => rfl | ⟨2, _⟩ => rfl
  have e3 : idx_main_v84 (idx_main_v85 (ix3 b k e)) = ix1 e :=
    funext fun a => by match a with | ⟨0, _⟩ => rfl
  have e4 : idx_main_v87 (idx_main_v88 (ix3 b k e)) = ix1 e :=
    funext fun a => by match a with | ⟨0, _⟩ => rfl
  rw [e1, e2, e3, e4, v69_at, v76_at]
  simp only [Ideal.hostDivf_def, Ideal.hostUnary_sqrt_def, Ideal.addf_def, Ideal.subf_def, Ideal.mulf_def, Ideal.ofBits_def]
  rfl

end

end Cert.Value.RefRead

end
-- ==== Proof.Value.RefReadWords.lean ====
/-
  The reference's per-point values read at a point: the two cell words, the validity bit and its number, the flat
  word, and the masked features, each as the program-free definition of the same name; the reshapes between the
  (batch, point) grid and the flat list of 3200000 points read at point n + 200000 · b.
-/
import proofs.«113907_j39831526703842_2_alg».proof.Proof.Gen.ReferenceIdeal.Read
import proofs.«113907_j39831526703842_2_alg».proof.Proof.Value.RefSpec

noncomputable section

namespace Cert.Value.RefRead

open Idealize.ShloMosaic Idealize.ShloMosaic.ValueIdx Idealize.ShloMosaic.StableHlo
open Cert.ReferenceIdeal Cert.ReferenceIdeal.Read Cert.Value.RefSpec
open scoped BigOperators

/-- The flat number of point n of batch b is below the number of points. -/
theorem flat_lt (b : Fin 16) (n : Fin 200000) : n.val + 200000 * b.val < 3200000 := by
  have := b.isLt; have := n.isLt; omega

/-- The flat point n + 200000 · b. -/
abbrev flatPt (b : Fin 16) (n : Fin 200000) : Fin 3200000 := ⟨n.val + 200000 * b.val, flat_lt b n⟩

section
variable (x0 : (⟨S16x200000x4, .f32⟩ : BufTy).Contents (Elt Ideal))

/-! ## The index maps at a point -/

theorem idx_v1_pt (b : Fin 16) (n : Fin 200000) : idx_main_v1 (ix2 b n) = ix3 b n (0 : Fin 1) := by
  funext a
  match a with
  | ⟨0, _⟩ => exact Fin.ext (by show (b.val * 200000 + n.val) / 200000 = b.val; have := n.isLt; omega)
  | ⟨1, _⟩ => exact Fin.ext (by show (b.val * 200000 + n.val) / 1 % 200000 = n.val; have := n.isLt; omega)
  | ⟨2, _⟩ => rfl

theorem idx_v0_pt (b : Fin 16) (n : Fin 200000) : idx_main_v0 (ix3 b n (0 : Fin 1)) = ix3 b n (0 : Fin 4) := by
  funext a
  match a with
  | ⟨0, _⟩ => rfl
  | ⟨1, _⟩ => rfl
  | ⟨2, _⟩ => rfl

theorem idx_v6_pt (b : Fin 16) (n : Fin 200000) : idx_main_v6 (ix3 b n (0 : Fin 1)) = ix3 b n (1 : Fin 4) := by
  funext a
  match a with
  | ⟨0, _⟩ => rfl
  | ⟨1, _⟩ => rfl
  | ⟨2, _⟩ => rfl

theorem idx_v38_pt (b : Fin 16) (n : Fin 200000) : idx_main_v38 (ix1 (flatPt b n)) = ix2 b n := by
  funext a
  match a with
  | ⟨0, _⟩ => exact Fin.ext (by show (n.val + 200000 * b.val) / 200000 = b.val; have := n.isLt; omega)
  | ⟨1, _⟩ => exact Fin.ext (by show (n.val + 200000 * b.val) % 200000 = n.val; have := n.isLt; omega)

theorem idx_v42_pt (b : Fin 16) (n : Fin 200000) (f : Fin 4) : idx_main_v42 (ix2 (flatPt b n) f) = ix3 b n f := by
  funext a
  match a with
  | ⟨0, _⟩ => exact Fin.ext (by
      show ((n.val + 200000 * b.val) * 4 + f.val) / 800000 = b.val; have := n.isLt; have := f.isLt; omega)
  | ⟨1, _⟩ => exact Fin.ext (by
      show ((n.val + 200000 * b.val) * 4 + f.val) / 4 % 200000 = n.val; have := n.isLt; have := f.isLt; omega)
  | ⟨2, _⟩ => exact Fin.ext (by
      show ((n.val + 200000 * b.val) * 4 + f.val) % 4 = f.val; have := f.isLt; omega)

/-! ## The words of a point -/

/-- The column word of point (b, n). -/
theorem v13_at (b : Fin 16) (n : Fin 200000) : val_main_v13 (F := Ideal) x0 (ix2 b n) = xi x0 b n := by
  rw [val_main_v13_apply, val_main_v12_apply, val_main_v5_apply, val_main_v3_apply, val_main_v1_apply, val_main_v0_apply,
    val_main_v2_apply, val_main_cst_apply, val_main_v4_apply, val_main_cst_0_apply, idx_v1_pt, idx_v0_pt]
  rfl

/-- The row word of point (b, n). -/
theorem v15_at (b : Fin 16) (n : Fin 200000) : val_main_v15 (F := Ideal) x0 (ix2 b n) = yi x0 b n := by
  rw [val_main_v15_apply, val_main_v14_apply, val_main_v11_apply, val_main_v9_apply, val_main_v7_apply, val_main_v6_apply,
    val_main_v8_apply, val_main_cst_1_apply, val_main_v10_apply, val_main_cst_2_apply]
  rw [show idx_main_v7 (ix2 b n) = ix3 b n (0 : Fin 1) from idx_v1_pt b n, idx_v6_pt]
  rfl

/-- The validity bit of point (b, n). -/
theorem v26_at (b : Fin 16) (n : Fin 200000) : val_main_v26 (F := Ideal) x0 (ix2 b n) = valid x0 b n := by
  rw [val_main_v26_apply, val_main_v23_apply, val_main_v20_apply, val_main_v17_apply, val_main_v19_apply,
    val_main_v22_apply, val_main_v25_apply, v13_at, v15_at, val_main_v16_apply, val_main_c_apply, val_main_v18_apply,
    val_main_c_3_apply, val_main_v21_apply, val_main_c_4_apply, val_main_v24_apply, val_main_c_5_apply]
  rfl

/-- The validity bit of point (b, n) as a number. -/
theorem v27_at (b : Fin 16) (n : Fin 200000) : val_main_v27 (F := Ideal) x0 (ix2 b n) = vf x0 b n := by
  rw [val_main_v27_apply, v26_at]
  rfl

/-- The flat word of point (b, n). -/
theorem v37_at (b : Fin 16) (n : Fin 200000) : val_main_v37 (F := Ideal) x0 (ix2 b n) = flatWord x0 b n := by
  rw [val_main_v37_apply, val_main_v36_apply, val_main_v35_apply, val_main_v33_apply, val_main_v32_apply,
    val_main_v34_apply, val_main_c_8_apply, val_main_v31_apply, v26_at, val_main_v30_apply, val_main_v29_apply, v15_at,
    v13_at, val_main_v28_apply, val_main_c_6_apply, val_main_call0_v1_apply, val_main_call0_v0_apply,
    val_main_c_7_apply]
  rfl

/-- The flat word of the flat point n + 200000 · b. -/
theorem v38_at (b : Fin 16) (n : Fin 200000) : val_main_v38 (F := Ideal) x0 (ix1 (flatPt b n)) = flatWord x0 b n := by
  rw [val_main_v38_apply, idx_v38_pt, v37_at]

/-- The validity number of the flat point n + 200000 · b. -/
theorem v47_at (b : Fin 16) (n : Fin 200000) : val_main_v47 (F := Ideal) x0 (ix1 (flatPt b n)) = vf x0 b n := by
  rw [val_main_v47_apply, show idx_main_v47 (ix1 (flatPt b n)) = ix2 b n from idx_v38_pt b n, v27_at]

/-- Feature f of the flat point n + 200000 · b, masked by validity. -/
theorem v42_at (b : Fin 16) (n : Fin 200000) (f : Fin 4) :
    val_main_v42 (F := Ideal) x0 (ix2 (flatPt b n) f) = x0 (ix3 b n f) * vf x0 b n := by
  rw [val_main_v42_apply, idx_v42_pt, val_main_v41_apply, val_main_v40_apply, val_main_v39_apply]
  have e : idx_main_v39 (idx_main_v40 (ix3 b n f)) = ix2 b n :=
    funext fun a => by match a with | ⟨0, _⟩ => rfl | ⟨1, _⟩ => rfl
  rw [e, v27_at]
  rfl

/-- The scatter indices at row j are the flat word of the flat point j (both scatters read the same words). -/
theorem v44_at (b : Fin 16) (n : Fin 200000) :
    val_main_v44 (F := Ideal) x0 (ix2 (n0 := 3200000) (n1 := 1) (flatPt b n) ⟨0, Nat.one_pos⟩) = flatWord x0 b n := by
  rw [val_main_v44_apply]
  have e : idx_main_v44 (ix2 (n0 := 3200000) (n1 := 1) (flatPt b n) ⟨0, Nat.one_pos⟩) = ix1 (flatPt b n) :=
    funext fun a => by match a with | ⟨0, _⟩ => rfl
  rw [e, v38_at]

theorem v49_at (b : Fin 16) (n : Fin 200000) :
    val_main_v49 (F := Ideal) x0 (ix2 (n0 := 3200000) (n1 := 1) (flatPt b n) ⟨0, Nat.one_pos⟩) = flatWord x0 b n := by
  rw [val_main_v49_apply]
  have e : idx_main_v49 (ix2 (n0 := 3200000) (n1 := 1) (flatPt b n) ⟨0, Nat.one_pos⟩) = ix1 (flatPt b n) :=
    funext fun a => by match a with | ⟨0, _⟩ => rfl
  rw [e, v38_at]

end

end Cert.Value.RefRead

end
-- ==== Proof.LibFlatScatter.lean ====
/-
  The scatter-add of a flat histogram, read at an index.

  A one-axis operand of `N` entries receives `M` updates; update `j` carries one start index, the word the
  scatter indices hold at `(j, 0)`, read signed and not clamped. The update lands at entry `i` exactly when that
  signed integer is `i`; an update whose integer is outside `[0, N)` is dropped. So entry `i` of the result is the
  operand's entry plus the sum of the updates whose word reads `i`.
-/
import Idealize.ShloMosaic.PureOps.Ideal
import Idealize.ShloMosaic.PureOps.Ideal.Laws
import Idealize.ShloMosaic.Lib.ValueIdx

noncomputable section

namespace Cert.ReferenceIdeal.RefValue

open Idealize.ShloMosaic Idealize.ShloMosaic.ValueIdx
open scoped BigOperators

/-- The dimension numbers of `x.at[idx].add(u)` for a flat `x : [N]`, `idx : [M, 1]`, `u : [M]`. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The scatter-indices index `(j, 0)` of update `j`. -/
abbrev flatSi {M : Nat} (j : (⟨1, ![M]⟩ : Shape).Idx) : (⟨2, ![M, 1]⟩ : Shape).Idx :=
  ix2 (n0 := M) (n1 := 1) ⟨(j 0).val, (j 0).isLt⟩ ⟨0, Nat.one_pos⟩

section
variable {N M w : Nat} (wf : ScatterDims.WF ⟨1, ![N]⟩ ⟨2, ![M, 1]⟩ ⟨1, ![M]⟩ [] [0] [0] 1)

/-- The start of update `j` on the one operand axis is its word read signed. -/
theorem flatScatter_start (idx : IVec ⟨2, ![M, 1]⟩ w) (j : (⟨1, ![M]⟩ : Shape).Idx) (a : Fin 1) :
    (flatScatterDims N M wf).start j idx a = (idx (flatSi j)).toInt := by
  obtain rfl : a = 0 := Subsingleton.elim _ _
  unfold ScatterDims.start
  rw [dif_pos (show (0 : Fin 1) ∈ (flatScatterDims N M wf).scatterDimsToOperandDims from List.mem_singleton.mpr rfl)]
  have hsi : (flatScatterDims N M wf).siIdx j ⟨List.idxOf (0 : Fin 1) (flatScatterDims N M wf).scatterDimsToOperandDims,
      List.idxOf_lt_length_iff.2 (List.mem_singleton.mpr rfl)⟩ = flatSi j := by
    funext b; refine Fin.ext ?_
    match b with
    | ⟨0, _⟩ => rfl
    | ⟨1, _⟩ => rfl
  rw [hsi]

/-- There is no window axis: the window coordinate is zero. -/
theorem flatScatter_window (j : (⟨1, ![M]⟩ : Shape).Idx) (a : Fin 1) :
    (flatScatterDims N M wf).window j a = 0 := by
  obtain rfl : a = 0 := Subsingleton.elim _ _
  unfold ScatterDims.window
  rw [dif_neg]
  intro h
  have : (0 : Fin 1) ∉ [(0 : Fin 1)] := (List.mem_filter.1 h).2 |> of_decide_eq_true
  exact this (List.mem_singleton.mpr rfl)

/-- Update `j` lands at entry `i` exactly when its word, read signed, is `i`. -/
theorem flatScatter_resultIdx (idx : IVec ⟨2, ![M, 1]⟩ w) (j : (⟨1, ![M]⟩ : Shape).Idx) (i : (⟨1, ![N]⟩ : Shape).Idx) :
    (flatScatterDims N M wf).resultIdx? j idx = some i ↔ (idx (flatSi j)).toInt = ((i 0).val : Int) := by
  unfold ScatterDims.resultIdx?
  have hi : (i 0).val < N := (i 0).isLt
  split
  · rename_i h
    have h0 := h 0
    rw [flatScatter_start, flatScatter_window] at h0
    constructor
    · intro e
      have e' := congrFun (Option.some.inj e) 0
      have e'' := congrArg Fin.val e'
      simp only [flatScatter_start, flatScatter_window] at e''
      omega
    · intro e
      congr 1
      funext a
      obtain rfl : a = 0 := Subsingleton.elim _ _
      refine Fin.ext ?_
      simp only [flatScatter_start, flatScatter_window]
      omega
  · rename_i h
    constructor
    · intro e; exact absurd e (by simp)
    · intro e
      exfalso; apply h
      intro a
      obtain rfl : a = 0 := Subsingleton.elim _ _
      rw [flatScatter_start, flatScatter_window, e]
      show 0 ≤ ((i 0).val : Int) + ((0 : Nat) : Int) ∧ ((i 0).val : Int) + ((0 : Nat) : Int) < (N : Int)
      omega

/-- **The flat scatter-add read at an entry**: the operand's entry plus the updates whose word reads that entry. -/
theorem flatScatterAdd_apply (x : (⟨1, ![N]⟩ : Shape).Idx → EReal) (idx : IVec ⟨2, ![M, 1]⟩ w)
    (upd : (⟨1, ![M]⟩ : Shape).Idx → EReal) (i : (⟨1, ![N]⟩ : Shape).Idx) :
    Ideal.hostScatterAdd (flatScatterDims N M wf) x idx upd i
      = x i + ∑ j : (⟨1, ![M]⟩ : Shape).Idx, if (idx (flatSi j)).toInt = ((i 0).val : Int) then upd j else 0 := by
  unfold Ideal.hostScatterAdd
  rw [Finset.sum_filter]
  congr 1
  refine Finset.sum_congr rfl fun j _ => ?_
  simp only [flatScatter_resultIdx]

end

/-! ## The flat sum over `R * C` updates as a double sum -/

/-- A sum over the flat update index `u < M = R * C` is the double sum over `(r, c)` with `u = c + C * r`. -/
theorem sum_flat_eq_double {R C M : Nat} (hM : R * C = M) (f : (⟨1, ![M]⟩ : Shape).Idx → EReal) :
    ∑ j : (⟨1, ![M]⟩ : Shape).Idx, f j
      = ∑ r : Fin R, ∑ c : Fin C, f (ix1 (n := M) ⟨c.val + C * r.val, by
          have := r.isLt; have := c.isLt
          calc c.val + C * r.val < C + C * r.val := by omega
            _ = C * (r.val + 1) := by ring
            _ ≤ C * R := Nat.mul_le_mul_left _ (by omega)
            _ = M := by rw [Nat.mul_comm]; exact hM⟩) := by
  subst hM
  let e : (⟨1, ![R * C]⟩ : Shape).Idx ≃ Fin R × Fin C :=
    { toFun := fun j => finProdFinEquiv.symm ⟨(j 0).val, (j 0).isLt⟩
      invFun := fun p => ix1 (n := R * C) (finProdFinEquiv p)
      left_inv := fun j => by
        funext a; match a with
        | ⟨0, _⟩ => exact Fin.ext (by simp; exact Nat.mod_add_div _ _)
      right_inv := fun p => by
        show finProdFinEquiv.symm (finProdFinEquiv p) = p
        exact Equiv.symm_apply_apply _ _ }
  rw [← Finset.sum_product', ← e.symm.sum_comp]
  rfl

/-! ## The words of the flat index -/

/-- `c · 100 + b` as 32-bit words, for a class `c < 40` and a bin word `b < 100`, does not wrap. -/
theorem flatWord_toNat (c : Nat) (hc : c < 40) (b : BitVec 32) (hb : b.toNat < 100) :
    (IntOp.addi (IntOp.muli (BitVec.ofNat 32 c) 100#32) b).toNat = c * 100 + b.toNat := by
  unfold IntOp.addi IntOp.muli
  rw [BitVec.toNat_add, BitVec.toNat_mul, BitVec.toNat_ofNat]
  have h100 : (100#32 : BitVec 32).toNat = 100 := rfl
  rw [h100]
  omega

/-- A word below `2^31` reads signed as its natural number. -/
theorem toInt_of_lt (f : BitVec 32) (h : f.toNat < 2147483648) : f.toInt = (f.toNat : Int) := by
  rw [BitVec.toInt_eq_toNat_cond, if_pos (by omega)]

/-- A word below `2^31` is not negative, so the negative-index wrap `select (f < 0) (f + n) f` keeps it. -/
theorem wrapSelect_of_lt (f n : BitVec 32) (h : f.toNat < 2147483648) :
    Scalar.select (IntOp.cmpi .slt f 0#32) (IntOp.addi f n) f = f := by
  have hs : f.slt 0#32 = false := by
    rw [BitVec.slt, toInt_of_lt f h]
    simp
  have hc : IntOp.cmpi .slt f 0#32 = 0#1 := by
    show BitVec.ofBool (f.slt 0#32) = 0#1
    rw [hs]; rfl
  rw [hc, select_zero]

end Cert.ReferenceIdeal.RefValue

end
-- ==== Proof.LibScatterRows.lean ====
/-
  The scatter-add of rows, read at an index.

  A two-axis operand of N rows of W entries receives M update rows of W entries; update row j carries one start
  index, the word the scatter indices hold at (j, 0), read signed and not clamped, and its entry f goes to
  entry f of the operand's row of that number. The update entry (j, f') lands at (i, f) exactly when the signed
  integer of row j is i and f' = f; an update row whose integer is outside [0, N) is dropped. So entry (i, f) of
  the result is the operand's entry plus the sum over the update rows whose word reads i of their entry f.
-/
import Idealize.ShloMosaic.PureOps.Ideal
import Idealize.ShloMosaic.PureOps.Ideal.Laws
import Idealize.ShloMosaic.Lib.ValueIdx
import proofs.«113907_j39831526703842_2_alg».proof.Proof.LibFlatScatter

noncomputable section

namespace Cert.Value.ScatterRows

open Idealize.ShloMosaic Idealize.ShloMosaic.ValueIdx
open scoped BigOperators

/-- The dimension numbers of x.at[idx].add(u) for rows: x : [N, W], idx : [M, 1], u : [M, W]. -/
abbrev rowScatterDims (N M W : Nat) (wf : ScatterDims.WF ⟨2, ![N, W]⟩ ⟨2, ![M, 1]⟩ ⟨2, ![M, W]⟩ [1] [0] [0] 1) :
    ScatterDims ⟨2, ![N, W]⟩ ⟨2, ![M, 1]⟩ ⟨2, ![M, W]⟩ where
  updateWindowDims := [1]
  insertedWindowDims := [0]
  scatterDimsToOperandDims := [0]
  indexVectorDim := 1
  wf := wf

/-- The scatter-indices index (j, 0) of update row j. -/
abbrev rowSi {M W : Nat} (j : (⟨2, ![M, W]⟩ : Shape).Idx) : (⟨2, ![M, 1]⟩ : Shape).Idx :=
  ix2 (n0 := M) (n1 := 1) ⟨(j 0).val, (j 0).isLt⟩ ⟨0, Nat.one_pos⟩

section
variable {N M W w : Nat} (wf : ScatterDims.WF ⟨2, ![N, W]⟩ ⟨2, ![M, 1]⟩ ⟨2, ![M, W]⟩ [1] [0] [0] 1)

/-- On the row axis the start of update (j, ·) is the word of row j read signed. -/
theorem rowScatter_start0 (idx : IVec ⟨2, ![M, 1]⟩ w) (j : (⟨2, ![M, W]⟩ : Shape).Idx) :
    (rowScatterDims N M W wf).start j idx (0 : Fin 2) = (idx (rowSi j)).toInt := by
  unfold ScatterDims.start
  rw [dif_pos (show (0 : Fin 2) ∈ (rowScatterDims N M W wf).scatterDimsToOperandDims from List.mem_singleton.mpr rfl)]
  have hsi : (rowScatterDims N M W wf).siIdx j ⟨List.idxOf (0 : Fin 2) (rowScatterDims N M W wf).scatterDimsToOperandDims,
      List.idxOf_lt_length_iff.2 (List.mem_singleton.mpr rfl)⟩ = rowSi j := by
    funext b; refine Fin.ext ?_
    match b with
    | ⟨0, _⟩ => rfl
    | ⟨1, _⟩ => rfl
  rw [hsi]

/-- On the entry axis, which no start index names, the start is zero. -/
theorem rowScatter_start1 (idx : IVec ⟨2, ![M, 1]⟩ w) (j : (⟨2, ![M, W]⟩ : Shape).Idx) :
    (rowScatterDims N M W wf).start j idx (1 : Fin 2) = 0 := by
  unfold ScatterDims.start
  rw [dif_neg]
  intro h
  have h' : (1 : Fin 2) = 0 := List.mem_singleton.mp h
  exact absurd h' (by decide)

/-- The row axis is inserted: its window coordinate is zero. -/
theorem rowScatter_window0 (j : (⟨2, ![M, W]⟩ : Shape).Idx) :
    (rowScatterDims N M W wf).window j (0 : Fin 2) = 0 := by
  unfold ScatterDims.window
  rw [dif_neg]
  intro h
  have : (0 : Fin 2) ∉ [(0 : Fin 2)] := (List.mem_filter.1 h).2 |> of_decide_eq_true
  exact this (List.mem_singleton.mpr rfl)

/-- The entry axis is the window axis: its window coordinate is the update's entry number. -/
theorem rowScatter_window1 (j : (⟨2, ![M, W]⟩ : Shape).Idx) :
    (rowScatterDims N M W wf).window j (1 : Fin 2) = (j 1).val := by
  unfold ScatterDims.window
  have hk : (1 : Fin 2) ∈ (List.finRange 2).filter (· ∉ [(0 : Fin 2)]) := by decide
  rw [dif_pos (show (1 : Fin 2) ∈ (rowScatterDims N M W wf).sKept from hk)]
  rfl

/-- Update entry j lands at (i₀, i₁) exactly when the word of its row, read signed, is i₀ and its entry number is i₁. -/
theorem rowScatter_resultIdx (idx : IVec ⟨2, ![M, 1]⟩ w) (j : (⟨2, ![M, W]⟩ : Shape).Idx) (i : (⟨2, ![N, W]⟩ : Shape).Idx) :
    (rowScatterDims N M W wf).resultIdx? j idx = some i
      ↔ (idx (rowSi j)).toInt = ((i 0).val : Int) ∧ (j 1).val = (i 1).val := by
  unfold ScatterDims.resultIdx?
  have hi0 : (i 0).val < N := (i 0).isLt
  have hi1 : (i 1).val < W := (i 1).isLt
  have hj1 : (j 1).val < W := (j 1).isLt
  split
  · rename_i h
    have h0 := h 0
    rw [rowScatter_start0, rowScatter_window0] at h0
    constructor
    · intro e
      have e0 := congrArg Fin.val (congrFun (Option.some.inj e) 0)
      have e1 := congrArg Fin.val (congrFun (Option.some.inj e) 1)
      simp only [rowScatter_start0, rowScatter_window0, rowScatter_start1, rowScatter_window1] at e0 e1
      constructor
      · omega
      · omega
    · rintro ⟨e0, e1⟩
      congr 1
      funext a
      refine Fin.ext ?_
      match a with
      | ⟨0, _⟩ =>
        show ((rowScatterDims N M W wf).start j idx 0 + ((rowScatterDims N M W wf).window j 0 : Int)).toNat = (i 0).val
        rw [rowScatter_start0, rowScatter_window0]; omega
      | ⟨1, _⟩ =>
        show ((rowScatterDims N M W wf).start j idx 1 + ((rowScatterDims N M W wf).window j 1 : Int)).toNat = (i 1).val
        rw [rowScatter_start1, rowScatter_window1]; omega
  · rename_i h
    constructor
    · intro e; exact absurd e (by simp)
    · rintro ⟨e0, e1⟩
      exfalso; apply h
      intro a
      match a with
      | ⟨0, _⟩ =>
        show 0 ≤ (rowScatterDims N M W wf).start j idx 0 + ((rowScatterDims N M W wf).window j 0 : Int)
          ∧ (rowScatterDims N M W wf).start j idx 0 + ((rowScatterDims N M W wf).window j 0 : Int) < (N : Int)
        rw [rowScatter_start0, rowScatter_window0, e0]; omega
      | ⟨1, _⟩ =>
        show 0 ≤ (rowScatterDims N M W wf).start j idx 1 + ((rowScatterDims N M W wf).window j 1 : Int)
          ∧ (rowScatterDims N M W wf).start j idx 1 + ((rowScatterDims N M W wf).window j 1 : Int) < (W : Int)
        rw [rowScatter_start1, rowScatter_window1]; omega

/-- **The row scatter-add read at an entry**: the operand's entry plus, over the update rows whose word reads the
    entry's row, their entry of the same number. -/
theorem rowScatterAdd_apply (x : (⟨2, ![N, W]⟩ : Shape).Idx → EReal) (idx : IVec ⟨2, ![M, 1]⟩ w)
    (upd : (⟨2, ![M, W]⟩ : Shape).Idx → EReal) (i : Fin N) (f : Fin W) :
    Ideal.hostScatterAdd (rowScatterDims N M W wf) x idx upd (ix2 i f)
      = x (ix2 i f) + ∑ j : Fin M,
          if (idx (ix2 (n0 := M) (n1 := 1) j ⟨0, Nat.one_pos⟩)).toInt = (i.val : Int) then upd (ix2 j f) else 0 := by
  unfold Ideal.hostScatterAdd
  rw [Finset.sum_filter, sum_idx2]
  congr 1
  refine Finset.sum_congr rfl fun j _ => ?_
  simp only [rowScatter_resultIdx]
  have hsi : ∀ c : Fin W, rowSi (ix2 j c) = ix2 (n0 := M) (n1 := 1) j ⟨0, Nat.one_pos⟩ := fun c => rfl
  by_cases hA : (idx (ix2 (n0 := M) (n1 := 1) j ⟨0, Nat.one_pos⟩)).toInt = (i.val : Int)
  · rw [if_pos hA]
    rw [Finset.sum_eq_single f]
    · rw [if_pos ⟨by rw [hsi]; exact hA, rfl⟩]
    · intro c _ hc
      rw [if_neg]
      rintro ⟨_, e⟩
      exact hc (Fin.ext e)
    · intro h; exact absurd (Finset.mem_univ f) h
  · rw [if_neg hA]
    refine Finset.sum_eq_zero fun c _ => ?_
    rw [if_neg]
    rintro ⟨e, _⟩
    exact hA (by rw [hsi] at e; exact e)

/-- The same, said of the host's accumulating scatter at the exact instance, which is that scatter-add, for
    every N, M and W. -/
theorem host_rowScatterAdd_apply (x : FVec Ideal ⟨2, ![N, W]⟩ .f32) (idx : IVec ⟨2, ![M, 1]⟩ w)
    (upd : FVec Ideal ⟨2, ![M, W]⟩ .f32) (i : Fin N) (f : Fin W) :
    Host.scatterAdd (rowScatterDims N M W wf) x idx upd (ix2 i f)
      = x (ix2 i f) + ∑ j : Fin M,
          if (idx (ix2 (n0 := M) (n1 := 1) j ⟨0, Nat.one_pos⟩)).toInt = (i.val : Int) then upd (ix2 j f) else 0 :=
  rowScatterAdd_apply wf x idx upd i f

end

section
open Cert.ReferenceIdeal.RefValue
variable {N M w : Nat} (wf : ScatterDims.WF ⟨1, ![N]⟩ ⟨2, ![M, 1]⟩ ⟨1, ![M]⟩ [] [0] [0] 1)

/-- The flat scatter-add read at an entry, said of the host's accumulating scatter at the exact instance, for
    every N and M. -/
theorem host_flatScatterAdd_apply (x : FVec Ideal ⟨1, ![N]⟩ .f32) (idx : IVec ⟨2, ![M, 1]⟩ w)
    (upd : FVec Ideal ⟨1, ![M]⟩ .f32) (i : (⟨1, ![N]⟩ : Shape).Idx) :
    Host.scatterAdd (flatScatterDims N M wf) x idx upd i
      = x i + ∑ j : (⟨1, ![M]⟩ : Shape).Idx, if (idx (flatSi j)).toInt = ((i 0).val : Int) then upd j else 0 :=
  flatScatterAdd_apply wf x idx upd i

end

end Cert.Value.ScatterRows

end
-- ==== Proof.Value.RefReadHead.lean ====
/-
  The reference's result read at an index, first half: the five features of a cell from the two scatters.

  The count scatter is the flat scatter-add of the validity numbers at the flat words, the sum scatter the row
  scatter-add of the masked features at the same words; both start from zero. Read at cell k of batch b, that is at
  entry b · 40000 + k, and with the 3200000 update rows numbered as point n of batch b' at n + 200000 · b', they are
  the count and the sums of the program-free definitions. The concatenation puts the four quotients first and the
  count fifth.
-/
import proofs.«113907_j39831526703842_2_alg».proof.Proof.Gen.ReferenceIdeal.Read
import proofs.«113907_j39831526703842_2_alg».proof.Proof.Value.RefSpec
import proofs.«113907_j39831526703842_2_alg».proof.Proof.Value.RefReadWords
import proofs.«113907_j39831526703842_2_alg».proof.Proof.LibFlatScatter
import proofs.«113907_j39831526703842_2_alg».proof.Proof.LibScatterRows

noncomputable section

namespace Cert.Value.RefRead

open Idealize.ShloMosaic Idealize.ShloMosaic.ValueIdx Idealize.ShloMosaic.StableHlo
open Cert.ReferenceIdeal Cert.ReferenceIdeal.Read Cert.Value.RefSpec
open Cert.ReferenceIdeal.RefValue Cert.Value.ScatterRows
open scoped BigOperators

/-- A sum over the M = R · C flat numbers is the double sum over (r, c) with the number c + C · r. -/
theorem sum_fin_eq_double {R C M : Nat} (hM : R * C = M) (g : Fin M → EReal) :
    ∑ j : Fin M, g j = ∑ r : Fin R, ∑ c : Fin C, g ⟨c.val + C * r.val, by
        have := r.isLt; have := c.isLt
        calc c.val + C * r.val < C + C * r.val := by omega
          _ = C * (r.val + 1) := by ring
          _ ≤ C * R := Nat.mul_le_mul_left _ (by omega)
          _ = M := by rw [Nat.mul_comm]; exact hM⟩ := by
  subst hM
  rw [← Equiv.sum_comp finProdFinEquiv g, Fintype.sum_prod_type]
  rfl

/-- A sum over the 3200000 flat points is the double sum over batches and points. -/
theorem sum_pts (g : Fin 3200000 → EReal) :
    ∑ j : Fin 3200000, g j = ∑ b : Fin 16, ∑ n : Fin 200000, g (flatPt b n) :=
  sum_fin_eq_double (R := 16) (C := 200000) (by norm_num) g

/-- Entry b · 40000 + k is an entry of the 640000. -/
theorem cell_lt (b : Fin 16) (k : Fin 40000) : b.val * 40000 + k.val < 640000 := by
  have := b.isLt; have := k.isLt; omega

/-- The flat number of cell k of batch b. -/
abbrev cellPt (b : Fin 16) (k : Fin 40000) : Fin 640000 := ⟨b.val * 40000 + k.val, cell_lt b k⟩

section
variable (x0 : (⟨S16x200000x4, .f32⟩ : BufTy).Contents (Elt Ideal))

/-- The count scatter's dimension numbers are the flat scatter-add's. -/
theorem dims_v50 : scatter_S640000_S3200000x1_S3200000_n_0_0_1
    = flatScatterDims 640000 3200000 Cert.ReferenceIdeal.Gen.scatter_S640000_S3200000x1_S3200000_n_0_0_1_wf := rfl

/-- The sum scatter's dimension numbers are the row scatter-add's. -/
theorem dims_v45 : scatter_S640000x4_S3200000x1_S3200000x4_1_0_0_1
    = rowScatterDims 640000 3200000 4 Cert.ReferenceIdeal.Gen.scatter_S640000x4_S3200000x1_S3200000x4_1_0_0_1_wf := rfl

/-- The count scatter at cell k of batch b. -/
theorem v50_at (b : Fin 16) (k : Fin 40000) :
    val_main_v50 (F := Ideal) x0 (ix1 (cellPt b k)) = count x0 b k := by
  unfold val_main_v50
  rw [dims_v50, host_flatScatterAdd_apply, val_main_v48_apply, val_main_cst_10_apply,
    sum_flat_eq_double (R := 16) (C := 200000) (by norm_num)]
  rw [Ideal.ofBits_def, Ideal.ofBits_zero_f32, zero_add]
  unfold RefSpec.count
  refine Finset.sum_congr rfl fun b' _ => Finset.sum_congr rfl fun n _ => ?_
  have e1 : val_main_v49 (F := Ideal) x0 (flatSi (ix1 (flatPt b' n))) = flatWord x0 b' n := v49_at x0 b' n
  have e2 : val_main_v47 (F := Ideal) x0 (ix1 (flatPt b' n)) = vf x0 b' n := v47_at x0 b' n
  refine (if_congr ?_ e2 rfl)
  rw [e1]
  exact Iff.rfl

/-- The sum scatter at cell k of batch b, feature f. -/
theorem v45_at (b : Fin 16) (k : Fin 40000) (f : Fin 4) :
    val_main_v45 (F := Ideal) x0 (ix2 (cellPt b k) f) = sumFeat x0 b k f := by
  unfold val_main_v45
  rw [dims_v45, host_rowScatterAdd_apply, val_main_v43_apply, val_main_cst_9_apply, sum_pts]
  rw [Ideal.ofBits_def, Ideal.ofBits_zero_f32, zero_add]
  unfold sumFeat
  refine Finset.sum_congr rfl fun b' _ => Finset.sum_congr rfl fun n _ => ?_
  have e1 := v44_at x0 b' n
  have e2 := v42_at x0 b' n f
  refine (if_congr ?_ e2 rfl)
  rw [e1]
  exact Iff.rfl

/-! ## The reshapes of the two scatters at a cell -/

theorem idx_v46_cell (b : Fin 16) (k : Fin 40000) (f : Fin 4) : idx_main_v46 (ix3 b k f) = ix2 (cellPt b k) f := by
  funext a
  match a with
  | ⟨0, _⟩ => exact Fin.ext (by
      show ((b.val * 40000 + k.val) * 4 + f.val) / 4 = b.val * 40000 + k.val; have := f.isLt; omega)
  | ⟨1, _⟩ => exact Fin.ext (by
      show ((b.val * 40000 + k.val) * 4 + f.val) % 4 = f.val; have := f.isLt; omega)

theorem idx_v51_cell (b : Fin 16) (k : Fin 40000) (z : Fin 1) : idx_main_v51 (ix3 b k z) = ix1 (cellPt b k) := by
  funext a
  match a with
  | ⟨0, _⟩ => exact Fin.ext (by
      show (b.val * 40000 + k.val) * 1 + z.val = b.val * 40000 + k.val; have := z.isLt; omega)

/-- The count of cell k of batch b, as the reference reshapes it. -/
theorem v51_at (b : Fin 16) (k : Fin 40000) (z : Fin 1) :
    val_main_v51 (F := Ideal) x0 (ix3 b k z) = count x0 b k := by
  rw [val_main_v51_apply, idx_v51_cell, v50_at]

/-- The mean of feature f over cell k of batch b. -/
theorem v55_at (b : Fin 16) (k : Fin 40000) (f : Fin 4) :
    val_main_v55 (F := Ideal) x0 (ix3 b k f)
      = Ideal.div (sumFeat x0 b k f) (max (count x0 b k) (Ideal.ofBits .f32 0x3F800000#32)) := by
  rw [val_main_v55_apply, val_main_v46_apply, idx_v46_cell, v45_at, val_main_v54_apply, val_main_v53_apply]
  have e : idx_main_v54 (ix3 b k f) = ix3 b k (0 : Fin 1) :=
    funext fun a => by match a with | ⟨0, _⟩ => rfl | ⟨1, _⟩ => rfl | ⟨2, _⟩ => rfl
  rw [e, v51_at, val_main_v52_apply, val_main_cst_11_apply]
  rfl

/-- **The five features of cell k of batch b.** -/
theorem v56_at (b : Fin 16) (k : Fin 40000) (f : Fin 5) :
    val_main_v56 (F := Ideal) x0 (ix3 b k f) = featRef x0 b k f := by
  unfold featRef
  by_cases h : f.val < 4
  · rw [dif_pos h]
    unfold val_main_v56
    rw [concatenate_pair_apply_left (t := S16x40000x5) (s₁ := S16x40000x4) (s₂ := S16x40000x1) (2 : Fin 3) _ _ Cert.ReferenceIdeal.Gen.concatenates_S16x40000x4_S16x40000x1_S16x40000x5_d2 (ix3 b k f) rfl
      (ix3 b k (⟨f.val, h⟩ : Fin 4)) (fun a => by match a with | ⟨0, _⟩ => rfl | ⟨1, _⟩ => rfl | ⟨2, _⟩ => rfl)]
    exact v55_at x0 b k ⟨f.val, h⟩
  · rw [dif_neg h]
    have hf : f.val = 4 := by have := f.isLt; omega
    unfold val_main_v56
    rw [concatenate_pair_apply_right (t := S16x40000x5) (s₁ := S16x40000x4) (s₂ := S16x40000x1) (2 : Fin 3) _ _ Cert.ReferenceIdeal.Gen.concatenates_S16x40000x4_S16x40000x1_S16x40000x5_d2 (ix3 b k f) rfl rfl
      (ix3 b k (0 : Fin 1))
      (fun a ha => by
        match a, ha with
        | ⟨0, _⟩, _ => rfl
        | ⟨1, _⟩, _ => rfl
        | ⟨2, _⟩, ha => exact absurd rfl ha)
      (by show 0 + 4 = f.val; omega)]
    exact v51_at x0 b k 0

end

end Cert.Value.RefRead

end
-- ==== Proof.Value.RefRead.lean ====
/-
  The reference's result read at an index.

  Entry (b, k, e) of the reference's result is the row function of the five features of cell k of batch b: the
  perceptron and the layer normalisation of the first half, applied to the features the second half reads off the
  two scatters.
-/
import proofs.«113907_j39831526703842_2_alg».proof.Proof.Gen.ReferenceIdeal.Read
import proofs.«113907_j39831526703842_2_alg».proof.Proof.Value.RefSpec
import proofs.«113907_j39831526703842_2_alg».proof.Proof.Value.RefReadTail
import proofs.«113907_j39831526703842_2_alg».proof.Proof.Value.RefReadHead

noncomputable section

namespace Cert.Value.RefRead

open Idealize.ShloMosaic Idealize.ShloMosaic.ValueIdx
open Cert.ReferenceIdeal Cert.ReferenceIdeal.Read Cert.Value.RefSpec

section
variable (x0 : (⟨S16x200000x4, .f32⟩ : BufTy).Contents (Elt Ideal)) (x1 : (⟨S5x64, .f32⟩ : BufTy).Contents (Elt Ideal))
  (x2 : (⟨S64, .f32⟩ : BufTy).Contents (Elt Ideal)) (x3 : (⟨S64x96, .f32⟩ : BufTy).Contents (Elt Ideal))
  (x4 x5 x6 : (⟨S96, .f32⟩ : BufTy).Contents (Elt Ideal))

/-- The five features the reference holds for cell k of batch b are the program-free ones. -/
theorem feat56_eq (b : Fin 16) (k : Fin 40000) : feat56 x0 b k = featRef x0 b k :=
  funext fun f => v56_at x0 b k f

/-- **The reference's result at (b, k, e)**: the row function of the five features of cell k of batch b. -/
theorem v89_at (b : Fin 16) (k : Fin 40000) (e : Fin 96) :
    val_main_v89 (F := Ideal) x0 x1 x2 x3 x4 x5 x6 (ix3 b k e) = refRow (featRef x0 b k) x1 x2 x3 x4 x5 x6 e := by
  rw [v89_tail, feat56_eq]

end

end Cert.Value.RefRead

end
-- ==== Proof.Value.Algebraic.lean ====
/-
  The algebraic claim.  At the extended reals, on finite inputs, the idealized kernel's result array and the
  reference's are one array: both hold at (b, k, e) the reference's row function of the five features of cell
  k of batch b.  The common value is the reference's own term of the arguments.
-/
import proofs.«113907_j39831526703842_2_alg».proof.Proof.Value.KernelValue
import proofs.«113907_j39831526703842_2_alg».proof.Proof.Value.RefRead
import proofs.«113907_j39831526703842_2_alg».proof.Proof.Gen.KernelIdeal
import proofs.«113907_j39831526703842_2_alg».proof.Proof.Gen.ReferenceIdeal
import proofs.«113907_j39831526703842_2_alg».proof.Proof.Gen.Pre_finite_inputs

set_option maxRecDepth 16384

noncomputable section

namespace Cert.Value.Final

open Idealize.ShloMosaic Idealize.ShloMosaic.TcCoe Idealize.SL.Sem
open Idealize.ShloMosaic.ValueIdx
open Cert.KernelIdeal.Hand Cert.Value.Glue Cert.Value.Fin

/-- The kernel's result array is the reference's term of the arguments, when the first five arguments are real. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (h0 : AllReal (m ((c : Thread Cert.KernelIdeal.nD Cert.KernelIdeal.τ).loc Cert.KernelIdeal.main_arg0)))
    (h1 : AllReal (m ((c : Thread Cert.KernelIdeal.nD Cert.KernelIdeal.τ).loc Cert.KernelIdeal.main_arg1)))
    (h2 : AllReal (m ((c : Thread Cert.KernelIdeal.nD Cert.KernelIdeal.τ).loc Cert.KernelIdeal.main_arg2)))
    (h3 : AllReal (m ((c : Thread Cert.KernelIdeal.nD Cert.KernelIdeal.τ).loc Cert.KernelIdeal.main_arg3)))
    (h4 : AllReal (m ((c : Thread Cert.KernelIdeal.nD Cert.KernelIdeal.τ).loc Cert.KernelIdeal.main_arg4))) :
    (dat1 (V3 m ρ) c).arrAt 7 Cert.KernelIdeal.cfg1.N
      = Cert.ReferenceIdeal.Read.val_main_v89 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6)) := by
  funext i
  obtain ⟨b, k, e, rfl⟩ : ∃ (b : Fin 16) (k : Fin 40000) (e : Fin 96), i = ix3 b k e := ⟨i 0, i 1, i 2, eq_ix3 i⟩
  exact (kernel_value_at m ρ c h0 h1 h2 h3 h4 b k e).trans (Cert.Value.RefRead.v89_at _ _ _ _ _ _ _ b k e).symm

/-- THE ALGEBRAIC CLAIM. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.ReferenceIdeal.Read.val_main_v89 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩) (kernel_run m ρ)
    obtain ⟨h0, h1, h2, h3, h4, -, -⟩ := @finite_args Cert.Pre_finite_inputs.Gen.facts _ _ _ _ _ _ _ (hpre c)
    exact kernel_value m ρ c h0 h1 h2 h3 h4
  · refine (θ_run Cert.ReferenceIdeal.defs _ _).mono (fun r h c => ⟨?_, (h c).2⟩)
      (Cert.ReferenceIdeal.Value.run (F := Ideal) m' ρ')
    rw [(h c).1, Cert.ReferenceIdeal.Read.val_main_v89_eq, (hagree c).1, (hagree c).2.1, (hagree c).2.2.1, (hagree c).2.2.2.1,
      (hagree c).2.2.2.2.1, (hagree c).2.2.2.2.2.1, (hagree c).2.2.2.2.2.2]

end Cert.Value.Final

end
-- ==== Proof.lean ====
/-
  The certificate's claims assembled.  The word-level program and its idealization are the same text read at
  two float models, and their frame claims are one development made twice (the binning region, whose scratch
  accumulator is carried across the 40 tiles of a batch; the two host layout operations; the MLP and
  normalisation region).  The reference is a host program: its frame is its run with the result dropped.  The
  idealization pass rewrote nothing, so there is nothing to preserve.  The algebraic claim: at the extended
  reals the one-hot matrix products accumulated over the tiles are the reference's segment sums, and the two
  row functions (mean features, two dense layers, layer normalisation) agree on finite inputs.
-/
import proofs.«113907_j39831526703842_2_alg».proof.Defs
import proofs.«113907_j39831526703842_2_alg».proof.Proof.Gen.Kernel
import proofs.«113907_j39831526703842_2_alg».proof.Proof.Gen.Kernel.Skeleton
import proofs.«113907_j39831526703842_2_alg».proof.Proof.Gen.Kernel.Launch
import proofs.«113907_j39831526703842_2_alg».proof.Proof.Gen.Kernel.Regions
import proofs.«113907_j39831526703842_2_alg».proof.Proof.Gen.Kernel.Points
import proofs.«113907_j39831526703842_2_alg».proof.Proof.Gen.KernelIdeal
import proofs.«113907_j39831526703842_2_alg».proof.Proof.Gen.KernelIdeal.Skeleton
import proofs.«113907_j39831526703842_2_alg».proof.Proof.Gen.KernelIdeal.Launch
import proofs.«113907_j39831526703842_2_alg».proof.Proof.Gen.KernelIdeal.Regions
import proofs.«113907_j39831526703842_2_alg».proof.Proof.Gen.KernelIdeal.Points
import proofs.«113907_j39831526703842_2_alg».proof.Proof.Gen.ReferenceIdeal
import proofs.«113907_j39831526703842_2_alg».proof.Proof.Gen.Pre_finite_inputs
import proofs.«113907_j39831526703842_2_alg».proof.Proof.Gen.ReferenceIdeal.Run
import proofs.«113907_j39831526703842_2_alg».proof.Proof.Gen.ReferenceIdeal.Read
import proofs.«113907_j39831526703842_2_alg».proof.Proof.FrameKernel.Frame
import proofs.«113907_j39831526703842_2_alg».proof.Proof.FrameKernelIdeal.Frame
import proofs.«113907_j39831526703842_2_alg».proof.Proof.Value.Algebraic
import Idealize.ShloMosaic.Adequacy
import Idealize.ShloMosaic.Init

noncomputable section

namespace Cert.Proof

open Idealize.ShloMosaic Idealize.SL.Sem Cert.Kernel

theorem frame_k : @Cert.frame_Kernel Cert.Kernel.Gen.facts Cert.Pre_finite_inputs.Gen.facts :=
  fun m ρ _ => Cert.Kernel.Hand.frame m ρ
theorem frame_ki : @Cert.frame_KernelIdeal Cert.KernelIdeal.Gen.facts Cert.Pre_finite_inputs.Gen.facts :=
  fun m ρ _ => Cert.KernelIdeal.Hand.frame m ρ
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Value.Final.algebraic⟩

end Cert.Proof

end
